-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x14x14x2048 : Shape := ⟨4, ![128, 14, 14, 2048]⟩
abbrev S2x1404 : Shape := ⟨2, ![2, 1404]⟩
abbrev S2048x1024 : Shape := ⟨2, ![2048, 1024]⟩
abbrev S1024 : Shape := ⟨1, ![1024]⟩
abbrev S1024x2048 : Shape := ⟨2, ![1024, 2048]⟩
abbrev S2048 : Shape := ⟨1, ![2048]⟩
abbrev S_ : Shape := ⟨0, ![]⟩

class Facts : Prop where
  bcast_S_S128x14x14x2048 : S_.BroadcastsInDim S128x14x14x2048 (![] : Fin 0 → Fin S128x14x14x2048.rank)
  reducesTo_S128x14x14x2048_S_d0_1_2_3 : S128x14x14x2048.ReducesTo [0, 1, 2, 3] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2x1404 : S_.BroadcastsInDim S2x1404 (![] : Fin 0 → Fin S2x1404.rank)
  reducesTo_S2x1404_S_d0_1 : S2x1404.ReducesTo [0, 1] S_

variable [Facts]

def fn_part1 {F : FTy → Type} [FloatOps F] (main_arg1 : IVec S2x1404 32) (main_arg5 : FVec F S2048 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S2048 .f32 := Host.absf main_arg5
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_c_8 : IVec S_ 32 := constantI S_ 32 0#32
  let main_v24 : IVec S2x1404 32 := broadcastInDim S2x1404 ![] bcast_S_S2x1404 main_c_8
  let main_v25 : IVec S2x1404 1 := cmpi .sge main_arg1 main_v24
  let main_c_9 : IVec S_ 32 := constantI S_ 32 196#32
  let main_v26 : IVec S2x1404 32 := broadcastInDim S2x1404 ![] bcast_S_S2x1404 main_c_9
  let main_v27 : IVec S2x1404 1 := cmpi .slt main_arg1 main_v26
  let main_v28 : IVec S2x1404 1 := andi main_v25 main_v27
  let main_c_10 : IVec S_ 1 := constantI S_ 1 1#1
  let main_v29 : IVec S_ 1 := (fun x v => Host.reduce IntOp.andi x v reducesTo_S2x1404_S_d0_1 h_S_) main_v28 main_c_10
  let main_v30 : IVec S_ 1 := andi main_v23 main_v29
  main_v30

def fn {F : FTy → Type} [FloatOps F] (main_arg0 : FVec F S128x14x14x2048 .f32) (main_arg1 : IVec S2x1404 32) (main_arg2 : FVec F S2048x1024 .f32) (main_arg3 : FVec F S1024 .f32) (main_arg4 : FVec F S1024x2048 .f32) (main_arg5 : FVec F S2048 .f32) : IVec S_ 1 :=
  let main_v0 : FVec F S128x14x14x2048 .f32 := Host.absf main_arg0
  let main_cst : FVec F S_ .f32 := constant S_ .f32 0x7F800000#32
  let main_v1 : FVec F S128x14x14x2048 .f32 := broadcastInDim S128x14x14x2048 ![] bcast_S_S128x14x14x2048 main_cst
  let main_v2 : IVec S128x14x14x2048 1 := cmpf .olt main_v0 main_v1
  let main_c : IVec S_ 1 := constantI S_ 1 1#1
  let main_v3 : IVec S_ 1 := (fun x v => Host.reduce IntOp.andi x v reducesTo_S128x14x14x2048_S_d0_1_2_3 h_S_) main_v2 main_c
  let main_v4 : FVec F S2048x1024 .f32 := Host.absf main_arg2
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x2048 .f32 := Host.absf main_arg4
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg1 main_arg5 main_v13 main_v16
-- ==== Kernel.lean ====
abbrev S128x14x14x2048 : Shape := ⟨4, ![128, 14, 14, 2048]⟩
abbrev S2x1404 : Shape := ⟨2, ![2, 1404]⟩
abbrev S2048x1024 : Shape := ⟨2, ![2048, 1024]⟩
abbrev S1024 : Shape := ⟨1, ![1024]⟩
abbrev S1024x2048 : Shape := ⟨2, ![1024, 2048]⟩
abbrev S2048 : Shape := ⟨1, ![2048]⟩
abbrev S128x2048x14x14 : Shape := ⟨4, ![128, 2048, 14, 14]⟩
abbrev S25088x2048 : Shape := ⟨2, ![25088, 2048]⟩
abbrev S1x1404 : Shape := ⟨2, ![1, 1404]⟩
abbrev S1404 : Shape := ⟨1, ![1404]⟩
abbrev S_ : Shape := ⟨0, ![]⟩
abbrev S25088 : Shape := ⟨1, ![25088]⟩
abbrev S1404x1 : Shape := ⟨2, ![1404, 1]⟩
abbrev S1x1024 : Shape := ⟨2, ![1, 1024]⟩
abbrev S1x2048 : Shape := ⟨2, ![1, 2048]⟩
abbrev S196x2048 : Shape := ⟨2, ![196, 2048]⟩
abbrev S196x1024 : Shape := ⟨2, ![196, 1024]⟩
abbrev S1404x1024 : Shape := ⟨2, ![1404, 1024]⟩
abbrev S196 : Shape := ⟨1, ![196]⟩
abbrev S196x1 : Shape := ⟨2, ![196, 1]⟩
abbrev S1404x2048 : Shape := ⟨2, ![1404, 2048]⟩
abbrev S1 : Shape := ⟨1, ![1]⟩
abbrev S512x2048 : Shape := ⟨2, ![512, 2048]⟩
abbrev S512x1024 : Shape := ⟨2, ![512, 1024]⟩

abbrev nBuf : Space → Nat
  | .hbm => 134
  | .vmem => 8
  | .smem => 0
  | _ => 0

abbrev hbmTy0_0 (i : Nat) : BufTy := match i % 128 with
  | 0 => ⟨S128x14x14x2048, .f32⟩
  | 1 => ⟨S2x1404, .i32⟩
  | 2 => ⟨S2048x1024, .f32⟩
  | 3 => ⟨S1024, .f32⟩
  | 4 => ⟨S1024x2048, .f32⟩
  | 5 => ⟨S2048, .f32⟩
  | 6 => ⟨S128x2048x14x14, .f32⟩
  | 7 => ⟨S25088x2048, .f32⟩
  | 8 => ⟨S1x1404, .i32⟩
  | 9 => ⟨S1404, .i32⟩
  | 10 => ⟨S1x1404, .i32⟩
  | 11 => ⟨S1404, .i32⟩
  | 12 => ⟨S_, .f32⟩
  | 13 => ⟨S25088, .f32⟩
  | 14 => ⟨S_, .i32⟩
  | 15 => ⟨S1404, .i32⟩
  | 16 => ⟨S1404, .i1⟩
  | 17 => ⟨S_, .i32⟩
  | 18 => ⟨S1404, .i32⟩
  | 19 => ⟨S1404, .i32⟩
  | 20 => ⟨S1404, .i32⟩
  | 21 => ⟨S1404x1, .i32⟩
  | 22 => ⟨S_, .f32⟩
  | 23 => ⟨S1404, .f32⟩
  | 24 => ⟨S25088, .f32⟩
  | 25 => ⟨S25088, .f32⟩
  | 26 => ⟨S2048x1024, .bf16⟩
  | 27 => ⟨S1024x2048, .bf16⟩
  | 28 => ⟨S1x1024, .f32⟩
  | 29 => ⟨S1x2048, .f32⟩
  | 30 => ⟨S25088x2048, .f32⟩
  | 31 => ⟨S196x2048, .f32⟩
  | 32 => ⟨S196x1024, .f32⟩
  | 33 => ⟨S_, .i32⟩
  | 34 => ⟨S1404, .i32⟩
  | 35 => ⟨S1404, .i1⟩
  | 36 => ⟨S_, .i32⟩
  | 37 => ⟨S1404, .i32⟩
  | 38 => ⟨S1404, .i32⟩
  | 39 => ⟨S1404, .i32⟩
  | 40 => ⟨S1404x1, .i32⟩
  | 41 => ⟨S1404, .f32⟩
  | 42 => ⟨S_, .i32⟩
  | 43 => ⟨S1404, .i32⟩
  | 44 => ⟨S1404, .i1⟩
  | 45 => ⟨S_, .i32⟩
  | 46 => ⟨S1404, .i32⟩
  | 47 => ⟨S1404, .i32⟩
  | 48 => ⟨S1404, .i32⟩
  | 49 => ⟨S1404x1, .i32⟩
  | 50 => ⟨S1404, .f32⟩
  | 51 => ⟨S1404, .f32⟩
  | 52 => ⟨S1404x1, .f32⟩
  | 53 => ⟨S_, .i32⟩
  | 54 => ⟨S1404, .i32⟩
  | 55 => ⟨S1404, .i1⟩
  | 56 => ⟨S_, .i32⟩
  | 57 => ⟨S1404, .i32⟩
  | 58 => ⟨S1404, .i32⟩
  | 59 => ⟨S1404, .i32⟩
  | 60 => ⟨S1404x1, .i32⟩
  | 61 => ⟨S1404x1024, .f32⟩
  | 62 => ⟨S1404x1024, .f32⟩
  | 63 => ⟨S1404x1024, .f32⟩
  | 64 => ⟨S_, .f32⟩
  | 65 => ⟨S196x1024, .f32⟩
  | 66 => ⟨S1404x1, .i32⟩
  | 67 => ⟨S196x1024, .f32⟩
  | 68 => ⟨S196, .f32⟩
  | 69 => ⟨S196, .f32⟩
  | 70 => ⟨S196, .f32⟩
  | 71 => ⟨S196x1, .f32⟩
  | 72 => ⟨S196x1024, .f32⟩
  | 73 => ⟨S196x1024, .f32⟩
  | 74 => ⟨S196x1024, .f32⟩
  | 75 => ⟨S1x1024, .f32⟩
  | 76 => ⟨S196x1024, .f32⟩
  | 77 => ⟨S196x1024, .f32⟩
  | 78 => ⟨S_, .f32⟩
  | 79 => ⟨S196x1024, .f32⟩
  | 80 => ⟨S196x1024, .f32⟩
  | 81 => ⟨S196x2048, .f32⟩
  | 82 => ⟨S_, .i32⟩
  | 83 => ⟨S1404, .i32⟩
  | 84 => ⟨S1404, .i1⟩
  | 85 => ⟨S_, .i32⟩
  | 86 => ⟨S1404, .i32⟩
  | 87 => ⟨S1404, .i32⟩
  | 88 => ⟨S1404, .i32⟩
  | 89 => ⟨S1404x1, .i32⟩
  | 90 => ⟨S1404, .f32⟩
  | 91 => ⟨S_, .i32⟩
  | 92 => ⟨S1404, .i32⟩
  | 93 => ⟨S1404, .i1⟩
  | 94 => ⟨S_, .i32⟩
  | 95 => ⟨S1404, .i32⟩
  | 96 => ⟨S1404, .i32⟩
  | 97 => ⟨S1404, .i32⟩
  | 98 => ⟨S1404x1, .i32⟩
  | 99 => ⟨S1404, .f32⟩
  | 100 => ⟨S1404, .f32⟩
  | 101 => ⟨S1404x1, .f32⟩
  | 102 => ⟨S_, .i32⟩
  | 103 => ⟨S1404, .i32⟩
  | 104 => ⟨S1404, .i1⟩
  | 105 => ⟨S_, .i32⟩
  | 106 => ⟨S1404, .i32⟩
  | 107 => ⟨S1404, .i32⟩
  | 108 => ⟨S1404, .i32⟩
  | 109 => ⟨S1404x1, .i32⟩
  | 110 => ⟨S1404x2048, .f32⟩
  | 111 => ⟨S1404x2048, .f32⟩
  | 112 => ⟨S1404x2048, .f32⟩
  | 113 => ⟨S_, .f32⟩
  | 114 => ⟨S196x2048, .f32⟩
  | 115 => ⟨S1404x1, .i32⟩
  | 116 => ⟨S196x2048, .f32⟩
  | 117 => ⟨S196, .f32⟩
  | 118 => ⟨S196, .f32⟩
  | 119 => ⟨S196, .f32⟩
  | 120 => ⟨S196x1, .f32⟩
  | 121 => ⟨S196x2048, .f32⟩
  | 122 => ⟨S196x2048, .f32⟩
  | 123 => ⟨S196x2048, .f32⟩
  | 124 => ⟨S1x2048, .f32⟩
  | 125 => ⟨S196x2048, .f32⟩
  | 126 => ⟨S196x2048, .f32⟩
  | 127 => ⟨S_, .f32⟩
  | _ => ⟨S128x14x14x2048, .f32⟩

abbrev hbmTy0_1 (i : Nat) : BufTy := match i % 128 with
  | 0 => ⟨S196x2048, .f32⟩
  | 1 => ⟨S196x2048, .f32⟩
  | 2 => ⟨S_, .i32⟩
  | 3 => ⟨S1, .i32⟩
  | 4 => ⟨S25088x2048, .f32⟩
  | 5 => ⟨S128x14x14x2048, .f32⟩
  | _ => ⟨S128x14x14x2048, .f32⟩

abbrev hbmTy (i : Nat) : BufTy := match i / 128 with
  | 0 => hbmTy0_0 i
  | 1 => hbmTy0_1 i
  | _ => ⟨S128x14x14x2048, .f32⟩

abbrev bufTy : (tb : Table) → Fin (tcTables nBuf tb) → BufTy
  | .hbm, ⟨i, _⟩ => hbmTy i
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S1x1024, .f32⟩
  | .local _ .vmem, ⟨4, _⟩ => ⟨S1024x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S128x14x14x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_cst : Ref sig .tc := ⟨.hbm, 12, rfl⟩
abbrev main_call0_v6 : Ref sig .tc := ⟨.hbm, 13, rfl⟩
abbrev main_call0_c : Ref sig .tc := ⟨.hbm, 14, rfl⟩
abbrev main_call0_v7 : Ref sig .tc := ⟨.hbm, 15, rfl⟩
abbrev main_call0_v8 : Ref sig .tc := ⟨.hbm, 16, rfl⟩
abbrev main_call0_c_0 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_cst_1 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_call0_v17 : Ref sig .tc := ⟨.hbm, 27, rfl⟩
abbrev main_call0_v18 : Ref sig .tc := ⟨.hbm, 28, rfl⟩
abbrev main_call0_v19 : Ref sig .tc := ⟨.hbm, 29, rfl⟩
abbrev main_call0_v20 : Ref sig .tc := ⟨.hbm, 30, rfl⟩
abbrev main_call0_v21 : Ref sig .tc := ⟨.hbm, 31, rfl⟩
abbrev main_call0_v22 : Ref sig .tc := ⟨.hbm, 32, rfl⟩
abbrev main_call0_c_2 : Ref sig .tc := ⟨.hbm, 33, rfl⟩
abbrev main_call0_v23 : Ref sig .tc := ⟨.hbm, 34, rfl⟩
abbrev main_call0_v24 : Ref sig .tc := ⟨.hbm, 35, rfl⟩
abbrev main_call0_c_3 : Ref sig .tc := ⟨.hbm, 36, rfl⟩
abbrev main_call0_v25 : Ref sig .tc := ⟨.hbm, 37, rfl⟩
abbrev main_call0_v26 : Ref sig .tc := ⟨.hbm, 38, rfl⟩
abbrev main_call0_v27 : Ref sig .tc := ⟨.hbm, 39, rfl⟩
abbrev main_call0_v28 : Ref sig .tc := ⟨.hbm, 40, rfl⟩
abbrev main_call0_v29 : Ref sig .tc := ⟨.hbm, 41, rfl⟩
abbrev main_call0_c_4 : Ref sig .tc := ⟨.hbm, 42, rfl⟩
abbrev main_call0_v30 : Ref sig .tc := ⟨.hbm, 43, rfl⟩
abbrev main_call0_v31 : Ref sig .tc := ⟨.hbm, 44, rfl⟩
abbrev main_call0_c_5 : Ref sig .tc := ⟨.hbm, 45, rfl⟩
abbrev main_call0_v32 : Ref sig .tc := ⟨.hbm, 46, rfl⟩
abbrev main_call0_v33 : Ref sig .tc := ⟨.hbm, 47, rfl⟩
abbrev main_call0_v34 : Ref sig .tc := ⟨.hbm, 48, rfl⟩
abbrev main_call0_v35 : Ref sig .tc := ⟨.hbm, 49, rfl⟩
abbrev main_call0_v36 : Ref sig .tc := ⟨.hbm, 50, rfl⟩
abbrev main_call0_v37 : Ref sig .tc := ⟨.hbm, 51, rfl⟩
abbrev main_call0_v38 : Ref sig .tc := ⟨.hbm, 52, rfl⟩
abbrev main_call0_c_6 : Ref sig .tc := ⟨.hbm, 53, rfl⟩
abbrev main_call0_v39 : Ref sig .tc := ⟨.hbm, 54, rfl⟩
abbrev main_call0_v40 : Ref sig .tc := ⟨.hbm, 55, rfl⟩
abbrev main_call0_c_7 : Ref sig .tc := ⟨.hbm, 56, rfl⟩
abbrev main_call0_v41 : Ref sig .tc := ⟨.hbm, 57, rfl⟩
abbrev main_call0_v42 : Ref sig .tc := ⟨.hbm, 58, rfl⟩
abbrev main_call0_v43 : Ref sig .tc := ⟨.hbm, 59, rfl⟩
abbrev main_call0_v44 : Ref sig .tc := ⟨.hbm, 60, rfl⟩
abbrev main_call0_v45 : Ref sig .tc := ⟨.hbm, 61, rfl⟩
abbrev main_call0_v46 : Ref sig .tc := ⟨.hbm, 62, rfl⟩
abbrev main_call0_v47 : Ref sig .tc := ⟨.hbm, 63, rfl⟩
abbrev main_call0_cst_8 : Ref sig .tc := ⟨.hbm, 64, rfl⟩
abbrev main_call0_v48 : Ref sig .tc := ⟨.hbm, 65, rfl⟩
abbrev main_call0_v49 : Ref sig .tc := ⟨.hbm, 66, rfl⟩
abbrev main_call0_v50 : Ref sig .tc := ⟨.hbm, 67, rfl⟩
abbrev main_call0_v51 : Ref sig .tc := ⟨.hbm, 68, rfl⟩
abbrev main_call0_v52 : Ref sig .tc := ⟨.hbm, 69, rfl⟩
abbrev main_call0_v53 : Ref sig .tc := ⟨.hbm, 70, rfl⟩
abbrev main_call0_v54 : Ref sig .tc := ⟨.hbm, 71, rfl⟩
abbrev main_call0_v55 : Ref sig .tc := ⟨.hbm, 72, rfl⟩
abbrev main_call0_v56 : Ref sig .tc := ⟨.hbm, 73, rfl⟩
abbrev main_call0_v57 : Ref sig .tc := ⟨.hbm, 74, rfl⟩
abbrev main_call0_v58 : Ref sig .tc := ⟨.hbm, 75, rfl⟩
abbrev main_call0_v59 : Ref sig .tc := ⟨.hbm, 76, rfl⟩
abbrev main_call0_v60 : Ref sig .tc := ⟨.hbm, 77, rfl⟩
abbrev main_call0_call0_cst : Ref sig .tc := ⟨.hbm, 78, rfl⟩
abbrev main_call0_call0_v0 : Ref sig .tc := ⟨.hbm, 79, rfl⟩
abbrev main_call0_v61 : Ref sig .tc := ⟨.hbm, 80, rfl⟩
abbrev main_call0_v62 : Ref sig .tc := ⟨.hbm, 81, rfl⟩
abbrev main_call0_c_9 : Ref sig .tc := ⟨.hbm, 82, rfl⟩
abbrev main_call0_v63 : Ref sig .tc := ⟨.hbm, 83, rfl⟩
abbrev main_call0_v64 : Ref sig .tc := ⟨.hbm, 84, rfl⟩
abbrev main_call0_c_10 : Ref sig .tc := ⟨.hbm, 85, rfl⟩
abbrev main_call0_v65 : Ref sig .tc := ⟨.hbm, 86, rfl⟩
abbrev main_call0_v66 : Ref sig .tc := ⟨.hbm, 87, rfl⟩
abbrev main_call0_v67 : Ref sig .tc := ⟨.hbm, 88, rfl⟩
abbrev main_call0_v68 : Ref sig .tc := ⟨.hbm, 89, rfl⟩
abbrev main_call0_v69 : Ref sig .tc := ⟨.hbm, 90, rfl⟩
abbrev main_call0_c_11 : Ref sig .tc := ⟨.hbm, 91, rfl⟩
abbrev main_call0_v70 : Ref sig .tc := ⟨.hbm, 92, rfl⟩
abbrev main_call0_v71 : Ref sig .tc := ⟨.hbm, 93, rfl⟩
abbrev main_call0_c_12 : Ref sig .tc := ⟨.hbm, 94, rfl⟩
abbrev main_call0_v72 : Ref sig .tc := ⟨.hbm, 95, rfl⟩
abbrev main_call0_v73 : Ref sig .tc := ⟨.hbm, 96, rfl⟩
abbrev main_call0_v74 : Ref sig .tc := ⟨.hbm, 97, rfl⟩
abbrev main_call0_v75 : Ref sig .tc := ⟨.hbm, 98, rfl⟩
abbrev main_call0_v76 : Ref sig .tc := ⟨.hbm, 99, rfl⟩
abbrev main_call0_v77 : Ref sig .tc := ⟨.hbm, 100, rfl⟩
abbrev main_call0_v78 : Ref sig .tc := ⟨.hbm, 101, rfl⟩
abbrev main_call0_c_13 : Ref sig .tc := ⟨.hbm, 102, rfl⟩
abbrev main_call0_v79 : Ref sig .tc := ⟨.hbm, 103, rfl⟩
abbrev main_call0_v80 : Ref sig .tc := ⟨.hbm, 104, rfl⟩
abbrev main_call0_c_14 : Ref sig .tc := ⟨.hbm, 105, rfl⟩
abbrev main_call0_v81 : Ref sig .tc := ⟨.hbm, 106, rfl⟩
abbrev main_call0_v82 : Ref sig .tc := ⟨.hbm, 107, rfl⟩
abbrev main_call0_v83 : Ref sig .tc := ⟨.hbm, 108, rfl⟩
abbrev main_call0_v84 : Ref sig .tc := ⟨.hbm, 109, rfl⟩
abbrev main_call0_v85 : Ref sig .tc := ⟨.hbm, 110, rfl⟩
abbrev main_call0_v86 : Ref sig .tc := ⟨.hbm, 111, rfl⟩
abbrev main_call0_v87 : Ref sig .tc := ⟨.hbm, 112, rfl⟩
abbrev main_call0_cst_15 : Ref sig .tc := ⟨.hbm, 113, rfl⟩
abbrev main_call0_v88 : Ref sig .tc := ⟨.hbm, 114, rfl⟩
abbrev main_call0_v89 : Ref sig .tc := ⟨.hbm, 115, rfl⟩
abbrev main_call0_v90 : Ref sig .tc := ⟨.hbm, 116, rfl⟩
abbrev main_call0_v91 : Ref sig .tc := ⟨.hbm, 117, rfl⟩
abbrev main_call0_v92 : Ref sig .tc := ⟨.hbm, 118, rfl⟩
abbrev main_call0_v93 : Ref sig .tc := ⟨.hbm, 119, rfl⟩
abbrev main_call0_v94 : Ref sig .tc := ⟨.hbm, 120, rfl⟩
abbrev main_call0_v95 : Ref sig .tc := ⟨.hbm, 121, rfl⟩
abbrev main_call0_v96 : Ref sig .tc := ⟨.hbm, 122, rfl⟩
abbrev main_call0_v97 : Ref sig .tc := ⟨.hbm, 123, rfl⟩
abbrev main_call0_v98 : Ref sig .tc := ⟨.hbm, 124, rfl⟩
abbrev main_call0_v99 : Ref sig .tc := ⟨.hbm, 125, rfl⟩
abbrev main_call0_v100 : Ref sig .tc := ⟨.hbm, 126, rfl⟩
abbrev main_call0_call1_cst : Ref sig .tc := ⟨.hbm, 127, rfl⟩
abbrev main_call0_call1_v0 : Ref sig .tc := ⟨.hbm, 128, rfl⟩
abbrev main_call0_v101 : Ref sig .tc := ⟨.hbm, 129, rfl⟩
abbrev main_call0_c_16 : Ref sig .tc := ⟨.hbm, 130, rfl⟩
abbrev main_call0_v102 : Ref sig .tc := ⟨.hbm, 131, rfl⟩
abbrev main_call0_v103 : Ref sig .tc := ⟨.hbm, 132, rfl⟩
abbrev main_v0 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S128x14x14x2048_S128x2048x14x14_0_3_1_2 : S128x14x14x2048.Transposes [0, 3, 1, 2] S128x2048x14x14
  shapeCasts_S128x2048x14x14_S25088x2048 : S128x2048x14x14.ShapeCasts S25088x2048
  slices_S2x1404_S1x1404_0_0 : S2x1404.Slices ![0, 0] S1x1404
  shapeCasts_S1x1404_S1404 : S1x1404.ShapeCasts S1404
  slices_S2x1404_S1x1404_1_0 : S2x1404.Slices ![1, 0] S1x1404
  bcast_S_S25088 : S_.BroadcastsInDim S25088 (![] : Fin 0 → Fin S25088.rank)
  bcast_S_S1404 : S_.BroadcastsInDim S1404 (![] : Fin 0 → Fin S1404.rank)
  bcast_S1404_S1404x1_0 : S1404.BroadcastsInDim S1404x1 (![0] : Fin 1 → Fin S1404x1.rank)
  bitsLt_bf16_f32 : FTy.bits .bf16 < FTy.bits .f32
  shapeCasts_S1024_S1x1024 : S1024.ShapeCasts S1x1024
  shapeCasts_S2048_S1x2048 : S2048.ShapeCasts S1x2048
  slices_S25088x2048_S196x2048_0_0 : S25088x2048.Slices ![0, 0] S196x2048
  bcast_S1404x1_S1404x1024_0_1 : S1404x1.BroadcastsInDim S1404x1024 (![0, 1] : Fin 2 → Fin S1404x1024.rank)
  bcast_S_S196x1024 : S_.BroadcastsInDim S196x1024 (![] : Fin 0 → Fin S196x1024.rank)
  slices_S25088_S196_0 : S25088.Slices ![0] S196
  bcast_S196_S196x1_0 : S196.BroadcastsInDim S196x1 (![0] : Fin 1 → Fin S196x1.rank)
  bcast_S196x1_S196x1024_0_1 : S196x1.BroadcastsInDim S196x1024 (![0, 1] : Fin 2 → Fin S196x1024.rank)
  bcast_S1024_S1x1024_1 : S1024.BroadcastsInDim S1x1024 (![1] : Fin 1 → Fin S1x1024.rank)
  bcast_S1x1024_S196x1024_0_1 : S1x1024.BroadcastsInDim S196x1024 (![0, 1] : Fin 2 → Fin S196x1024.rank)
  bcast_S1404x1_S1404x2048_0_1 : S1404x1.BroadcastsInDim S1404x2048 (![0, 1] : Fin 2 → Fin S1404x2048.rank)
  bcast_S_S196x2048 : S_.BroadcastsInDim S196x2048 (![] : Fin 0 → Fin S196x2048.rank)
  bcast_S196x1_S196x2048_0_1 : S196x1.BroadcastsInDim S196x2048 (![0, 1] : Fin 2 → Fin S196x2048.rank)
  bcast_S2048_S1x2048_1 : S2048.BroadcastsInDim S1x2048 (![1] : Fin 1 → Fin S1x2048.rank)
  bcast_S1x2048_S196x2048_0_1 : S1x2048.BroadcastsInDim S196x2048 (![0, 1] : Fin 2 → Fin S196x2048.rank)
  bcast_S_S1 : S_.BroadcastsInDim S1 (![] : Fin 0 → Fin S1.rank)
  shapeCasts_S25088x2048_S128x14x14x2048 : S25088x2048.ShapeCasts S128x14x14x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  scatter_S25088_S1404x1_S1404_n_0_0_1_wf : ScatterDims.WF S25088 S1404x1 S1404 [] [0] [0] 1
  dot_S196x2048_S2048x1024_S196x1024_1_0_0_1_n_n_wf : DotDims.WF S196x2048 S2048x1024 S196x1024 [1] [0] [0] [1] [] []
  gather_S25088_S1404x1_S1404_n_0_n_n_0_1_1_wf : GatherDims.WF S25088 S1404x1 S1404 [] [0] [] [0] [] 1 ![1]
  gather_S196x1024_S1404x1_S1404x1024_1_0_n_n_0_1_11024_wf : GatherDims.WF S196x1024 S1404x1 S1404x1024 [1] [0] [] [0] [] 1 ![1, 1024]
  scatter_S196x1024_S1404x1_S1404x1024_1_0_0_1_wf : ScatterDims.WF S196x1024 S1404x1 S1404x1024 [1] [0] [0] 1
  dot_S196x1024_S1024x2048_S196x2048_1_0_0_1_n_n_wf : DotDims.WF S196x1024 S1024x2048 S196x2048 [1] [0] [0] [1] [] []
  gather_S196x2048_S1404x1_S1404x2048_1_0_n_n_0_1_12048_wf : GatherDims.WF S196x2048 S1404x1 S1404x2048 [1] [0] [] [0] [] 1 ![1, 2048]
  scatter_S196x2048_S1404x1_S1404x2048_1_0_0_1_wf : ScatterDims.WF S196x2048 S1404x1 S1404x2048 [1] [0] [0] 1
  scatter_S25088x2048_S1_S196x2048_01_n_0_0_wf : ScatterDims.WF S25088x2048 S1 S196x2048 [0, 1] [] [0] 0
  dot_S512x2048_S2048x1024_S512x1024_1_0_0_1_n_n_wf : DotDims.WF S512x2048 S2048x1024 S512x1024 [1] [0] [0] [1] [] []
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S25088x2048.size a
  hwx0_0 : ∀ i : grid0.Coords, EltTy.bits .f32 = 32 ∨ (Rect.block (s := S25088x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S25088x2048.size a
  hwx0_5 : ∀ i : grid0.Coords, EltTy.bits .f32 = 32 ∨ (Rect.block (s := S25088x2048) S512x2048.size (cc0_transform_5 i) (hinb0_5 i)).WholeWords (EltTy.packing .f32)

variable [Facts₀]

def scatter_S25088_S1404x1_S1404_n_0_0_1 : ScatterDims S25088 S1404x1 S1404 where
  updateWindowDims := []
  insertedWindowDims := [0]
  scatterDimsToOperandDims := [0]
  indexVectorDim := 1
  wf := scatter_S25088_S1404x1_S1404_n_0_0_1_wf
def dot_S196x2048_S2048x1024_S196x1024_1_0_0_1_n_n : DotDims S196x2048 S2048x1024 S196x1024 where
  lhsContracting := [1]
  rhsContracting := [0]
  lhsNonContracting := [0]
  rhsNonContracting := [1]
  lhsBatch := []
  rhsBatch := []
  wf := dot_S196x2048_S2048x1024_S196x1024_1_0_0_1_n_n_wf
def gather_S25088_S1404x1_S1404_n_0_n_n_0_1_1 : GatherDims S25088 S1404x1 S1404 where
  offsetDims := []
  collapsedSliceDims := [0]
  operandBatchingDims := []
  startIndicesBatchingDims := []
  startIndexMap := [0]
  indexVectorDim := 1
  sliceSizes := ![1]
  wf := gather_S25088_S1404x1_S1404_n_0_n_n_0_1_1_wf
def gather_S196x1024_S1404x1_S1404x1024_1_0_n_n_0_1_11024 : GatherDims S196x1024 S1404x1 S1404x1024 where
  offsetDims := [1]
  collapsedSliceDims := [0]
  operandBatchingDims := []
  startIndicesBatchingDims := []
  startIndexMap := [0]
  indexVectorDim := 1
  sliceSizes := ![1, 1024]
  wf := gather_S196x1024_S1404x1_S1404x1024_1_0_n_n_0_1_11024_wf
def scatter_S196x1024_S1404x1_S1404x1024_1_0_0_1 : ScatterDims S196x1024 S1404x1 S1404x1024 where
  updateWindowDims := [1]
  insertedWindowDims := [0]
  scatterDimsToOperandDims := [0]
  indexVectorDim := 1
  wf := scatter_S196x1024_S1404x1_S1404x1024_1_0_0_1_wf
def dot_S196x1024_S1024x2048_S196x2048_1_0_0_1_n_n : DotDims S196x1024 S1024x2048 S196x2048 where
  lhsContracting := [1]
  rhsContracting := [0]
  lhsNonContracting := [0]
  rhsNonContracting := [1]
  lhsBatch := []
  rhsBatch := []
  wf := dot_S196x1024_S1024x2048_S196x2048_1_0_0_1_n_n_wf
def gather_S196x2048_S1404x1_S1404x2048_1_0_n_n_0_1_12048 : GatherDims S196x2048 S1404x1 S1404x2048 where
  offsetDims := [1]
  collapsedSliceDims := [0]
  operandBatchingDims := []
  startIndicesBatchingDims := []
  startIndexMap := [0]
  indexVectorDim := 1
  sliceSizes := ![1, 2048]
  wf := gather_S196x2048_S1404x1_S1404x2048_1_0_n_n_0_1_12048_wf
def scatter_S196x2048_S1404x1_S1404x2048_1_0_0_1 : ScatterDims S196x2048 S1404x1 S1404x2048 where
  updateWindowDims := [1]
  insertedWindowDims := [0]
  scatterDimsToOperandDims := [0]
  indexVectorDim := 1
  wf := scatter_S196x2048_S1404x1_S1404x2048_1_0_0_1_wf
def scatter_S25088x2048_S1_S196x2048_01_n_0_0 : ScatterDims S25088x2048 S1 S196x2048 where
  updateWindowDims := [0, 1]
  insertedWindowDims := []
  scatterDimsToOperandDims := [0]
  indexVectorDim := 0
  wf := scatter_S25088x2048_S1_S196x2048_01_n_0_0_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_call0_v1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v16) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v18) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v17) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v19) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v20) S512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x14x14x2048 : Shape := ⟨4, ![128, 14, 14, 2048]⟩
abbrev S2x1404 : Shape := ⟨2, ![2, 1404]⟩
abbrev S2048x1024 : Shape := ⟨2, ![2048, 1024]⟩
abbrev S1024 : Shape := ⟨1, ![1024]⟩
abbrev S1024x2048 : Shape := ⟨2, ![1024, 2048]⟩
abbrev S2048 : Shape := ⟨1, ![2048]⟩
abbrev S128x2048x14x14 : Shape := ⟨4, ![128, 2048, 14, 14]⟩
abbrev S25088x2048 : Shape := ⟨2, ![25088, 2048]⟩
abbrev S1x1404 : Shape := ⟨2, ![1, 1404]⟩
abbrev S1404 : Shape := ⟨1, ![1404]⟩
abbrev S_ : Shape := ⟨0, ![]⟩
abbrev S25088 : Shape := ⟨1, ![25088]⟩
abbrev S1404x1 : Shape := ⟨2, ![1404, 1]⟩
abbrev S25088x1024 : Shape := ⟨2, ![25088, 1024]⟩
abbrev S1404x1024 : Shape := ⟨2, ![1404, 1024]⟩
abbrev S25088x1 : Shape := ⟨2, ![25088, 1]⟩
abbrev S1x1024 : Shape := ⟨2, ![1, 1024]⟩
abbrev S1404x2048 : Shape := ⟨2, ![1404, 2048]⟩
abbrev S1x2048 : Shape := ⟨2, ![1, 2048]⟩

abbrev nBuf : Space → Nat
  | .hbm => 121
  | .vmem => 0
  | .smem => 0
  | _ => 0

abbrev bufTy : (tb : Table) → Fin (tcTables nBuf tb) → BufTy
  | .hbm, ⟨0, _⟩ => ⟨S128x14x14x2048, .f32⟩
  | .hbm, ⟨1, _⟩ => ⟨S2x1404, .i32⟩
  | .hbm, ⟨2, _⟩ => ⟨S2048x1024, .f32⟩
  | .hbm, ⟨3, _⟩ => ⟨S1024, .f32⟩
  | .hbm, ⟨4, _⟩ => ⟨S1024x2048, .f32⟩
  | .hbm, ⟨5, _⟩ => ⟨S2048, .f32⟩
  | .hbm, ⟨6, _⟩ => ⟨S128x2048x14x14, .f32⟩
  | .hbm, ⟨7, _⟩ => ⟨S25088x2048, .f32⟩
  | .hbm, ⟨8, _⟩ => ⟨S1x1404, .i32⟩
  | .hbm, ⟨9, _⟩ => ⟨S1404, .i32⟩
  | .hbm, ⟨10, _⟩ => ⟨S1x1404, .i32⟩
  | .hbm, ⟨11, _⟩ => ⟨S1404, .i32⟩
  | .hbm, ⟨12, _⟩ => ⟨S_, .f32⟩
  | .hbm, ⟨13, _⟩ => ⟨S25088, .f32⟩
  | .hbm, ⟨14, _⟩ => ⟨S_, .i32⟩
  | .hbm, ⟨15, _⟩ => ⟨S1404, .i32⟩
  | .hbm, ⟨16, _⟩ => ⟨S1404, .i1⟩
  | .hbm, ⟨17, _⟩ => ⟨S_, .i32⟩
  | .hbm, ⟨18, _⟩ => ⟨S1404, .i32⟩
  | .hbm, ⟨19, _⟩ => ⟨S1404, .i32⟩
  | .hbm, ⟨20, _⟩ => ⟨S1404, .i32⟩
  | .hbm, ⟨21, _⟩ => ⟨S1404x1, .i32⟩
  | .hbm, ⟨22, _⟩ => ⟨S_, .f32⟩
  | .hbm, ⟨23, _⟩ => ⟨S1404, .f32⟩
  | .hbm, ⟨24, _⟩ => ⟨S25088, .f32⟩
  | .hbm, ⟨25, _⟩ => ⟨S25088, .f32⟩
  | .hbm, ⟨26, _⟩ => ⟨S25088x1024, .f32⟩
  | .hbm, ⟨27, _⟩ => ⟨S_, .i32⟩
  | .hbm, ⟨28, _⟩ => ⟨S1404, .i32⟩
  | .hbm, ⟨29, _⟩ => ⟨S1404, .i1⟩
  | .hbm, ⟨30, _⟩ => ⟨S_, .i32⟩
  | .hbm, ⟨31, _⟩ => ⟨S1404, .i32⟩
  | .hbm, ⟨32, _⟩ => ⟨S1404, .i32⟩
  | .hbm, ⟨33, _⟩ => ⟨S1404, .i32⟩
  | .hbm, ⟨34, _⟩ => ⟨S1404x1, .i32⟩
  | .hbm, ⟨35, _⟩ => ⟨S1404, .f32⟩
  | .hbm, ⟨36, _⟩ => ⟨S_, .i32⟩
  | .hbm, ⟨37, _⟩ => ⟨S1404, .i32⟩
  | .hbm, ⟨38, _⟩ => ⟨S1404, .i1⟩
  | .hbm, ⟨39, _⟩ => ⟨S_, .i32⟩
  | .hbm, ⟨40, _⟩ => ⟨S1404, .i32⟩
  | .hbm, ⟨41, _⟩ => ⟨S1404, .i32⟩
  | .hbm, ⟨42, _⟩ => ⟨S1404, .i32⟩
  | .hbm, ⟨43, _⟩ => ⟨S1404x1, .i32⟩
  | .hbm, ⟨44, _⟩ => ⟨S1404, .f32⟩
  | .hbm, ⟨45, _⟩ => ⟨S1404, .f32⟩
  | .hbm, ⟨46, _⟩ => ⟨S1404x1, .f32⟩
  | .hbm, ⟨47, _⟩ => ⟨S_, .i32⟩
  | .hbm, ⟨48, _⟩ => ⟨S1404, .i32⟩
  | .hbm, ⟨49, _⟩ => ⟨S1404, .i1⟩
  | .hbm, ⟨50, _⟩ => ⟨S_, .i32⟩
  | .hbm, ⟨51, _⟩ => ⟨S1404, .i32⟩
  | .hbm, ⟨52, _⟩ => ⟨S1404, .i32⟩
  | .hbm, ⟨53, _⟩ => ⟨S1404, .i32⟩
  | .hbm, ⟨54, _⟩ => ⟨S1404x1, .i32⟩
  | .hbm, ⟨55, _⟩ => ⟨S1404x1024, .f32⟩
  | .hbm, ⟨56, _⟩ => ⟨S1404x1024, .f32⟩
  | .hbm, ⟨57, _⟩ => ⟨S1404x1024, .f32⟩
  | .hbm, ⟨58, _⟩ => ⟨S_, .f32⟩
  | .hbm, ⟨59, _⟩ => ⟨S25088x1024, .f32⟩
  | .hbm, ⟨60, _⟩ => ⟨S1404x1, .i32⟩
  | .hbm, ⟨61, _⟩ => ⟨S25088x1024, .f32⟩
  | .hbm, ⟨62, _⟩ => ⟨S25088, .f32⟩
  | .hbm, ⟨63, _⟩ => ⟨S25088x1, .f32⟩
  | .hbm, ⟨64, _⟩ => ⟨S25088x1024, .f32⟩
  | .hbm, ⟨65, _⟩ => ⟨S25088x1024, .f32⟩
  | .hbm, ⟨66, _⟩ => ⟨S25088x1024, .f32⟩
  | .hbm, ⟨67, _⟩ => ⟨S1x1024, .f32⟩
  | .hbm, ⟨68, _⟩ => ⟨S25088x1024, .f32⟩
  | .hbm, ⟨69, _⟩ => ⟨S25088x1024, .f32⟩
  | .hbm, ⟨70, _⟩ => ⟨S_, .f32⟩
  | .hbm, ⟨71, _⟩ => ⟨S25088x1024, .f32⟩
  | .hbm, ⟨72, _⟩ => ⟨S25088x1024, .f32⟩
  | .hbm, ⟨73, _⟩ => ⟨S25088x2048, .f32⟩
  | .hbm, ⟨74, _⟩ => ⟨S_, .i32⟩
  | .hbm, ⟨75, _⟩ => ⟨S1404, .i32⟩
  | .hbm, ⟨76, _⟩ => ⟨S1404, .i1⟩
  | .hbm, ⟨77, _⟩ => ⟨S_, .i32⟩
  | .hbm, ⟨78, _⟩ => ⟨S1404, .i32⟩
  | .hbm, ⟨79, _⟩ => ⟨S1404, .i32⟩
  | .hbm, ⟨80, _⟩ => ⟨S1404, .i32⟩
  | .hbm, ⟨81, _⟩ => ⟨S1404x1, .i32⟩
  | .hbm, ⟨82, _⟩ => ⟨S1404, .f32⟩
  | .hbm, ⟨83, _⟩ => ⟨S_, .i32⟩
  | .hbm, ⟨84, _⟩ => ⟨S1404, .i32⟩
  | .hbm, ⟨85, _⟩ => ⟨S1404, .i1⟩
  | .hbm, ⟨86, _⟩ => ⟨S_, .i32⟩
  | .hbm, ⟨87, _⟩ => ⟨S1404, .i32⟩
  | .hbm, ⟨88, _⟩ => ⟨S1404, .i32⟩
  | .hbm, ⟨89, _⟩ => ⟨S1404, .i32⟩
  | .hbm, ⟨90, _⟩ => ⟨S1404x1, .i32⟩
  | .hbm, ⟨91, _⟩ => ⟨S1404, .f32⟩
  | .hbm, ⟨92, _⟩ => ⟨S1404, .f32⟩
  | .hbm, ⟨93, _⟩ => ⟨S1404x1, .f32⟩
  | .hbm, ⟨94, _⟩ => ⟨S_, .i32⟩
  | .hbm, ⟨95, _⟩ => ⟨S1404, .i32⟩
  | .hbm, ⟨96, _⟩ => ⟨S1404, .i1⟩
  | .hbm, ⟨97, _⟩ => ⟨S_, .i32⟩
  | .hbm, ⟨98, _⟩ => ⟨S1404, .i32⟩
  | .hbm, ⟨99, _⟩ => ⟨S1404, .i32⟩
  | .hbm, ⟨100, _⟩ => ⟨S1404, .i32⟩
  | .hbm, ⟨101, _⟩ => ⟨S1404x1, .i32⟩
  | .hbm, ⟨102, _⟩ => ⟨S1404x2048, .f32⟩
  | .hbm, ⟨103, _⟩ => ⟨S1404x2048, .f32⟩
  | .hbm, ⟨104, _⟩ => ⟨S1404x2048, .f32⟩
  | .hbm, ⟨105, _⟩ => ⟨S_, .f32⟩
  | .hbm, ⟨106, _⟩ => ⟨S25088x2048, .f32⟩
  | .hbm, ⟨107, _⟩ => ⟨S1404x1, .i32⟩
  | .hbm, ⟨108, _⟩ => ⟨S25088x2048, .f32⟩
  | .hbm, ⟨109, _⟩ => ⟨S25088, .f32⟩
  | .hbm, ⟨110, _⟩ => ⟨S25088x1, .f32⟩
  | .hbm, ⟨111, _⟩ => ⟨S25088x2048, .f32⟩
  | .hbm, ⟨112, _⟩ => ⟨S25088x2048, .f32⟩
  | .hbm, ⟨113, _⟩ => ⟨S25088x2048, .f32⟩
  | .hbm, ⟨114, _⟩ => ⟨S1x2048, .f32⟩
  | .hbm, ⟨115, _⟩ => ⟨S25088x2048, .f32⟩
  | .hbm, ⟨116, _⟩ => ⟨S25088x2048, .f32⟩
  | .hbm, ⟨117, _⟩ => ⟨S_, .f32⟩
  | .hbm, ⟨118, _⟩ => ⟨S25088x2048, .f32⟩
  | .hbm, ⟨119, _⟩ => ⟨S25088x2048, .f32⟩
  | .hbm, ⟨120, _⟩ => ⟨S128x14x14x2048, .f32⟩
  | _, _ => ⟨S128x14x14x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_call0_cst : Ref sig .tc := ⟨.hbm, 70, rfl⟩
abbrev main_call0_v0 : Ref sig .tc := ⟨.hbm, 71, rfl⟩
abbrev main_v53 : Ref sig .tc := ⟨.hbm, 72, rfl⟩
abbrev main_v54 : Ref sig .tc := ⟨.hbm, 73, rfl⟩
abbrev main_c_9 : Ref sig .tc := ⟨.hbm, 74, rfl⟩
abbrev main_v55 : Ref sig .tc := ⟨.hbm, 75, rfl⟩
abbrev main_v56 : Ref sig .tc := ⟨.hbm, 76, rfl⟩
abbrev main_c_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_11 : Ref sig .tc := ⟨.hbm, 83, rfl⟩
abbrev main_v62 : Ref sig .tc := ⟨.hbm, 84, rfl⟩
abbrev main_v63 : Ref sig .tc := ⟨.hbm, 85, rfl⟩
abbrev main_c_12 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_c_13 : Ref sig .tc := ⟨.hbm, 94, rfl⟩
abbrev main_v71 : Ref sig .tc := ⟨.hbm, 95, rfl⟩
abbrev main_v72 : Ref sig .tc := ⟨.hbm, 96, rfl⟩
abbrev main_c_14 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_15 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_call1_cst : Ref sig .tc := ⟨.hbm, 117, rfl⟩
abbrev main_call1_v0 : Ref sig .tc := ⟨.hbm, 118, rfl⟩
abbrev main_v91 : Ref sig .tc := ⟨.hbm, 119, rfl⟩
abbrev main_v92 : Ref sig .tc := ⟨.hbm, 120, rfl⟩

abbrev nD : Nat := 1
abbrev τ : Topo := Topo.v7x

variable {F : FTy → Type} [FloatOps F]

class Facts₀ : Prop where
  transposes_S128x14x14x2048_S128x2048x14x14_0_3_1_2 : S128x14x14x2048.Transposes [0, 3, 1, 2] S128x2048x14x14
  shapeCasts_S128x2048x14x14_S25088x2048 : S128x2048x14x14.ShapeCasts S25088x2048
  slices_S2x1404_S1x1404_0_0 : S2x1404.Slices ![0, 0] S1x1404
  shapeCasts_S1x1404_S1404 : S1x1404.ShapeCasts S1404
  slices_S2x1404_S1x1404_1_0 : S2x1404.Slices ![1, 0] S1x1404
  bcast_S_S25088 : S_.BroadcastsInDim S25088 (![] : Fin 0 → Fin S25088.rank)
  bcast_S_S1404 : S_.BroadcastsInDim S1404 (![] : Fin 0 → Fin S1404.rank)
  bcast_S1404_S1404x1_0 : S1404.BroadcastsInDim S1404x1 (![0] : Fin 1 → Fin S1404x1.rank)
  bcast_S1404x1_S1404x1024_0_1 : S1404x1.BroadcastsInDim S1404x1024 (![0, 1] : Fin 2 → Fin S1404x1024.rank)
  bcast_S_S25088x1024 : S_.BroadcastsInDim S25088x1024 (![] : Fin 0 → Fin S25088x1024.rank)
  bcast_S25088_S25088x1_0 : S25088.BroadcastsInDim S25088x1 (![0] : Fin 1 → Fin S25088x1.rank)
  bcast_S25088x1_S25088x1024_0_1 : S25088x1.BroadcastsInDim S25088x1024 (![0, 1] : Fin 2 → Fin S25088x1024.rank)
  bcast_S1024_S1x1024_1 : S1024.BroadcastsInDim S1x1024 (![1] : Fin 1 → Fin S1x1024.rank)
  bcast_S1x1024_S25088x1024_0_1 : S1x1024.BroadcastsInDim S25088x1024 (![0, 1] : Fin 2 → Fin S25088x1024.rank)
  bcast_S1404x1_S1404x2048_0_1 : S1404x1.BroadcastsInDim S1404x2048 (![0, 1] : Fin 2 → Fin S1404x2048.rank)
  bcast_S_S25088x2048 : S_.BroadcastsInDim S25088x2048 (![] : Fin 0 → Fin S25088x2048.rank)
  bcast_S25088x1_S25088x2048_0_1 : S25088x1.BroadcastsInDim S25088x2048 (![0, 1] : Fin 2 → Fin S25088x2048.rank)
  bcast_S2048_S1x2048_1 : S2048.BroadcastsInDim S1x2048 (![1] : Fin 1 → Fin S1x2048.rank)
  bcast_S1x2048_S25088x2048_0_1 : S1x2048.BroadcastsInDim S25088x2048 (![0, 1] : Fin 2 → Fin S25088x2048.rank)
  shapeCasts_S25088x2048_S128x14x14x2048 : S25088x2048.ShapeCasts S128x14x14x2048
  scatter_S25088_S1404x1_S1404_n_0_0_1_wf : ScatterDims.WF S25088 S1404x1 S1404 [] [0] [0] 1
  dot_S25088x2048_S2048x1024_S25088x1024_1_0_0_1_n_n_wf : DotDims.WF S25088x2048 S2048x1024 S25088x1024 [1] [0] [0] [1] [] []
  gather_S25088_S1404x1_S1404_n_0_n_n_0_1_1_wf : GatherDims.WF S25088 S1404x1 S1404 [] [0] [] [0] [] 1 ![1]
  gather_S25088x1024_S1404x1_S1404x1024_1_0_n_n_0_1_11024_wf : GatherDims.WF S25088x1024 S1404x1 S1404x1024 [1] [0] [] [0] [] 1 ![1, 1024]
  scatter_S25088x1024_S1404x1_S1404x1024_1_0_0_1_wf : ScatterDims.WF S25088x1024 S1404x1 S1404x1024 [1] [0] [0] 1
  dot_S25088x1024_S1024x2048_S25088x2048_1_0_0_1_n_n_wf : DotDims.WF S25088x1024 S1024x2048 S25088x2048 [1] [0] [0] [1] [] []
  gather_S25088x2048_S1404x1_S1404x2048_1_0_n_n_0_1_12048_wf : GatherDims.WF S25088x2048 S1404x1 S1404x2048 [1] [0] [] [0] [] 1 ![1, 2048]
  scatter_S25088x2048_S1404x1_S1404x2048_1_0_0_1_wf : ScatterDims.WF S25088x2048 S1404x1 S1404x2048 [1] [0] [0] 1

variable [Facts₀]

def scatter_S25088_S1404x1_S1404_n_0_0_1 : ScatterDims S25088 S1404x1 S1404 where
  updateWindowDims := []
  insertedWindowDims := [0]
  scatterDimsToOperandDims := [0]
  indexVectorDim := 1
  wf := scatter_S25088_S1404x1_S1404_n_0_0_1_wf
def dot_S25088x2048_S2048x1024_S25088x1024_1_0_0_1_n_n : DotDims S25088x2048 S2048x1024 S25088x1024 where
  lhsContracting := [1]
  rhsContracting := [0]
  lhsNonContracting := [0]
  rhsNonContracting := [1]
  lhsBatch := []
  rhsBatch := []
  wf := dot_S25088x2048_S2048x1024_S25088x1024_1_0_0_1_n_n_wf
def gather_S25088_S1404x1_S1404_n_0_n_n_0_1_1 : GatherDims S25088 S1404x1 S1404 where
  offsetDims := []
  collapsedSliceDims := [0]
  operandBatchingDims := []
  startIndicesBatchingDims := []
  startIndexMap := [0]
  indexVectorDim := 1
  sliceSizes := ![1]
  wf := gather_S25088_S1404x1_S1404_n_0_n_n_0_1_1_wf
def gather_S25088x1024_S1404x1_S1404x1024_1_0_n_n_0_1_11024 : GatherDims S25088x1024 S1404x1 S1404x1024 where
  offsetDims := [1]
  collapsedSliceDims := [0]
  operandBatchingDims := []
  startIndicesBatchingDims := []
  startIndexMap := [0]
  indexVectorDim := 1
  sliceSizes := ![1, 1024]
  wf := gather_S25088x1024_S1404x1_S1404x1024_1_0_n_n_0_1_11024_wf
def scatter_S25088x1024_S1404x1_S1404x1024_1_0_0_1 : ScatterDims S25088x1024 S1404x1 S1404x1024 where
  updateWindowDims := [1]
  insertedWindowDims := [0]
  scatterDimsToOperandDims := [0]
  indexVectorDim := 1
  wf := scatter_S25088x1024_S1404x1_S1404x1024_1_0_0_1_wf
def dot_S25088x1024_S1024x2048_S25088x2048_1_0_0_1_n_n : DotDims S25088x1024 S1024x2048 S25088x2048 where
  lhsContracting := [1]
  rhsContracting := [0]
  lhsNonContracting := [0]
  rhsNonContracting := [1]
  lhsBatch := []
  rhsBatch := []
  wf := dot_S25088x1024_S1024x2048_S25088x2048_1_0_0_1_n_n_wf
def gather_S25088x2048_S1404x1_S1404x2048_1_0_n_n_0_1_12048 : GatherDims S25088x2048 S1404x1 S1404x2048 where
  offsetDims := [1]
  collapsedSliceDims := [0]
  operandBatchingDims := []
  startIndicesBatchingDims := []
  startIndexMap := [0]
  indexVectorDim := 1
  sliceSizes := ![1, 2048]
  wf := gather_S25088x2048_S1404x1_S1404x2048_1_0_n_n_0_1_12048_wf
def scatter_S25088x2048_S1404x1_S1404x2048_1_0_0_1 : ScatterDims S25088x2048 S1404x1 S1404x2048 where
  updateWindowDims := [1]
  insertedWindowDims := [0]
  scatterDimsToOperandDims := [0]
  indexVectorDim := 1
  wf := scatter_S25088x2048_S1404x1_S1404x2048_1_0_0_1_wf

class Facts : Prop extends Facts₀ where

variable [Facts]
-- ==== Proof.LibHostLine.lean ====
/-
  Reading a straight line of host operations one operation at a time.

  When every operation of a line writes one buffer of its own, what the line leaves in the buffer the `k`-th
  operation writes is that operation's function of what the line leaves in its operands: the operations after the
  `k`-th write neither its result nor (writing once only, after their operands are written) its operands. The
  lemmas state this for any line whose written references are listed, one per operation, in order.
-/
import Idealize.ShloMosaic.Lib.StableHlo.Run
import Mathlib.Data.List.Forall2

namespace Cert.CubePad.Line

open Idealize.ShloMosaic Idealize.ShloMosaic.StableHlo

variable {τ : Topo} {sig : RefSig} {Val : EltTy → Type}

/-- A line run in two parts. -/
theorem after_append (l₁ l₂ : List (HloOp τ sig Val)) (V : Valuation τ sig Val) :
    after (l₁ ++ l₂) V = after l₂ (after l₁ V) := by
  induction l₁ generalizing V with
  | nil => rfl
  | cons op l ih => exact ih _

/-- The line `ops` writes the references `W`, one each, in order. -/
abbrev Writes (ops : List (HloOp τ sig Val)) (W : List (Ref sig .tc)) : Prop :=
  List.Forall₂ (fun op r => op.writes = {Proc.devRef (τ := τ) .tc r}) ops W

/-- A reference the line does not write keeps its contents. -/
theorem Writes.keeps {ops : List (HloOp τ sig Val)} {W : List (Ref sig .tc)} (h : Writes ops W) :
    ∀ (V : Valuation τ sig Val) {r : Ref sig .tc}, r ∉ W → after ops V (Proc.devRef .tc r) = V (Proc.devRef .tc r) := by
  induction h with
  | nil => intro V r _; rfl
  | cons e _ ih =>
    intro V r hr
    rw [after_cons, ih _ (fun hm => hr (List.mem_cons_of_mem _ hm)), HloOp.result_of_not_mem]
    rw [e, Finset.mem_singleton]
    exact devRef_ne_of_ne fun e' => hr (e' ▸ List.mem_cons_self)

/-- At a reference the operations from the `k`-th on do not write, the first `k` operations decide the contents. -/
theorem Writes.read_take {ops : List (HloOp τ sig Val)} {W : List (Ref sig .tc)} (h : Writes ops W) (k : Nat)
    (V : Valuation τ sig Val) {r : Ref sig .tc} (hr : r ∉ W.drop k) :
    after ops V (Proc.devRef .tc r) = after (ops.take k) V (Proc.devRef .tc r) := by
  conv_lhs => rw [← List.take_append_drop k ops]
  rw [after_append]
  exact Writes.keeps (List.forall₂_drop k h) _ hr

/-- At the reference the `k`-th operation writes (and no later one): that operation's result from what the first
    `k` operations leave. -/
theorem Writes.read_at {ops : List (HloOp τ sig Val)} {W : List (Ref sig .tc)} (h : Writes ops W) (V : Valuation τ sig Val)
    (k : Nat) (op : HloOp τ sig Val) (hk : ops[k]? = some op) {y : Ref sig .tc} (hy : y ∉ W.drop (k + 1)) :
    after ops V (Proc.devRef .tc y) = op.result (after (ops.take k) V) (Proc.devRef .tc y) := by
  rw [h.read_take (k + 1) V hy, List.take_succ, hk, after_append]
  rfl

/-- A one-operand operation, the `k`-th of the line: its result buffer ends at its function of what its operand's
    buffer ends at. -/
theorem Writes.unary_at {ops : List (HloOp τ sig Val)} {W : List (Ref sig .tc)} (h : Writes ops W) (V : Valuation τ sig Val)
    (k : Nat) (x y : Ref sig .tc) (f : x.ty.Contents Val → y.ty.Contents Val) (hx hy)
    (hk : ops[k]? = some (unary x y f hx hy)) (hyW : y ∉ W.drop (k + 1)) (hxW : x ∉ W.drop k) :
    after ops V (Proc.devRef .tc y) = f (after ops V (Proc.devRef .tc x)) := by
  rw [h.read_at V k _ hk hyW, unary_result, h.read_take k V hxW]

/-- A reshape, the `k`-th of the line. -/
theorem Writes.reshape_at {ops : List (HloOp τ sig Val)} {W : List (Ref sig .tc)} (h : Writes ops W) (V : Valuation τ sig Val)
    (k : Nat) (x y : Ref sig .tc) (he : x.ty.elt = y.ty.elt) (hn : x.ty.shape.ShapeCasts y.ty.shape) (hx hy)
    (hk : ops[k]? = some (reshape x y he hn hx hy)) (hyW : y ∉ W.drop (k + 1)) (hxW : x ∉ W.drop k) :
    after ops V (Proc.devRef .tc y) = fun i => he ▸ shapeCast y.ty.shape (after ops V (Proc.devRef .tc x)) hn i := by
  rw [h.read_at V k _ hk hyW, reshape_result, h.read_take k V hxW]

/-- An operation of several operands, the `k`-th of the line. -/
theorem Writes.nary_at {ops : List (HloOp τ sig Val)} {W : List (Ref sig .tc)} (h : Writes ops W) (V : Valuation τ sig Val)
    (k : Nat) {n : Nat} (xs : Fin n → Ref sig .tc) (y : Ref sig .tc)
    (f : ((j : Fin n) → (xs j).ty.Contents Val) → y.ty.Contents Val) (hxs hy)
    (hk : ops[k]? = some (nary xs y f hxs hy)) (hyW : y ∉ W.drop (k + 1)) (hxW : ∀ j, xs j ∉ W.drop k) :
    after ops V (Proc.devRef .tc y) = f (fun j => after ops V (Proc.devRef .tc (xs j))) := by
  rw [h.read_at V k _ hk hyW, nary_result]
  exact congrArg f (funext fun j => (h.read_take k V (hxW j)).symm)

/-- A reference the line never writes (an argument) keeps its contents. -/
theorem Writes.arg {ops : List (HloOp τ sig Val)} {W : List (Ref sig .tc)} (h : Writes ops W) (V : Valuation τ sig Val)
    {r : Ref sig .tc} (hr : r ∉ W) : after ops V (Proc.devRef .tc r) = V (Proc.devRef .tc r) :=
  h.keeps V hr

end Cert.CubePad.Line
-- ==== Proof.LibHostLineMore.lean ====
/-
  Reading a straight line of host operations one operation at a time: the operations of no operand, of two and of three.

  As for an operation of one operand: when every operation of the line writes one reference of its own, what the line
  leaves in the reference its k-th operation writes is that operation's function of what the line leaves in its operands,
  because no later operation writes the result, and none from the k-th on writes an operand. Also: two lines that each write
  their own listed references, run one after the other, write the two lists in order; and, for a line written out as a literal
  list, its three side facts (what it writes, that it stays on TensorCore references, that it allocates nothing) each by one pass.
-/
import proofs.«149964_j22067541967300_2_alg».proof.Proof.LibHostLine

namespace Cert.Line

open Idealize.ShloMosaic Idealize.ShloMosaic.StableHlo Cert.CubePad.Line

variable {τ : Topo} {sig : RefSig} {Val : EltTy → Type}

/-- Two lines, each writing its own listed references in order, written one after the other. -/
theorem writes_append {l₁ l₂ : List (HloOp τ sig Val)} {W₁ W₂ : List (Ref sig .tc)}
    (h₁ : Writes l₁ W₁) (h₂ : Writes l₂ W₂) : Writes (l₁ ++ l₂) (W₁ ++ W₂) := by
  induction h₁ with
  | nil => exact h₂
  | cons e _ ih => exact List.Forall₂.cons e ih

/-- An operation of no operand, the k-th of the line: its result reference ends at its value. -/
theorem nullary_at {ops : List (HloOp τ sig Val)} {W : List (Ref sig .tc)} (h : Writes ops W) (V : Valuation τ sig Val)
    (k : Nat) (y : Ref sig .tc) (v : y.ty.Contents Val) (hy)
    (hk : ops[k]? = some (nullary y v hy)) (hyW : y ∉ W.drop (k + 1)) :
    after ops V (Proc.devRef .tc y) = v := by
  rw [h.read_at V k _ hk hyW, nullary_result]

/-- An operation of two operands, the k-th of the line: its result reference ends at its function of what its operands'
    references end at. -/
theorem binary_at {ops : List (HloOp τ sig Val)} {W : List (Ref sig .tc)} (h : Writes ops W) (V : Valuation τ sig Val)
    (k : Nat) (a b y : Ref sig .tc) (f : a.ty.Contents Val → b.ty.Contents Val → y.ty.Contents Val) (ha hb hy)
    (hk : ops[k]? = some (binary a b y f ha hb hy)) (hyW : y ∉ W.drop (k + 1)) (haW : a ∉ W.drop k) (hbW : b ∉ W.drop k) :
    after ops V (Proc.devRef .tc y) = f (after ops V (Proc.devRef .tc a)) (after ops V (Proc.devRef .tc b)) := by
  rw [h.read_at V k _ hk hyW, binary_result, h.read_take k V haW, h.read_take k V hbW]

/-- An operation of three operands, the k-th of the line. -/
theorem ternary_at {ops : List (HloOp τ sig Val)} {W : List (Ref sig .tc)} (h : Writes ops W) (V : Valuation τ sig Val)
    (k : Nat) (c a b y : Ref sig .tc)
    (f : c.ty.Contents Val → a.ty.Contents Val → b.ty.Contents Val → y.ty.Contents Val) (hc ha hb hy)
    (hk : ops[k]? = some (ternary c a b y f hc ha hb hy)) (hyW : y ∉ W.drop (k + 1))
    (hcW : c ∉ W.drop k) (haW : a ∉ W.drop k) (hbW : b ∉ W.drop k) :
    after ops V (Proc.devRef .tc y)
      = f (after ops V (Proc.devRef .tc c)) (after ops V (Proc.devRef .tc a)) (after ops V (Proc.devRef .tc b)) := by
  rw [h.read_at V k _ hk hyW, ternary_result, h.read_take k V hcW, h.read_take k V haW, h.read_take k V hbW]

/-! ## A literal line's three facts, each by one pass over the list

For a line written out as a literal list of the builders' operations: that it writes the listed references, one each, in order
(each builder's written set is the singleton of its result reference, by definition); that it touches TensorCore references only
(each builder's own lemma); that it allocates nothing (each builder's fresh set is empty, by definition). -/

/-- Closes `Writes ops W` for literal lists of equal length: one `rfl` per operation. -/
macro "line_writes" : tactic =>
  `(tactic| repeat (first | exact List.Forall₂.nil | refine List.Forall₂.cons rfl ?_))

/-- Closes `ops.Forall fun op => op.bufs ⊆ tcRefs τ sig` for a literal list of the builders' operations. -/
macro "line_sub" : tactic =>
  `(tactic| simp only [List.Forall, nullary_bufs_sub, unary_bufs_sub, binary_bufs_sub, ternary_bufs_sub, nary_bufs_sub, and_self])

/-- Closes `ops.Forall fun op => op.fresh = ∅` for a literal list of the builders' operations. -/
macro "line_fresh" : tactic =>
  `(tactic| (simp only [List.Forall]; repeat' constructor))

end Cert.Line
-- ==== Proof.KFrame.lean ====
/-
  The run of the program around its one region, with the contents of every buffer at the end.

  The program is a line of host operations, one region of 49 grid points, and a second line of host operations. At each
  point the region's body reads five whole blocks (512 rows of the node features, both weight matrices, both bias rows)
  and stores one whole block of 512 result rows, computed from them; it keeps nothing between points. So after the
  body the result window's buffer holds the body's value of the five input blocks, every input window's buffer still
  holds its block, and the library's run of a region between two host lines applies: the program terminates, nothing
  faults, each array the region stages ends at what its blocks wrote, and every other buffer ends at what the second
  host line computes from those. Neither host line writes an argument, so the arguments end as they started.
-/
import proofs.«149964_j22067541967300_2_alg».proof.Proof.Gen.Kernel.Launch
import proofs.«149964_j22067541967300_2_alg».proof.Proof.Gen.Kernel.Skeleton
import proofs.«149964_j22067541967300_2_alg».proof.Proof.Gen.Kernel.Points
import proofs.«149964_j22067541967300_2_alg».proof.Proof.LibHostLineMore
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo Cert.CubePad.Line Cert.Line

variable {F : FTy → Type} [FloatOps F]

local notation "𝕄" => MT nD τ sig Unit (Elt F) ℕ (UR sig nD τ) ℕ

/-! ## What the two host lines write -/

/-- The references the first host line writes, one per operation, in order. -/
abbrev headRefs : List (Ref sig .tc) :=
  [main_call0_v0, main_call0_v1, main_call0_v2, main_call0_v3, main_call0_v4, main_call0_v5, main_call0_cst, main_call0_v6, main_call0_c, main_call0_v7, main_call0_v8, main_call0_c_0, main_call0_v9, main_call0_v10, main_call0_v11, main_call0_v12, main_call0_cst_1, main_call0_v13, main_call0_v14, main_call0_v15, main_call0_v16, main_call0_v17, main_call0_v18, main_call0_v19]

/-- The references the second host line writes, one per operation, in order. -/
abbrev tailRefs : List (Ref sig .tc) :=
  [main_call0_v21,
   main_call0_v22,
   main_call0_c_2,
   main_call0_v23,
   main_call0_v24,
   main_call0_c_3,
   main_call0_v25,
   main_call0_v26,
   main_call0_v27,
   main_call0_v28,
   main_call0_v29,
   main_call0_c_4,
   main_call0_v30,
   main_call0_v31,
   main_call0_c_5,
   main_call0_v32,
   main_call0_v33,
   main_call0_v34,
   main_call0_v35,
   main_call0_v36,
   main_call0_v37,
   main_call0_v38,
   main_call0_c_6,
   main_call0_v39,
   main_call0_v40,
   main_call0_c_7,
   main_call0_v41,
   main_call0_v42,
   main_call0_v43,
   main_call0_v44,
   main_call0_v45,
   main_call0_v46,
   main_call0_v47,
   main_call0_cst_8,
   main_call0_v48,
   main_call0_v49,
   main_call0_v50,
   main_call0_v51,
   main_call0_v52,
   main_call0_v53,
   main_call0_v54,
   main_call0_v55,
   main_call0_v56,
   main_call0_v57,
   main_call0_v58,
   main_call0_v59,
   main_call0_v60,
   main_call0_call0_cst,
   main_call0_call0_v0,
   main_call0_v61,
   main_call0_v62,
   main_call0_c_9,
   main_call0_v63,
   main_call0_v64,
   main_call0_c_10,
   main_call0_v65,
   main_call0_v66,
   main_call0_v67,
   main_call0_v68,
   main_call0_v69,
   main_call0_c_11,
   main_call0_v70,
   main_call0_v71,
   main_call0_c_12,
   main_call0_v72,
   main_call0_v73,
   main_call0_v74,
   main_call0_v75,
   main_call0_v76,
   main_call0_v77,
   main_call0_v78,
   main_call0_c_13,
   main_call0_v79,
   main_call0_v80,
   main_call0_c_14,
   main_call0_v81,
   main_call0_v82,
   main_call0_v83,
   main_call0_v84,
   main_call0_v85,
   main_call0_v86,
   main_call0_v87,
   main_call0_cst_15,
   main_call0_v88,
   main_call0_v89,
   main_call0_v90,
   main_call0_v91,
   main_call0_v92,
   main_call0_v93,
   main_call0_v94,
   main_call0_v95,
   main_call0_v96,
   main_call0_v97,
   main_call0_v98,
   main_call0_v99,
   main_call0_v100,
   main_call0_call1_cst,
   main_call0_call1_v0,
   main_call0_v101,
   main_call0_c_16,
   main_call0_v102,
   main_call0_v103,
   main_v0]

theorem headWrites : Writes (hostOps0 : List (HloOp τ sig (Elt F))) headRefs := by line_writes
set_option maxHeartbeats 4000000 in
theorem tailWrites : Writes (hostOps1 : List (HloOp τ sig (Elt F))) tailRefs := by line_writes

/-- Each operation of a line that writes the listed references writes exactly one of them. -/
theorem writes_one {ops : List (HloOp τ sig (Elt F))} {W : List (Ref sig .tc)} (h : Writes ops W) :
    ∀ op ∈ ops, ∃ r ∈ W, op.writes = {Proc.devRef (τ := τ) .tc r} := by
  induction h with
  | nil => intro op hop; cases hop
  | cons e _ ih =>
    intro op hop
    rcases List.mem_cons.mp hop with rfl | hop
    · exact ⟨_, List.mem_cons_self, e⟩
    · obtain ⟨r, hr, hw⟩ := ih op hop
      exact ⟨r, List.mem_cons_of_mem _ hr, hw⟩

variable (m : (ℓ : Loc nD τ sig) → Buf (Elt F) ℓ) (ρ : Dev nD → PrngReg)

/-! ## The program around the region -/

/-- A core's buffer contents when the region is entered: after the first host line. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by line_fresh
set_option maxHeartbeats 4000000 in
theorem hostOps1_fresh : (hostOps1 : List (HloOp τ sig (Elt F))).Forall fun op => op.fresh = ∅ := by line_fresh

/-- The program is the first host line, the region, the second host line: it reduces to the region continued by the
    second line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The second line touches only the pipeline's arrays and the buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: each operation writes its own result buffer, none of which is staged. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  obtain ⟨r, hr, hw⟩ := writes_one (tailWrites (F := F)) op hop
  rw [hw, Finset.mem_singleton]
  intro e
  have e' : Pipeline.arrRef spec0 w = r := Proc.devRef_injective (τ := τ) _ e
  subst e'
  exact absurd hr ((by decide : ∀ w : Fin 6, Pipeline.arrRef spec0 w ∉ tailRefs) w)

/-- No host operation before the region writes argument 0: the region finds it as launched. -/
theorem V_main_arg0 (c : Dev nD) : V m c main_arg0 = m ((c : Thread nD τ).loc main_arg0) := by
  show StableHlo.after (List.flatten [hostOps0]) (fun b => m (c, b)) (Proc.devRef .tc main_arg0) = _
  rw [show List.flatten [(hostOps0 : List (HloOp τ sig (Elt F)))] = hostOps0 from by simp only [List.flatten_cons, List.flatten_nil, List.append_nil]]
  exact (headWrites (F := F)).keeps _ (by decide)

/-- No host operation after the region writes argument 0, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [show List.flatten [(hostOps1 : List (HloOp τ sig (Elt F)))] = hostOps1 from by simp only [List.flatten_cons, List.flatten_nil, List.append_nil],
    (tailWrites (F := F)).keeps _ (by decide),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) := by
  show StableHlo.after (List.flatten [hostOps0]) (fun b => m (c, b)) (Proc.devRef .tc main_arg1) = _
  rw [show List.flatten [(hostOps0 : List (HloOp τ sig (Elt F)))] = hostOps0 from by simp only [List.flatten_cons, List.flatten_nil, List.append_nil]]
  exact (headWrites (F := F)).keeps _ (by decide)

/-- No host operation after the region writes argument 1, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [show List.flatten [(hostOps1 : List (HloOp τ sig (Elt F)))] = hostOps1 from by simp only [List.flatten_cons, List.flatten_nil, List.append_nil],
    (tailWrites (F := F)).keeps _ (by decide),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) := by
  show StableHlo.after (List.flatten [hostOps0]) (fun b => m (c, b)) (Proc.devRef .tc main_arg2) = _
  rw [show List.flatten [(hostOps0 : List (HloOp τ sig (Elt F)))] = hostOps0 from by simp only [List.flatten_cons, List.flatten_nil, List.append_nil]]
  exact (headWrites (F := F)).keeps _ (by decide)

/-- No host operation after the region writes argument 2, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [show List.flatten [(hostOps1 : List (HloOp τ sig (Elt F)))] = hostOps1 from by simp only [List.flatten_cons, List.flatten_nil, List.append_nil],
    (tailWrites (F := F)).keeps _ (by decide),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) := by
  show StableHlo.after (List.flatten [hostOps0]) (fun b => m (c, b)) (Proc.devRef .tc main_arg3) = _
  rw [show List.flatten [(hostOps0 : List (HloOp τ sig (Elt F)))] = hostOps0 from by simp only [List.flatten_cons, List.flatten_nil, List.append_nil]]
  exact (headWrites (F := F)).keeps _ (by decide)

/-- No host operation after the region writes argument 3, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [show List.flatten [(hostOps1 : List (HloOp τ sig (Elt F)))] = hostOps1 from by simp only [List.flatten_cons, List.flatten_nil, List.append_nil],
    (tailWrites (F := F)).keeps _ (by decide),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) := by
  show StableHlo.after (List.flatten [hostOps0]) (fun b => m (c, b)) (Proc.devRef .tc main_arg4) = _
  rw [show List.flatten [(hostOps0 : List (HloOp τ sig (Elt F)))] = hostOps0 from by simp only [List.flatten_cons, List.flatten_nil, List.append_nil]]
  exact (headWrites (F := F)).keeps _ (by decide)

/-- No host operation after the region writes argument 4, and it is no array of the pipeline: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [show List.flatten [(hostOps1 : List (HloOp τ sig (Elt F)))] = hostOps1 from by simp only [List.flatten_cons, List.flatten_nil, List.append_nil],
    (tailWrites (F := F)).keeps _ (by decide),
    Pipeline.withArrays_of_ne _ c (V0 m c) _ main_arg4 (by exact (by decide : ∀ w, Pipeline.arrRef spec0 w ≠ main_arg4))]
  exact V_main_arg4 m c

/-- No host operation before the region writes argument 5: the region finds it as launched. -/
theorem V_main_arg5 (c : Dev nD) : V m c main_arg5 = m ((c : Thread nD τ).loc main_arg5) := by
  show StableHlo.after (List.flatten [hostOps0]) (fun b => m (c, b)) (Proc.devRef .tc main_arg5) = _
  rw [show List.flatten [(hostOps0 : List (HloOp τ sig (Elt F)))] = hostOps0 from by simp only [List.flatten_cons, List.flatten_nil, List.append_nil]]
  exact (headWrites (F := F)).keeps _ (by decide)

/-- No host operation after the region writes argument 5, and it is no array of the pipeline: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [show List.flatten [(hostOps1 : List (HloOp τ sig (Elt F)))] = hostOps1 from by simp only [List.flatten_cons, List.flatten_nil, List.append_nil],
    (tailWrites (F := F)).keeps _ (by decide),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current buffer holds its block at every point, fetched there or not (unfetched, the block index
    has not moved), for any proof data whose array is the region-entry contents and whose body leaves the block in place. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the result window's buffer -/

abbrev rX : Rect S512x2048 := Rect.unit (s := S512x2048) ![0, 0] S512x2048.size inb_S512x2048_S512x2048_0_0
abbrev rW1 : Rect S2048x1024 := Rect.unit (s := S2048x1024) ![0, 0] S2048x1024.size inb_S2048x1024_S2048x1024_0_0
abbrev rB1 : Rect S1x1024 := Rect.unit (s := S1x1024) ![0, 0] S1x1024.size inb_S1x1024_S1x1024_0_0
abbrev rW2 : Rect S1024x2048 := Rect.unit (s := S1024x2048) ![0, 0] S1024x2048.size inb_S1024x2048_S1024x2048_0_0
abbrev rB2 : Rect S1x2048 := Rect.unit (s := S1x2048) ![0, 0] S1x2048.size inb_S1x2048_S1x2048_0_0

/-- The result window's buffer after the body, from the five input blocks: its one store, of the whole block. -/
def outBlock (x0 : Vec F S512x2048 .f32) (x1 : Vec F S2048x1024 .bf16) (x2 : Vec F S1x1024 .f32) (x3 : Vec F S1024x2048 .bf16)
    (x4 : Vec F S1x2048 .f32) : Vec F S512x2048 .f32 :=
  View.canon [⟨rX, k0_pay1 (View.ld x0 rX) (View.ld x1 rW1) (View.ld x2 rB1) (View.ld x3 rW2) (View.ld x4 rB2)⟩]

/-- The one store covers the buffer. -/
theorem outBlock_cover (p0 : Vec F S512x2048 .f32) (y : S512x2048.Idx) :
    ∃ pc ∈ ([⟨rX, p0⟩] : List (View.Piece (Elt F) S512x2048 .f32)), y ∈ pc.1.set :=
  View.cover_of_tiled [⟨rX, p0⟩] S512x2048.size (by rfl) y

/-! ## The body's triple -/

set_option maxHeartbeats 4000000 in
/-- The body on whole buffers — the five inputs' at given contents, the result's at anything — runs to its end leaving
    the inputs' as they were and the result's at `outBlock` of them. -/
theorem sound_kernel (c : Dev nD) (E : Set ℕ) (i : grid0.Coords)
    (arg1 : Memref sig .tc .vmem S512x2048 .f32) (harg1 : arg1.IsWhole) (arg2 : Memref sig .tc .vmem S2048x1024 .bf16) (harg2 : arg2.IsWhole)
    (arg3 : Memref sig .tc .vmem S1x1024 .f32) (harg3 : arg3.IsWhole) (arg4 : Memref sig .tc .vmem S1024x2048 .bf16) (harg4 : arg4.IsWhole)
    (arg5 : Memref sig .tc .vmem S1x2048 .f32) (harg5 : arg5.IsWhole) (arg6 : Memref sig .tc .vmem S512x2048 .f32) (harg6 : arg6.IsWhole)
    (x0 : Vec F S512x2048 .f32) (x1 : Vec F S2048x1024 .bf16) (x2 : Vec F S1x1024 .f32) (x3 : Vec F S1024x2048 .bf16) (x4 : Vec F S1x2048 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E
          (cc0__gcn_fused_kernel i arg1 harg1 arg2 harg2 arg3 harg3 arg4 harg4 arg5 harg5 arg6 harg6) K := by
  simp only [cc0__gcn_fused_kernel_eq_skeleton]; unfold cc0__gcn_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outBlock_cover _)

/-! ## The pipeline's proof data -/

/-- The arrays as the region finds them; after the body at point `t` each input's buffer at its block and the result's
    at `outBlock` of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = outBlock (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates; in every final state each array of the pipeline is what its
    blocks wrote, and every other buffer is what the second host line leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same run read at the result and the six arguments: the result is what the second host line leaves in it,
    every argument ends as it started. -/
theorem run_post : θ_run defs (onTc (τ := τ) (main (F := F))) ⟨m, fun _ => 0, ρ⟩ (fun r => ∀ c : Dev nD,
      r.2.mem ((c.tc : Thread nD τ).loc main_v0) = Pipeline.afterTail₀ cfgs (dats m) 0 (V0 m) [hostOps1] c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c).2 main_v0 (Pipeline.mem_restRefs_of main_v0 (by decide) (by decide)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩)
    (run_main m ρ)

/-- The frame: the program runs to its end and its six arguments end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_post m ρ)

end Cert.Kernel.Hand

end
-- ==== Proof.KIFrame.lean ====
/-
  The run of the program around its one region, with the contents of every buffer at the end.

  The program is a line of host operations, one region of 49 grid points, and a second line of host operations. At each
  point the region's body reads five whole blocks (512 rows of the node features, both weight matrices, both bias rows)
  and stores one whole block of 512 result rows, computed from them; it keeps nothing between points. So after the
  body the result window's buffer holds the body's value of the five input blocks, every input window's buffer still
  holds its block, and the library's run of a region between two host lines applies: the program terminates, nothing
  faults, each array the region stages ends at what its blocks wrote, and every other buffer ends at what the second
  host line computes from those. Neither host line writes an argument, so the arguments end as they started.
-/
import proofs.«149964_j22067541967300_2_alg».proof.Proof.Gen.KernelIdeal.Launch
import proofs.«149964_j22067541967300_2_alg».proof.Proof.Gen.KernelIdeal.Skeleton
import proofs.«149964_j22067541967300_2_alg».proof.Proof.Gen.KernelIdeal.Points
import proofs.«149964_j22067541967300_2_alg».proof.Proof.LibHostLineMore
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo Cert.CubePad.Line Cert.Line

variable {F : FTy → Type} [FloatOps F]

local notation "𝕄" => MT nD τ sig Unit (Elt F) ℕ (UR sig nD τ) ℕ

/-! ## What the two host lines write -/

/-- The references the first host line writes, one per operation, in order. -/
abbrev headRefs : List (Ref sig .tc) :=
  [main_call0_v0, main_call0_v1, main_call0_v2, main_call0_v3, main_call0_v4, main_call0_v5, main_call0_cst, main_call0_v6, main_call0_c, main_call0_v7, main_call0_v8, main_call0_c_0, main_call0_v9, main_call0_v10, main_call0_v11, main_call0_v12, main_call0_cst_1, main_call0_v13, main_call0_v14, main_call0_v15, main_call0_v16, main_call0_v17, main_call0_v18, main_call0_v19]

/-- The references the second host line writes, one per operation, in order. -/
abbrev tailRefs : List (Ref sig .tc) :=
  [main_call0_v21,
   main_call0_v22,
   main_call0_c_2,
   main_call0_v23,
   main_call0_v24,
   main_call0_c_3,
   main_call0_v25,
   main_call0_v26,
   main_call0_v27,
   main_call0_v28,
   main_call0_v29,
   main_call0_c_4,
   main_call0_v30,
   main_call0_v31,
   main_call0_c_5,
   main_call0_v32,
   main_call0_v33,
   main_call0_v34,
   main_call0_v35,
   main_call0_v36,
   main_call0_v37,
   main_call0_v38,
   main_call0_c_6,
   main_call0_v39,
   main_call0_v40,
   main_call0_c_7,
   main_call0_v41,
   main_call0_v42,
   main_call0_v43,
   main_call0_v44,
   main_call0_v45,
   main_call0_v46,
   main_call0_v47,
   main_call0_cst_8,
   main_call0_v48,
   main_call0_v49,
   main_call0_v50,
   main_call0_v51,
   main_call0_v52,
   main_call0_v53,
   main_call0_v54,
   main_call0_v55,
   main_call0_v56,
   main_call0_v57,
   main_call0_v58,
   main_call0_v59,
   main_call0_v60,
   main_call0_call0_cst,
   main_call0_call0_v0,
   main_call0_v61,
   main_call0_v62,
   main_call0_c_9,
   main_call0_v63,
   main_call0_v64,
   main_call0_c_10,
   main_call0_v65,
   main_call0_v66,
   main_call0_v67,
   main_call0_v68,
   main_call0_v69,
   main_call0_c_11,
   main_call0_v70,
   main_call0_v71,
   main_call0_c_12,
   main_call0_v72,
   main_call0_v73,
   main_call0_v74,
   main_call0_v75,
   main_call0_v76,
   main_call0_v77,
   main_call0_v78,
   main_call0_c_13,
   main_call0_v79,
   main_call0_v80,
   main_call0_c_14,
   main_call0_v81,
   main_call0_v82,
   main_call0_v83,
   main_call0_v84,
   main_call0_v85,
   main_call0_v86,
   main_call0_v87,
   main_call0_cst_15,
   main_call0_v88,
   main_call0_v89,
   main_call0_v90,
   main_call0_v91,
   main_call0_v92,
   main_call0_v93,
   main_call0_v94,
   main_call0_v95,
   main_call0_v96,
   main_call0_v97,
   main_call0_v98,
   main_call0_v99,
   main_call0_v100,
   main_call0_call1_cst,
   main_call0_call1_v0,
   main_call0_v101,
   main_call0_c_16,
   main_call0_v102,
   main_call0_v103,
   main_v0]

theorem headWrites : Writes (hostOps0 : List (HloOp τ sig (Elt F))) headRefs := by line_writes
set_option maxHeartbeats 4000000 in
theorem tailWrites : Writes (hostOps1 : List (HloOp τ sig (Elt F))) tailRefs := by line_writes

/-- Each operation of a line that writes the listed references writes exactly one of them. -/
theorem writes_one {ops : List (HloOp τ sig (Elt F))} {W : List (Ref sig .tc)} (h : Writes ops W) :
    ∀ op ∈ ops, ∃ r ∈ W, op.writes = {Proc.devRef (τ := τ) .tc r} := by
  induction h with
  | nil => intro op hop; cases hop
  | cons e _ ih =>
    intro op hop
    rcases List.mem_cons.mp hop with rfl | hop
    · exact ⟨_, List.mem_cons_self, e⟩
    · obtain ⟨r, hr, hw⟩ := ih op hop
      exact ⟨r, List.mem_cons_of_mem _ hr, hw⟩

variable (m : (ℓ : Loc nD τ sig) → Buf (Elt F) ℓ) (ρ : Dev nD → PrngReg)

/-! ## The program around the region -/

/-- A core's buffer contents when the region is entered: after the first host line. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by line_fresh
set_option maxHeartbeats 4000000 in
theorem hostOps1_fresh : (hostOps1 : List (HloOp τ sig (Elt F))).Forall fun op => op.fresh = ∅ := by line_fresh

/-- The program is the first host line, the region, the second host line: it reduces to the region continued by the
    second line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The second line touches only the pipeline's arrays and the buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: each operation writes its own result buffer, none of which is staged. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  obtain ⟨r, hr, hw⟩ := writes_one (tailWrites (F := F)) op hop
  rw [hw, Finset.mem_singleton]
  intro e
  have e' : Pipeline.arrRef spec0 w = r := Proc.devRef_injective (τ := τ) _ e
  subst e'
  exact absurd hr ((by decide : ∀ w : Fin 6, Pipeline.arrRef spec0 w ∉ tailRefs) w)

/-- No host operation before the region writes argument 0: the region finds it as launched. -/
theorem V_main_arg0 (c : Dev nD) : V m c main_arg0 = m ((c : Thread nD τ).loc main_arg0) := by
  show StableHlo.after (List.flatten [hostOps0]) (fun b => m (c, b)) (Proc.devRef .tc main_arg0) = _
  rw [show List.flatten [(hostOps0 : List (HloOp τ sig (Elt F)))] = hostOps0 from by simp only [List.flatten_cons, List.flatten_nil, List.append_nil]]
  exact (headWrites (F := F)).keeps _ (by decide)

/-- No host operation after the region writes argument 0, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [show List.flatten [(hostOps1 : List (HloOp τ sig (Elt F)))] = hostOps1 from by simp only [List.flatten_cons, List.flatten_nil, List.append_nil],
    (tailWrites (F := F)).keeps _ (by decide),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) := by
  show StableHlo.after (List.flatten [hostOps0]) (fun b => m (c, b)) (Proc.devRef .tc main_arg1) = _
  rw [show List.flatten [(hostOps0 : List (HloOp τ sig (Elt F)))] = hostOps0 from by simp only [List.flatten_cons, List.flatten_nil, List.append_nil]]
  exact (headWrites (F := F)).keeps _ (by decide)

/-- No host operation after the region writes argument 1, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [show List.flatten [(hostOps1 : List (HloOp τ sig (Elt F)))] = hostOps1 from by simp only [List.flatten_cons, List.flatten_nil, List.append_nil],
    (tailWrites (F := F)).keeps _ (by decide),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) := by
  show StableHlo.after (List.flatten [hostOps0]) (fun b => m (c, b)) (Proc.devRef .tc main_arg2) = _
  rw [show List.flatten [(hostOps0 : List (HloOp τ sig (Elt F)))] = hostOps0 from by simp only [List.flatten_cons, List.flatten_nil, List.append_nil]]
  exact (headWrites (F := F)).keeps _ (by decide)

/-- No host operation after the region writes argument 2, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [show List.flatten [(hostOps1 : List (HloOp τ sig (Elt F)))] = hostOps1 from by simp only [List.flatten_cons, List.flatten_nil, List.append_nil],
    (tailWrites (F := F)).keeps _ (by decide),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) := by
  show StableHlo.after (List.flatten [hostOps0]) (fun b => m (c, b)) (Proc.devRef .tc main_arg3) = _
  rw [show List.flatten [(hostOps0 : List (HloOp τ sig (Elt F)))] = hostOps0 from by simp only [List.flatten_cons, List.flatten_nil, List.append_nil]]
  exact (headWrites (F := F)).keeps _ (by decide)

/-- No host operation after the region writes argument 3, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [show List.flatten [(hostOps1 : List (HloOp τ sig (Elt F)))] = hostOps1 from by simp only [List.flatten_cons, List.flatten_nil, List.append_nil],
    (tailWrites (F := F)).keeps _ (by decide),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) := by
  show StableHlo.after (List.flatten [hostOps0]) (fun b => m (c, b)) (Proc.devRef .tc main_arg4) = _
  rw [show List.flatten [(hostOps0 : List (HloOp τ sig (Elt F)))] = hostOps0 from by simp only [List.flatten_cons, List.flatten_nil, List.append_nil]]
  exact (headWrites (F := F)).keeps _ (by decide)

/-- No host operation after the region writes argument 4, and it is no array of the pipeline: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [show List.flatten [(hostOps1 : List (HloOp τ sig (Elt F)))] = hostOps1 from by simp only [List.flatten_cons, List.flatten_nil, List.append_nil],
    (tailWrites (F := F)).keeps _ (by decide),
    Pipeline.withArrays_of_ne _ c (V0 m c) _ main_arg4 (by exact (by decide : ∀ w, Pipeline.arrRef spec0 w ≠ main_arg4))]
  exact V_main_arg4 m c

/-- No host operation before the region writes argument 5: the region finds it as launched. -/
theorem V_main_arg5 (c : Dev nD) : V m c main_arg5 = m ((c : Thread nD τ).loc main_arg5) := by
  show StableHlo.after (List.flatten [hostOps0]) (fun b => m (c, b)) (Proc.devRef .tc main_arg5) = _
  rw [show List.flatten [(hostOps0 : List (HloOp τ sig (Elt F)))] = hostOps0 from by simp only [List.flatten_cons, List.flatten_nil, List.append_nil]]
  exact (headWrites (F := F)).keeps _ (by decide)

/-- No host operation after the region writes argument 5, and it is no array of the pipeline: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [show List.flatten [(hostOps1 : List (HloOp τ sig (Elt F)))] = hostOps1 from by simp only [List.flatten_cons, List.flatten_nil, List.append_nil],
    (tailWrites (F := F)).keeps _ (by decide),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current buffer holds its block at every point, fetched there or not (unfetched, the block index
    has not moved), for any proof data whose array is the region-entry contents and whose body leaves the block in place. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the result window's buffer -/

abbrev rX : Rect S512x2048 := Rect.unit (s := S512x2048) ![0, 0] S512x2048.size inb_S512x2048_S512x2048_0_0
abbrev rW1 : Rect S2048x1024 := Rect.unit (s := S2048x1024) ![0, 0] S2048x1024.size inb_S2048x1024_S2048x1024_0_0
abbrev rB1 : Rect S1x1024 := Rect.unit (s := S1x1024) ![0, 0] S1x1024.size inb_S1x1024_S1x1024_0_0
abbrev rW2 : Rect S1024x2048 := Rect.unit (s := S1024x2048) ![0, 0] S1024x2048.size inb_S1024x2048_S1024x2048_0_0
abbrev rB2 : Rect S1x2048 := Rect.unit (s := S1x2048) ![0, 0] S1x2048.size inb_S1x2048_S1x2048_0_0

/-- The result window's buffer after the body, from the five input blocks: its one store, of the whole block. -/
def outBlock (x0 : Vec F S512x2048 .f32) (x1 : Vec F S2048x1024 .bf16) (x2 : Vec F S1x1024 .f32) (x3 : Vec F S1024x2048 .bf16)
    (x4 : Vec F S1x2048 .f32) : Vec F S512x2048 .f32 :=
  View.canon [⟨rX, k0_pay1 (View.ld x0 rX) (View.ld x1 rW1) (View.ld x2 rB1) (View.ld x3 rW2) (View.ld x4 rB2)⟩]

/-- The one store covers the buffer. -/
theorem outBlock_cover (p0 : Vec F S512x2048 .f32) (y : S512x2048.Idx) :
    ∃ pc ∈ ([⟨rX, p0⟩] : List (View.Piece (Elt F) S512x2048 .f32)), y ∈ pc.1.set :=
  View.cover_of_tiled [⟨rX, p0⟩] S512x2048.size (by rfl) y

/-! ## The body's triple -/

set_option maxHeartbeats 4000000 in
/-- The body on whole buffers — the five inputs' at given contents, the result's at anything — runs to its end leaving
    the inputs' as they were and the result's at `outBlock` of them. -/
theorem sound_kernel (c : Dev nD) (E : Set ℕ) (i : grid0.Coords)
    (arg1 : Memref sig .tc .vmem S512x2048 .f32) (harg1 : arg1.IsWhole) (arg2 : Memref sig .tc .vmem S2048x1024 .bf16) (harg2 : arg2.IsWhole)
    (arg3 : Memref sig .tc .vmem S1x1024 .f32) (harg3 : arg3.IsWhole) (arg4 : Memref sig .tc .vmem S1024x2048 .bf16) (harg4 : arg4.IsWhole)
    (arg5 : Memref sig .tc .vmem S1x2048 .f32) (harg5 : arg5.IsWhole) (arg6 : Memref sig .tc .vmem S512x2048 .f32) (harg6 : arg6.IsWhole)
    (x0 : Vec F S512x2048 .f32) (x1 : Vec F S2048x1024 .bf16) (x2 : Vec F S1x1024 .f32) (x3 : Vec F S1024x2048 .bf16) (x4 : Vec F S1x2048 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E
          (cc0__gcn_fused_kernel i arg1 harg1 arg2 harg2 arg3 harg3 arg4 harg4 arg5 harg5 arg6 harg6) K := by
  simp only [cc0__gcn_fused_kernel_eq_skeleton]; unfold cc0__gcn_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outBlock_cover _)

/-! ## The pipeline's proof data -/

/-- The arrays as the region finds them; after the body at point `t` each input's buffer at its block and the result's
    at `outBlock` of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = outBlock (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates; in every final state each array of the pipeline is what its
    blocks wrote, and every other buffer is what the second host line leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same run read at the result and the six arguments: the result is what the second host line leaves in it,
    every argument ends as it started. -/
theorem run_post : θ_run defs (onTc (τ := τ) (main (F := F))) ⟨m, fun _ => 0, ρ⟩ (fun r => ∀ c : Dev nD,
      r.2.mem ((c.tc : Thread nD τ).loc main_v0) = Pipeline.afterTail₀ cfgs (dats m) 0 (V0 m) [hostOps1] c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c).2 main_v0 (Pipeline.mem_restRefs_of main_v0 (by decide) (by decide)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩)
    (run_main m ρ)

/-- The frame: the program runs to its end and its six arguments end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_post m ρ)

end Cert.KernelIdeal.Hand

end
-- ==== Proof.Spec.lean ====
/-
  The mathematics both programs compute, stated once over the extended reals.

  A graph of 25088 nodes carries 1404 directed edges `src e → dst e`. Each node has a self loop, so its degree is one plus
  the number of edges arriving at it, and `dinv` is the inverse square root of the degree. One graph-convolution layer
  maps node features `h` to `relu (Â (h W) + b)`, where row `i` of `Â y` is the sum over the edges arriving at `i` of
  `y (src e) · (dinv (src e) · dinv (dst e))` plus the self-loop term `y i · (dinv i · dinv i)`. The network is two such
  layers. Edge endpoints are kept as integers (the signed reading of the index words), nodes as naturals.
-/
import Idealize.ShloMosaic.PureOps.Ideal

noncomputable section

namespace Cert.Gcn

open Idealize.ShloMosaic

/-- The endpoints of the 1404 edges. -/
structure Edges where
  src : Fin 1404 → ℤ
  dst : Fin 1404 → ℤ

variable (G : Edges)

/-- The edges arriving at node `i`. -/
def arriving (i : ℕ) : Finset (Fin 1404) := Finset.univ.filter (fun e : Fin 1404 => G.dst e = (i : ℤ))

/-- Degree with the self loop: one plus the number of edges arriving at `i`. -/
def deg (i : ℕ) : EReal := (1 : EReal) + ∑ _e ∈ arriving G i, (1 : EReal)

/-- Inverse square root of the degree. -/
def dinv (i : ℕ) : EReal := Ideal.rsqrt (deg G i)

/-- The linear map of a layer: row `i` of `h W`. -/
def lin {K C : ℕ} (h : ℕ → Fin K → EReal) (W : Fin K → Fin C → EReal) (i : ℕ) (j : Fin C) : EReal :=
  ∑ k : Fin K, h i k * W k j

/-- The normalised aggregation with self loops and bias, at node `i`, feature `j`: neighbours first (accumulated from
    zero), then the self-loop term, then the bias. -/
def conv {C : ℕ} (y : ℕ → Fin C → EReal) (b : Fin C → EReal) (i : ℕ) (j : Fin C) : EReal :=
  ((0 + ∑ e ∈ arriving G i, y (G.src e).toNat j * (dinv G (G.src e).toNat * dinv G (G.dst e).toNat))
    + y i j * (dinv G i * dinv G i)) + b j

/-- One layer: linear map, aggregation, bias, then the positive part. -/
def layer {K C : ℕ} (h : ℕ → Fin K → EReal) (W : Fin K → Fin C → EReal) (b : Fin C → EReal) (i : ℕ) (j : Fin C) : EReal :=
  max (conv G (lin h W) b i j) 0

/-- The two-layer network at node `i`, feature `j`. -/
def out (xf : ℕ → Fin 2048 → EReal) (W1 : Fin 2048 → Fin 1024 → EReal) (b1 : Fin 1024 → EReal)
    (W2 : Fin 1024 → Fin 2048 → EReal) (b2 : Fin 2048 → EReal) (i : ℕ) (j : Fin 2048) : EReal :=
  layer G (layer G xf W1 b1) W2 b2 i j

/-- The same two layers with no graph at all: what a node no edge touches computes. -/
def plain (xf : ℕ → Fin 2048 → EReal) (W1 : Fin 2048 → Fin 1024 → EReal) (b1 : Fin 1024 → EReal)
    (W2 : Fin 1024 → Fin 2048 → EReal) (b2 : Fin 2048 → EReal) (i : ℕ) (j : Fin 2048) : EReal :=
  max ((∑ k : Fin 1024, max ((∑ c : Fin 2048, xf i c * W1 c k) + b1 k) 0 * W2 k j) + b2 j) 0

end Cert.Gcn

end
-- ==== Proof.SpecArgs.lean ====
/-
  The argument arrays read as the specification's data: the index array's two rows as the edges' endpoints (signed
  reading of each word), a two-axis array as rows of features indexed by a natural (zero past the last row), a
  weight array as a matrix, a bias array as a vector.
-/
import Idealize.ShloMosaic.Lib.ValueIdx
import proofs.«149964_j22067541967300_2_alg».proof.Proof.Spec

noncomputable section

namespace Cert.Gcn

open Idealize.ShloMosaic Idealize.ShloMosaic.ValueIdx

/-- Row 0 of the index array holds the sources, row 1 the destinations. -/
def edgesOf (E : (⟨2, ![2, 1404]⟩ : Shape).Idx → BitVec 32) : Edges :=
  ⟨fun e => (E (ix2 (0 : Fin 2) e)).toInt, fun e => (E (ix2 (1 : Fin 2) e)).toInt⟩

/-- The rows of an `N × C` array, indexed by a natural; zero past the last row. -/
def rowsOf {N C : ℕ} (a : (⟨2, ![N, C]⟩ : Shape).Idx → EReal) : ℕ → Fin C → EReal :=
  fun n c => if h : n < N then a (ix2 ⟨n, h⟩ c) else 0

theorem rowsOf_lt {N C : ℕ} (a : (⟨2, ![N, C]⟩ : Shape).Idx → EReal) (n : Fin N) (c : Fin C) :
    rowsOf a n.val c = a (ix2 n c) := by
  unfold rowsOf; rw [dif_pos n.isLt]

/-- A weight array as a matrix. -/
def matOf {K C : ℕ} (w : (⟨2, ![K, C]⟩ : Shape).Idx → EReal) : Fin K → Fin C → EReal := fun k c => w (ix2 k c)

/-- A bias array as a vector. -/
def vecOf {C : ℕ} (b : (⟨1, ![C]⟩ : Shape).Idx → EReal) : Fin C → EReal := fun c => b (ix1 c)

/-- Every endpoint is one of the first 196 nodes. -/
def InGrid (E : (⟨2, ![2, 1404]⟩ : Shape).Idx → BitVec 32) : Prop :=
  ∀ p, 0 ≤ (E p).toInt ∧ (E p).toInt < 196

end Cert.Gcn

end
-- ==== Proof.DomPre.lean ====
/-
  The precondition decoded: its last conjunct says every endpoint word of the edge array, read as a signed integer,
  lies in [0, 196). The precondition is a conjunction of six "all elements" reductions; the sixth reduces, over both axes
  of the edge array, the conjunction of "e ≥ 0" and "e < 196" (signed comparisons against broadcast constants).
-/
import proofs.«149964_j22067541967300_2_alg».proof.Defs
import proofs.«149964_j22067541967300_2_alg».proof.Proof.SpecArgs
import Idealize.ShloMosaic.Lib.ReduceAll

set_option maxRecDepth 16384

noncomputable section

namespace Cert.Gcn.Dom

open Idealize.ShloMosaic Cert.Pre_finite_inputs

/-- A rank-zero array has one index. -/
instance : Subsingleton S_.Idx := ⟨fun a b => funext fun d => d.elim0⟩

/-- The precondition, all ones, puts every endpoint in [0, 196). Generic in the float instance: only the integer
    conjunct is read. -/
theorem inGrid_of_pre {F : FTy → Type} [FloatOps F] [Cert.Pre_finite_inputs.Facts]
    (a0 : FVec F S128x14x14x2048 .f32) (a1 : IVec S2x1404 32) (a2 : FVec F S2048x1024 .f32) (a3 : FVec F S1024 .f32)
    (a4 : FVec F S1024x2048 .f32) (a5 : FVec F S2048 .f32)
    (h : Cert.Pre_finite_inputs.fn (F := F) a0 a1 a2 a3 a4 a5 = (fun _ => 1#1)) : Cert.Gcn.InGrid a1 := by
  have e := congrFun h ValueIdx.ix0
  dsimp only [Cert.Pre_finite_inputs.fn, Cert.Pre_finite_inputs.fn_part1] at e
  obtain ⟨-, e6⟩ := IntOp.andi_eq_one.1 e
  intro p
  have ep := Host.reduce_andi_all _ _ _ _ _ e6 p
  obtain ⟨h0, h1⟩ := IntOp.andi_eq_one.1 ep
  have h0' := IntOp.cmpi_sge.1 h0
  have h1' := IntOp.cmpi_slt.1 h1
  exact ⟨h0', h1'⟩

open Idealize.SL.Sem

/-- At the idealized kernel's launch memory: its edge array's endpoints lie in [0, 196) on every device. -/
theorem inGrid_KernelIdeal [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Gcn.InGrid (m ((c.tc : Thread Cert.KernelIdeal.nD Cert.KernelIdeal.τ).loc Cert.KernelIdeal.main_arg1)) :=
  inGrid_of_pre _ _ _ _ _ _ (h c)

/-- The same at the word-level kernel's launch memory (the statement speaks of the index words only). -/
theorem inGrid_Kernel [Cert.Pre_finite_inputs.Facts]
    (m : (ℓ : Loc Cert.Kernel.nD Cert.Kernel.τ Cert.Kernel.sig) → Buf (Elt Bits) ℓ)
    (h : Cert.Pre_Kernel m) (c : Dev Cert.Kernel.nD) :
    Cert.Gcn.InGrid (m ((c.tc : Thread Cert.Kernel.nD Cert.Kernel.τ).loc Cert.Kernel.main_arg1)) :=
  inGrid_of_pre _ _ _ _ _ _ (h c)

/-- The same at the idealized reference's launch memory. -/
theorem inGrid_ReferenceIdeal [Cert.Pre_finite_inputs.Facts]
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    Cert.Gcn.InGrid (m ((c.tc : Thread Cert.ReferenceIdeal.nD Cert.ReferenceIdeal.τ).loc Cert.ReferenceIdeal.main_arg1)) :=
  inGrid_of_pre _ _ _ _ _ _ (h c)

end Cert.Gcn.Dom

end
-- ==== Proof.LibContractPlain.lean ====
/-
  A plain matrix product — the columns of an `A × K` left operand contracted with the rows of a `K × B` right
  operand — read at an entry, generic in the sizes and in the precision attribute.

  The product's entry `(i, j)` is the sum over the contracted coordinate `k` of `l (i, k) · r (k, j)`. Over the
  extended reals this holds of the kernel's matrix product accumulated into a zero constant
  (`matmulPlain_zero_apply`) and of the host's `dot_general` with these dimension numbers (`dotPlain_apply`),
  whatever the operands' float formats and the requested precision: at the ideal values no rounding is left in
  either, and the accumulator `0` is the neutral element.
-/
import Idealize.ShloMosaic.Lib.ValueIdx
import Idealize.ShloMosaic.PureOps.Ideal.Laws

noncomputable section

open scoped BigOperators

namespace Cert.LibContractPlain

open Idealize.ShloMosaic Idealize.ShloMosaic.ValueIdx

/-- The dimension numbers of the plain product of an `A × K` by a `K × B` matrix: axis 1 of the left operand
    contracted with axis 0 of the right one, no batch axes. -/
abbrev plainDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- The sum over the contraction index of these dimension numbers, at the entry `(i, j)`, is the sum over the
    shared coordinate `k` of the left operand at `(i, k)` times the right operand at `(k, j)`. -/
theorem contraction_eq {α : Type} [AddCommMonoid α] [Mul α] (A K B : Nat)
    (wf : DotDims.WF ⟨2, ![A, K]⟩ ⟨2, ![K, B]⟩ ⟨2, ![A, B]⟩ [1] [0] [0] [1] [] [])
    (l : (⟨2, ![A, K]⟩ : Shape).Idx → α) (r : (⟨2, ![K, B]⟩ : Shape).Idx → α) (i : Fin A) (j : Fin B) :
    ∑ q : (plainDims A K B wf).contr.Idx,
        l ((plainDims A K B wf).lhsIdx (ix2 i j) q) * r ((plainDims A K B wf).rhsIdx (ix2 i j) q)
      = ∑ k : Fin K, l (ix2 i k) * r (ix2 k j) := by
  rw [← Equiv.sum_comp (contrEquiv1 (plainDims A K B wf) K rfl rfl).symm]
  refine Finset.sum_congr rfl fun c _ => ?_
  have c2 := contrEquiv1_symm_val (plainDims A K B wf) K rfl rfl c
  have l2 : (plainDims A K B wf).lhsIdx (ix2 i j) ((contrEquiv1 _ K rfl rfl).symm c) = ix2 i c := by
    funext ax; apply Fin.ext
    match ax with
    | ⟨0, _⟩ => simp [DotDims.lhsIdx]; rfl
    | ⟨1, _⟩ => simp [DotDims.lhsIdx]; exact c2
  have r2 : (plainDims A K B wf).rhsIdx (ix2 i j) ((contrEquiv1 _ K rfl rfl).symm c) = ix2 c j := by
    funext ax; apply Fin.ext
    match ax with
    | ⟨0, _⟩ => simp [DotDims.rhsIdx]; exact c2
    | ⟨1, _⟩ => simp [DotDims.rhsIdx]; rfl
  rw [l2, r2]

/-- THE HOST'S PLAIN PRODUCT read at `(i, j)`, over the extended reals. -/
theorem dotPlain_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    Host.dotGeneral (plainDims A K B wf) prec l r (ix2 i j) = ∑ k : Fin K, l (ix2 i k) * r (ix2 k j) := by
  show FloatOps.dotGeneral _ prec _ l r (ix2 i j) = _
  rw [Ideal.dotGeneral_apply]
  exact contraction_eq A K B wf l r i j

/-- THE KERNEL'S PLAIN PRODUCT INTO A ZERO ACCUMULATOR read at `(i, j)`, over the extended reals: the same sum. -/
theorem matmulPlain_zero_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    FloatOps.matmul (plainDims A K B wf) prec l r (constant (F := Ideal) ⟨2, ![A, B]⟩ .f32 0x00000000#32) (ix2 i j)
      = ∑ k : Fin K, l (ix2 i k) * r (ix2 k j) := by
  rw [Ideal.matmul_constant_zero_apply]
  exact contraction_eq A K B wf l r i j

end Cert.LibContractPlain

end
-- ==== Proof.BodyPay.lean ====
/-
  The region body's stored value at an entry, over the extended reals: two dense layers with the positive part,
  row by row. With x the 512 × 2048 block, W1, b1, W2, b2 the weights and biases, entry (r, j) of the stored block is
  max (Σ_k max (Σ_c x(r,c) · W1(c,k) + b1(k)) 0 · W2(k,j) + b2(j)) 0. At the extended reals the narrowing format
  changes are identities, each matrix product into the zero accumulator is the plain sum of products, and a one-row
  bias broadcast down the rows reads the bias at the column.
-/
import proofs.«149964_j22067541967300_2_alg».proof.Proof.Gen.KernelIdeal.Skeleton
import proofs.«149964_j22067541967300_2_alg».proof.Proof.LibContractPlain
import Idealize.ShloMosaic.Lib.ValueIdx
import Idealize.ShloMosaic.Lib.Pipeline.Value
import Idealize.ShloMosaic.PureOps.Ideal.Laws

set_option maxRecDepth 16384

noncomputable section

open scoped BigOperators

namespace Cert.Gcn.Body

open Idealize.ShloMosaic Idealize.ShloMosaic.ValueIdx Cert.KernelIdeal Cert.KernelIdeal.Gen

/-- A one-row matrix broadcast down the rows reads, at (r, j), the row's entry j. -/
theorem rowBcast_apply {α : Type} {A B : Nat} (b : (⟨2, ![1, B]⟩ : Shape).Idx → α)
    (h : (⟨2, ![1, B]⟩ : Shape).Broadcasts ⟨2, ![A, B]⟩) (r : Fin A) (j : Fin B) :
    broadcastTo ⟨2, ![A, B]⟩ b h (ix2 r j) = b (ix2 (0 : Fin 1) j) := by
  refine broadcastTo_apply _ h (ix2 r j) (ix2 (0 : Fin 1) j) fun ax => ?_
  match ax with
  | ⟨0, _⟩ => rfl
  | ⟨1, _⟩ =>
    show j.val = if B = 1 then 0 else j.val
    split
    · have := j.isLt; omega
    · rfl

/-- The first product into the zero accumulator, at (r, k): the sum over the 2048 shared coordinates. -/
theorem mm1_apply (l : FVec Ideal S512x2048 .bf16) (w : FVec Ideal S2048x1024 .bf16) (r : Fin 512) (k : Fin 1024) :
    matmul dot_S512x2048_S2048x1024_S512x1024_1_0_0_1_n_n none l w (constant (F := Ideal) S512x1024 .f32 0x00000000#32) (ix2 r k)
      = ∑ c : Fin 2048, l (ix2 r c) * w (ix2 c k) :=
  Cert.LibContractPlain.matmulPlain_zero_apply 512 2048 1024 _ none l w r k

/-- The second product into the zero accumulator, at (r, j): the sum over the 1024 shared coordinates. -/
theorem mm2_apply (l : FVec Ideal S512x1024 .bf16) (w : FVec Ideal S1024x2048 .bf16) (r : Fin 512) (j : Fin 2048) :
    matmul dot_S512x1024_S1024x2048_S512x2048_1_0_0_1_n_n none l w (constant (F := Ideal) S512x2048 .f32 0x00000000#32) (ix2 r j)
      = ∑ k : Fin 1024, l (ix2 r k) * w (ix2 k j) :=
  Cert.LibContractPlain.matmulPlain_zero_apply 512 1024 2048 _ none l w r j

/-- The stored block at (r, j). -/
theorem pay_apply (v0 : Vec Ideal S512x2048 .f32) (v3 : Vec Ideal S2048x1024 .bf16) (v6 : Vec Ideal S1x1024 .f32)
    (v13 : Vec Ideal S1024x2048 .bf16) (v16 : Vec Ideal S1x2048 .f32) (r : Fin 512) (j : Fin 2048) :
    k0_pay1 (F := Ideal) v0 v3 v6 v13 v16 (ix2 r j)
      = max ((∑ k : Fin 1024, max ((∑ c : Fin 2048, v0 (ix2 r c) * v3 (ix2 c k)) + v6 (ix2 0 k)) 0 * v13 (ix2 k j))
          + v16 (ix2 0 j)) 0 := by
  unfold k0_pay1
  simp only [shapeCast_self, maximumf_apply, addf_apply, broadcast_apply, mm2_apply, truncf_apply, mm1_apply, rowBcast_apply,
    Ideal.ofBits_def, Ideal.ofBits_zero_f32]

end Cert.Gcn.Body

end
-- ==== Proof.KIBlocks.lean ====
/-
  The array the region leaves, as one function of the arrays it reads.

  Grid point `t` reads rows `512 t … 512 t + 511` of the node features and the whole of both weight matrices and both
  bias rows, and writes back rows `512 t … 512 t + 511` of the result; the body's value at row `r`, column `j` of a block is
  the two dense layers of that row. The 49 blocks tile the 25088 rows, so the result array ends, at every row `n` and
  column `j`, at `max (Σ_k max (Σ_c xf(n,c) · W1(c,k) + b1(k)) 0 · W2(k,j) + b2(j)) 0` of the arrays as the region found them.
-/
import proofs.«149964_j22067541967300_2_alg».proof.Proof.KIFrame
import proofs.«149964_j22067541967300_2_alg».proof.Proof.BodyPay
import Idealize.ShloMosaic.Lib.Pipeline.Value
import Idealize.ShloMosaic.Lib.ValueIdx

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-- Two dense layers with the positive part, row by row, of whole arrays. -/
def dense (xf : Vec Ideal S25088x2048 .f32) (w1 : Vec Ideal S2048x1024 .bf16) (b1 : Vec Ideal S1x1024 .f32)
    (w2 : Vec Ideal S1024x2048 .bf16) (b2 : Vec Ideal S1x2048 .f32) (n : Fin 25088) (j : Fin 2048) : EReal :=
  max ((∑ k : Fin 1024, max ((∑ c : Fin 2048, xf (ix2 n c) * w1 (ix2 c k)) + b1 (ix2 (0 : Fin 1) k)) 0 * w2 (ix2 k j))
    + b2 (ix2 (0 : Fin 1) j)) 0

/-- The same as an array. -/
def denseArr (xf : Vec Ideal S25088x2048 .f32) (w1 : Vec Ideal S2048x1024 .bf16) (b1 : Vec Ideal S1x1024 .f32)
    (w2 : Vec Ideal S1024x2048 .bf16) (b2 : Vec Ideal S1x2048 .f32) : Vec Ideal S25088x2048 .f32 :=
  fun i => dense xf w1 b1 w2 b2 ⟨(i 0).val, (i 0).isLt⟩ ⟨(i 1).val, (i 1).isLt⟩

/-- The printed index maps over the grid: the feature window and the result window sit at block row `t`, column block
    0; the four parameter windows never move. -/
theorem idx_facts : ∀ t : Fin cfg0.N,
    win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem t_lt (t : Fin cfg0.N) : t.val < 49 := lt_of_lt_of_eq t.isLt N_0

/-- The row of the whole array that row `r` of block `t` is. -/
def rowOf (t : Fin cfg0.N) (r : Fin 512) : Fin 25088 := ⟨t.val * 512 + r.val, by have := t_lt t; have := r.isLt; omega⟩

/-- The feature block at point `t`: rows `512 t + r` of the array. -/
theorem iblk0_apply (c : Dev nD) (t : Fin cfg0.N) (r : Fin 512) (k : Fin 2048) :
    iblk m c 0 t (ix2 r k) = V m c main_call0_v1 (ix2 (rowOf t r) k) := by
  show V m c main_call0_v1 (((cfg0.win 0).blk t).view.emb (ix2 r k)) = _
  refine congrArg _ ?_
  obtain ⟨e0, e1, -⟩ := idx_facts t
  funext a; apply Fin.ext
  match a with
  | ⟨0, _⟩ => show win0_0.index t (0 : Fin 2) * 512 + 1 * r.val = t.val * 512 + r.val; omega
  | ⟨1, _⟩ => show win0_0.index t (1 : Fin 2) * 2048 + 1 * k.val = k.val; omega

/-- The parameter blocks are the whole parameter arrays. -/
theorem iblk1_apply (c : Dev nD) (t : Fin cfg0.N) (a : Fin 2048) (b : Fin 1024) :
    iblk m c 1 t (ix2 a b) = V m c main_call0_v16 (ix2 a b) := by
  show V m c main_call0_v16 (((cfg0.win 1).blk t).view.emb (ix2 a b)) = _
  refine congrArg _ ?_
  obtain ⟨-, -, -, -, e0, e1, -⟩ := idx_facts t
  funext x; apply Fin.ext
  match x with
  | ⟨0, _⟩ => show win0_1.index t (0 : Fin 2) * 2048 + 1 * a.val = a.val; omega
  | ⟨1, _⟩ => show win0_1.index t (1 : Fin 2) * 1024 + 1 * b.val = b.val; omega

theorem iblk2_apply (c : Dev nD) (t : Fin cfg0.N) (a : Fin 1) (b : Fin 1024) :
    iblk m c 2 t (ix2 a b) = V m c main_call0_v18 (ix2 a b) := by
  show V m c main_call0_v18 (((cfg0.win 2).blk t).view.emb (ix2 a b)) = _
  refine congrArg _ ?_
  obtain ⟨-, -, -, -, -, -, e0, e1, -⟩ := idx_facts t
  funext x; apply Fin.ext
  match x with
  | ⟨0, _⟩ => show win0_2.index t (0 : Fin 2) * 1 + 1 * a.val = a.val; omega
  | ⟨1, _⟩ => show win0_2.index t (1 : Fin 2) * 1024 + 1 * b.val = b.val; omega

theorem iblk3_apply (c : Dev nD) (t : Fin cfg0.N) (a : Fin 1024) (b : Fin 2048) :
    iblk m c 3 t (ix2 a b) = V m c main_call0_v17 (ix2 a b) := by
  show V m c main_call0_v17 (((cfg0.win 3).blk t).view.emb (ix2 a b)) = _
  refine congrArg _ ?_
  obtain ⟨-, -, -, -, -, -, -, -, e0, e1, -⟩ := idx_facts t
  funext x; apply Fin.ext
  match x with
  | ⟨0, _⟩ => show win0_3.index t (0 : Fin 2) * 1024 + 1 * a.val = a.val; omega
  | ⟨1, _⟩ => show win0_3.index t (1 : Fin 2) * 2048 + 1 * b.val = b.val; omega

theorem iblk4_apply (c : Dev nD) (t : Fin cfg0.N) (a : Fin 1) (b : Fin 2048) :
    iblk m c 4 t (ix2 a b) = V m c main_call0_v19 (ix2 a b) := by
  show V m c main_call0_v19 (((cfg0.win 4).blk t).view.emb (ix2 a b)) = _
  refine congrArg _ ?_
  obtain ⟨-, -, -, -, -, -, -, -, -, -, e0, e1⟩ := idx_facts t
  funext x; apply Fin.ext
  match x with
  | ⟨0, _⟩ => show win0_4.index t (0 : Fin 2) * 1 + 1 * a.val = a.val; omega
  | ⟨1, _⟩ => show win0_4.index t (1 : Fin 2) * 2048 + 1 * b.val = b.val; omega

/-- The body's value at row `r`, column `q` of block `t`: the two dense layers of row `512 t + r` of the arrays. -/
theorem block_at (c : Dev nD) (t : Fin cfg0.N) (r : Fin 512) (q : Fin 2048) :
    k0_pay1 (F := Ideal) (iblk m c 0 t) (iblk m c 1 t) (iblk m c 2 t) (iblk m c 3 t) (iblk m c 4 t) (ix2 r q)
      = dense (V m c main_call0_v1) (V m c main_call0_v16) (V m c main_call0_v18) (V m c main_call0_v17) (V m c main_call0_v19)
          (rowOf t r) q := by
  refine (Cert.Gcn.Body.pay_apply (iblk m c 0 t) (iblk m c 1 t) (iblk m c 2 t) (iblk m c 3 t) (iblk m c 4 t) r q).trans ?_
  unfold dense
  simp only [iblk0_apply, iblk1_apply, iblk2_apply, iblk3_apply, iblk4_apply]

/-- Where index `(r, q)` of block `t` of the result window sits in the array. -/
theorem emb5 (t : Fin cfg0.N) (r : Fin 512) (q : Fin 2048) :
    ((cfg0.win 5).blk t).view.emb (ix2 r q) = ix2 (rowOf t r) q := by
  obtain ⟨-, -, e0, e1, -⟩ := idx_facts t
  funext a; apply Fin.ext
  match a with
  | ⟨0, _⟩ => show win0_5.index t (0 : Fin 2) * 512 + 1 * r.val = t.val * 512 + r.val; omega
  | ⟨1, _⟩ => show win0_5.index t (1 : Fin 2) * 2048 + 1 * q.val = q.val; omega

/-- What point `t` writes back is block `t` of the dense-layer array. -/
theorem flushed5_eq (c : Dev nD) (t : Fin cfg0.N) :
    (dats m 0 c).flushed 5 t = ((cfg0.win 5).blk t).view.read (Elt Ideal)
      (denseArr (V m c main_call0_v1) (V m c main_call0_v16) (V m c main_call0_v18) (V m c main_call0_v17) (V m c main_call0_v19)) := by
  show (cfg0.win 5).cut (grid0.coords t) ((dats m 0 c).after 5 t) = _
  rw [after0_5]
  unfold outBlock
  rw [View.canon_unit_zero hz]
  simp only [View.ld_unit_zero (S := S512x2048) hz, View.ld_unit_zero (S := S2048x1024) hz, View.ld_unit_zero (S := S1x1024) hz,
    View.ld_unit_zero (S := S1024x2048) hz, View.ld_unit_zero (S := S1x2048) hz]
  funext j
  obtain ⟨r, q, rfl⟩ : ∃ (r : Fin 512) (q : Fin 2048), j = ix2 r q := ⟨j 0, j 1, eq_ix2 j⟩
  show k0_pay1 (F := Ideal) (iblk m c 0 t) (iblk m c 1 t) (iblk m c 2 t) (iblk m c 3 t) (iblk m c 4 t) (ix2 r q)
    = denseArr _ _ _ _ _ (((cfg0.win 5).blk t).view.emb (ix2 r q))
  rw [emb5, block_at]
  rfl

/-- An index of the array is in block `t` iff each coordinate is in the block's range on its axis. -/
theorem mem_blk5 (t : Fin cfg0.N) (i : S25088x2048.Idx) :
    i ∈ ((cfg0.win 5).blk t).view.set ↔ ∀ a : Fin 2, win0_5.index t a * S512x2048.size a ≤ (i a).val ∧ (i a).val < win0_5.index t a * S512x2048.size a + S512x2048.size a := by
  show i ∈ ((View.whole main_call0_v20).slice (win0_5.rect t)).set ↔ _
  rw [View.set_slice_whole, Rect.mem_set_unit]
  exact Iff.rfl

/-- Every index of the array lies in some point's block: row `n` in block `n / 512`. -/
theorem cover5 (i : S25088x2048.Idx) :
    ∃ t : Fin cfg0.N, (cfg0.win 5).flush t = true ∧ i ∈ ((cfg0.win 5).blk t).view.set := by
  have hi0 : (i 0).val < 25088 := (i 0).isLt
  have hi1 : (i 1).val < 2048 := (i 1).isLt
  let t : Fin cfg0.N := ⟨(i 0).val / 512, by rw [show cfg0.N = 49 from N_0]; omega⟩
  obtain ⟨-, -, e0, e1, -⟩ := idx_facts t
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512
              have : t.val = (i 0).val / 512 := rfl
              omega
  | ⟨1, _⟩ => show win0_5.index t (1 : Fin 2) * 2048 ≤ (i 1).val ∧ (i 1).val < win0_5.index t (1 : Fin 2) * 2048 + 2048; omega

/-- The result array after the region: the dense-layer array of the arrays as the region found them. -/
theorem final5 (c : Dev nD) : (dats m 0 c).arrAt 5 cfg0.N
    = denseArr (V m c main_call0_v1) (V m c main_call0_v16) (V m c main_call0_v18) (V m c main_call0_v17) (V m c main_call0_v19) :=
  (dats m 0 c).arrAt_eq_of_cover 5 _ (fun t _ => flushed5_eq m c t) cover5

/-- The same at a row and a column. -/
theorem final5_apply (c : Dev nD) (n : Fin 25088) (j : Fin 2048) : (dats m 0 c).arrAt 5 cfg0.N (ix2 n j)
    = dense (V m c main_call0_v1) (V m c main_call0_v16) (V m c main_call0_v18) (V m c main_call0_v17) (V m c main_call0_v19) n j := by
  rw [final5]; rfl

end Cert.KernelIdeal.HandValue

end
-- ==== Proof.LibLineStep.lean ====
/-
  One step of reading a straight line of host operations: the buffer the `k`-th operation writes, as that
  operation's function of the buffers it reads, whatever the operation's number of operands.
-/
import proofs.«149964_j22067541967300_2_alg».proof.Proof.LibHostLineMore

namespace Cert.Line

open Idealize.ShloMosaic Idealize.ShloMosaic.StableHlo Cert.CubePad.Line

/-- `line_step hW V k`: rewrite what the line leaves in the `k`-th operation's result buffer into that operation's function
    of what the line leaves in its operands (`hW`: the references the line writes, in order; `V`: the starting contents). -/
macro "line_step " hW:term:max V:term:max k:num : tactic =>
  `(tactic| first
    | rw [Cert.Line.binary_at $hW $V $k _ _ _ _ _ _ _ rfl (by decide) (by decide) (by decide)]
    | rw [Cert.CubePad.Line.Writes.unary_at $hW $V $k _ _ _ _ _ rfl (by decide) (by decide)]
    | rw [Cert.Line.ternary_at $hW $V $k _ _ _ _ _ _ _ _ _ rfl (by decide) (by decide) (by decide) (by decide)]
    | rw [Cert.CubePad.Line.Writes.reshape_at $hW $V $k _ _ _ _ _ _ rfl (by decide) (by decide)]
    | rw [Cert.Line.nullary_at $hW $V $k _ _ _ rfl (by decide)])

end Cert.Line
-- ==== Proof.KITail.lean ====
/-
  What the second host line starts from, and what the result is in its terms.

  When the region ends, each array it staged holds what its blocks wrote — an input array what it held on entry, the
  result array the dense-layer array — and every other buffer what the first host line left. The program's result is the
  final reshape of the 25088 × 2048 array the second host line leaves after overwriting the first 196 rows.
-/
import proofs.«149964_j22067541967300_2_alg».proof.Proof.KIBlocks
import proofs.«149964_j22067541967300_2_alg».proof.Proof.LibLineStep

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.ShloMosaic.StableHlo
open Idealize.SL Idealize.SL.Sem
open Cert.CubePad.Line Cert.Line

variable (m : (ℓ : Loc nD τ sig) → Buf (Elt Ideal) ℓ)

/-- The buffers' contents when the second host line starts. -/
def Wt (c : Dev nD) : Valuation τ sig (Elt Ideal) :=
  Pipeline.withArrays spec0 c (V0 m c) (fun w => (dats m 0 c).arrAt w cfg0.N)

/-- The node features are as the region found them. -/
theorem Wt_v1 (c : Dev nD) : Wt m c (Proc.devRef .tc main_call0_v1) = V m c main_call0_v1 := by
  unfold Wt
  exact (Pipeline.withArrays_arr spec0 launch0.win.arr_inj c _ _ 0).trans (((dats m 0 c).arrAt_in 0 rfl _).trans (A_eq m c 0))

/-- The region's result array is the dense-layer array. -/
theorem Wt_v20 (c : Dev nD) : Wt m c (Proc.devRef .tc main_call0_v20)
    = denseArr (V m c main_call0_v1) (V m c main_call0_v16) (V m c main_call0_v18) (V m c main_call0_v17) (V m c main_call0_v19) := by
  unfold Wt
  exact (Pipeline.withArrays_arr spec0 launch0.win.arr_inj c _ _ 5).trans (final5 m c)

/-- A buffer the region does not stage is as the first host line left it. -/
theorem Wt_other (c : Dev nD) (b : Ref sig .tc) (hb : ∀ w, Pipeline.arrRef spec0 w ≠ b) :
    Wt m c (Proc.devRef .tc b) = V m c b := by
  unfold Wt
  exact Pipeline.withArrays_of_ne _ c (V0 m c) _ b hb

theorem Wt_v3 (c : Dev nD) : Wt m c (Proc.devRef .tc main_call0_v3) = V m c main_call0_v3 := Wt_other m c _ (by decide)
theorem Wt_v5 (c : Dev nD) : Wt m c (Proc.devRef .tc main_call0_v5) = V m c main_call0_v5 := Wt_other m c _ (by decide)
theorem Wt_v15 (c : Dev nD) : Wt m c (Proc.devRef .tc main_call0_v15) = V m c main_call0_v15 := Wt_other m c _ (by decide)
theorem Wt_arg2 (c : Dev nD) : Wt m c (Proc.devRef .tc main_arg2) = m ((c : Thread nD τ).loc main_arg2) :=
  (Wt_other m c _ (by decide)).trans (V_main_arg2 m c)
theorem Wt_arg3 (c : Dev nD) : Wt m c (Proc.devRef .tc main_arg3) = m ((c : Thread nD τ).loc main_arg3) :=
  (Wt_other m c _ (by decide)).trans (V_main_arg3 m c)
theorem Wt_arg4 (c : Dev nD) : Wt m c (Proc.devRef .tc main_arg4) = m ((c : Thread nD τ).loc main_arg4) :=
  (Wt_other m c _ (by decide)).trans (V_main_arg4 m c)
theorem Wt_arg5 (c : Dev nD) : Wt m c (Proc.devRef .tc main_arg5) = m ((c : Thread nD τ).loc main_arg5) :=
  (Wt_other m c _ (by decide)).trans (V_main_arg5 m c)

/-- The program's result: the final reshape of what the second host line leaves in the overwritten array. -/
theorem result_eq (c : Dev nD) :
    Pipeline.afterTail₀ cfgs (dats m) 0 (V0 m) [hostOps1] c main_v0
      = shapeCast S128x14x14x2048 (StableHlo.after hostOps1 (Wt m c) (Proc.devRef .tc main_call0_v103)) shapeCasts_S25088x2048_S128x14x14x2048 := by
  unfold Pipeline.afterTail₀
  rw [show List.flatten [(hostOps1 : List (HloOp τ sig (Elt Ideal)))] = hostOps1 from by simp only [List.flatten_cons, List.flatten_nil, List.append_nil]]
  show StableHlo.after hostOps1 (Wt m c) (Proc.devRef .tc main_v0) = _
  line_step (tailWrites (F := Ideal)) (Wt m c) 102
  rfl

end Cert.KernelIdeal.HandValue

end
-- ==== Proof.LibTypedRefCasts.lean ====
/-
  Contents seen through a typed reference.

  A typed reference pairs a buffer with a proof that the buffer's type is a given tensor type T; contents at type T are
  moved to the buffer's own type, and back, by a cast along that proof. Casts compose and a cast is heterogeneously
  the identity, so: moving to the buffer and back, or back and forth, changes nothing, whatever the reference; and a
  single move is heterogeneously the identity — hence an equation wherever the buffer's type and T coincide, as they do
  at a literal reference. Used as rewriting steps these remove the moves from a term without evaluating any cast.
-/
import Idealize.ShloMosaic.Lib.StableHlo

noncomputable section

namespace Cert.LibTypedRefCasts

open Idealize.ShloMosaic Idealize.ShloMosaic.StableHlo

variable {sig : RefSig} {T : BufTy} {Val : EltTy → Type}

/-- Contents moved to a typed reference's buffer and read back at the value's type are the contents. -/
theorem ofBuf_toBuf (x : TRef sig T) (v : T.Contents Val) : x.ofBuf (x.toBuf v) = v := by
  obtain ⟨r, h, _, _⟩ := x
  subst h
  rfl

/-- A buffer's contents read at the value's type and moved back to the buffer are the contents. -/
theorem toBuf_ofBuf (x : TRef sig T) (u : x.ref.ty.Contents Val) : x.toBuf (x.ofBuf u) = u := by
  obtain ⟨r, h, _, _⟩ := x
  subst h
  rfl

/-- Contents moved to a typed reference's buffer are, heterogeneously, the contents. -/
theorem toBuf_heq (x : TRef sig T) (v : T.Contents Val) : HEq (x.toBuf v) v := cast_heq _ _

/-- A typed reference's buffer contents read at the value's type are, heterogeneously, the contents. -/
theorem ofBuf_heq (x : TRef sig T) (u : x.ref.ty.Contents Val) : HEq (x.ofBuf u) u := cast_heq _ _

end Cert.LibTypedRefCasts

end
-- ==== Proof.LibHostRead.lean ====
/-
  Small layout operations of a host program, read at an index, generic in the sizes.

  * A vector `[a]` broadcast to a column `[a, 1]` reads the vector at the row (`bcastCol_apply`); a scalar broadcast
    to any shape reads the scalar (`bcastScalar_apply`); a vector `[b]` broadcast to a row `[1, b]` and then to
    `[a, b]` reads the vector at the column (`bcastRow_apply`).
  * Row `r` of a two-row array `[2, E]`, sliced out as `[1, E]` and reshaped to `[E]`, reads the array at `(r, e)`
    (`rowSlice_apply`).
  * The plain product of an `A × K` by a `K × B` matrix over the extended reals, read at `(i, j)`, is the sum over
    the contracted coordinate of the products of the entries: for the host's product (`plainDot_apply`) and for the
    kernel's product accumulated into a zero constant (`plainMatmul_zero_apply`).
-/
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

open scoped BigOperators

namespace Cert.LibHR

open Idealize.ShloMosaic Idealize.ShloMosaic.ValueIdx

/-! ## Broadcasts -/

/-- A vector broadcast to a one-column matrix reads the vector at the row. -/
theorem bcastCol_apply {α : Type} {a : Nat} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply _ h x (ix2 i u) (ix1 i) (fun b => match b with
    | ⟨0, _⟩ => by
      show i.val = if a = 1 then 0 else i.val
      split
      · have := i.isLt; omega
      · rfl)

/-- A scalar broadcast to any shape reads the scalar. -/
theorem bcastScalar_apply {α : Type} {t : Shape} (h : (⟨0, ![]⟩ : Shape).BroadcastsInDim t ![])
    (x : (⟨0, ![]⟩ : Shape).Idx → α) (j : t.Idx) : broadcastInDim t ![] h x j = x ix0 :=
  broadcastInDim_apply _ h x j ix0 (fun b => b.elim0)

/-- A vector broadcast to a one-row matrix and then down the rows reads the vector at the column. -/
theorem bcastRow_apply {α : Type} {a b : Nat} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (i : Fin a) (j : Fin b) :
    broadcastInDim ⟨2, ![a, b]⟩ ![0, 1] h2 (broadcastInDim ⟨2, ![1, b]⟩ ![1] h1 x) (ix2 i j) = x (ix1 j) := by
  refine (broadcastInDim_apply _ h2 _ (ix2 i j) (ix2 (0 : Fin 1) j) (fun c => match c with
    | ⟨0, _⟩ => by
      show 0 = if (1 : Nat) = 1 then 0 else i.val
      rw [if_pos rfl]
    | ⟨1, _⟩ => by
      show j.val = if b = 1 then 0 else j.val
      split
      · have := j.isLt; omega
      · rfl)).trans ?_
  exact broadcastInDim_apply _ h1 x (ix2 (0 : Fin 1) j) (ix1 j) (fun c => match c with
    | ⟨0, _⟩ => by
      show j.val = if b = 1 then 0 else j.val
      split
      · have := j.isLt; omega
      · rfl)

/-! ## One row of a two-row array -/

/-- Row `r` of a `[2, E]` array, sliced out and reshaped to `[E]`, reads the array at `(r, e)`. -/
theorem rowSlice_apply {α : Type} {E : Nat} (r : Fin 2) (x : (⟨2, ![2, E]⟩ : Shape).Idx → α)
    (hs : (⟨2, ![2, E]⟩ : Shape).Slices ![r.val, 0] ⟨2, ![1, E]⟩)
    (hc : (⟨2, ![1, E]⟩ : Shape).ShapeCasts ⟨1, ![E]⟩) (e : Fin E) :
    shapeCast ⟨1, ![E]⟩ (extractStridedSlice ⟨2, ![1, E]⟩ ![r.val, 0] x hs) hc (ix1 e) = x (ix2 r e) := by
  refine (shapeCast_apply _ hc (ix1 e) (ix2 (0 : Fin 1) e) (by
    rw [Shape.rowMajor_val_two, Shape.rowMajor_val_one]
    show 0 * E + e.val = e.val
    omega)).trans ?_
  exact extractStridedSlice_apply ![r.val, 0] x hs (ix2 (0 : Fin 1) e) (ix2 r e) (fun c => match c with
    | ⟨0, _⟩ => by show r.val = r.val + 0; omega
    | ⟨1, _⟩ => by show e.val = 0 + e.val; omega)

/-! ## A plain matrix product -/

/-- The dimension numbers of the plain product of an `A × K` by a `K × B` matrix: the left operand's columns
    contracted with the right operand's rows, no batch axes. -/
abbrev plainDotDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- They are the library's plain dimension numbers. -/
theorem plainDotDims_eq (A K B : Nat)
    (wf : DotDims.WF ⟨2, ![A, K]⟩ ⟨2, ![K, B]⟩ ⟨2, ![A, B]⟩ [1] [0] [0] [1] [] []) :
    plainDotDims A K B wf = DotDims.plain A K B := rfl

/-- THE HOST'S PLAIN PRODUCT READ AT `(i, j)`, over the extended reals: the sum over the contracted coordinate of
    the products of the entries. -/
theorem plainDot_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    Host.dotGeneral (F := Ideal) (φ₁ := φ₁) (φ₂ := φ₂) (plainDotDims A K B wf) none l r (ix2 i j)
      = ∑ k : Fin K, l (ix2 i k) * r (ix2 k j) :=
  StackMember.dotGeneral_plain_apply (φ₁ := φ₁) (φ₂ := φ₂) none l r i j

/-- THE KERNEL'S PLAIN PRODUCT INTO A ZERO ACCUMULATOR READ AT `(i, j)`, over the extended reals: the same sum. -/
theorem plainMatmul_zero_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    FloatOps.matmul (F := Ideal) (φ₁ := φ₁) (φ₂ := φ₂) (plainDotDims A K B wf) none l r
        (constant (F := Ideal) ⟨2, ![A, B]⟩ .f32 0x00000000#32) (ix2 i j)
      = ∑ k : Fin K, l (ix2 i k) * r (ix2 k j) := by
  rw [Ideal.matmul_constant_zero_apply, ← Ideal.dotGeneral_apply (plainDotDims A K B wf) none .single l r (ix2 i j)]
  exact plainDot_apply (φ₁ := φ₁) (φ₂ := φ₂) A K B wf l r i j

end Cert.LibHR

end
-- ==== Proof.LibGatherScatter.lean ====
/-
  General lemmas about StableHLO's indexed reads and writes, read at one index, and about the sums they produce.

  * A ROW GATHER (operand `[N, C]`, start indices `[R, 1]`, result `[R, C]`) and an ELEMENT GATHER (operand `[N]`,
    start indices `[R, 1]`, result `[R]`) read at an index: the operand at the start index, read signed and clamped
    into `[0, N − 1]` (`rowGather_apply`, `eltGather_apply`).
  * A ROW SCATTER-ADD (operand `[N, C]`, scatter indices `[R, 1]`, updates `[R, C]`) and an ELEMENT SCATTER-ADD
    (operand `[N]`, updates `[R]`) read at an index, over the extended reals: the operand's element plus the sum of
    the updates whose scatter index, read signed and NOT clamped, is that row (`rowScatterAdd_apply`,
    `eltScatterAdd_apply`).
  * Sums over a filtered index range that is the concatenation of two ranges, and a filter that holds at exactly one
    point (`sum_filter_split`, `sum_filter_single`).
  * A nonnegative real factor moved across an extended-real sum, with no finiteness asked of the summands
    (`coe_mul_sum`, `scale_law`).
  * The index normalisation applied before a gather (a negative index is shifted up by the extent) on an index that
    is a row number already (`clampRow_of_hit`, `clampRow_ofNat`, `toInt_ofNat_lt`).
-/
import Idealize.ShloMosaic.Lib.ValueIdx
import Idealize.ShloMosaic.Lib.Pipeline.Value
import Idealize.ShloMosaic.PureOps.Ideal.Laws

noncomputable section

open scoped BigOperators

namespace Cert.LibGS

open Idealize.ShloMosaic Idealize.ShloMosaic.ValueIdx

/-- A signed word read as a row number of an `N`-row table: its value clamped into `[0, N − 1]`. -/
def clampRow (N : Nat) (hN : 0 < N) {w : Nat} (v : BitVec w) : Fin N := ⟨min v.toInt.toNat (N - 1), by omega⟩

/-! ## A row gather -/

/-- The dimension numbers of a row gather: operand `[N, C]`, start indices `[R, 1]`, result `[R, C]`; the one
    start-index component names the row axis, which is collapsed, and the slice is one whole row. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]`, read signed and clamped, column `c`. -/
theorem rowGather_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c) = x (ix2 (clampRow N hN (idx (ix2 e 0))) c) := by
  unfold Host.gather
  congr 1
  funext a
  refine Fin.ext ?_
  match a with
  | ⟨0, _⟩ =>
    show (rowGatherDims N R C wf).start (ix2 e c) idx 0 + (rowGatherDims N R C wf).batchCoord (ix2 e c) 0
      + (rowGatherDims N R C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e c) ⟨List.idxOf (0 : Fin 2) (rowGatherDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N R C wf).start (ix2 e c) idx 1 + (rowGatherDims N R C wf).batchCoord (ix2 e c) 1
      + (rowGatherDims N R C wf).offCoord (ix2 e c) 1 = _
    rw [GatherDims.batchCoord_eq_zero _ _ _ List.not_mem_nil]
    unfold GatherDims.start
    rw [dif_neg (show (1 : Fin 2) ∉ (rowGatherDims N R C wf).startIndexMap from (by decide : (1 : Fin 2) ∉ [(0 : Fin 2)]))]
    simp only [Nat.add_zero, Nat.zero_add]
    unfold GatherDims.offCoord
    rw [dif_pos (show (1 : Fin 2) ∈ (rowGatherDims N R C wf).sKept from
      (GatherDims.mem_sKept _ _).mpr ⟨(by decide : (1 : Fin 2) ∉ [(0 : Fin 2)]), List.not_mem_nil⟩)]
    rfl

/-! ## A row scatter-add -/

/-- The dimension numbers of a row scatter: operand `[N, C]`, scatter indices `[R, 1]`, updates `[R, C]`; the one
    scatter-index component names the row axis, which is inserted, and the update window is one whole row. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Where update `(e, c')` of a row scatter lands: at `(n, c)` exactly when its scatter index, read signed, is `n`
    and `c' = c`; an index outside `[0, N)` lands nowhere. -/
theorem rowScatter_resultIdx_iff {N R C w : Nat}
    (wf : ScatterDims.WF ⟨2, ![N, C]⟩ ⟨2, ![R, 1]⟩ ⟨2, ![R, C]⟩ [1] [0] [0] 1)
    (idx : IVec ⟨2, ![R, 1]⟩ w) (e : Fin R) (c' : Fin C) (n : Fin N) (c : Fin C) :
    (rowScatterDims N R C wf).resultIdx? (ix2 e c') idx = some (ix2 n c)
      ↔ ((idx (ix2 e 0)).toInt = (n.val : Int) ∧ c' = c) := by
  have hs0 : (rowScatterDims N R C wf).start (ix2 e c') idx 0 = (idx (ix2 e 0)).toInt := by
    unfold ScatterDims.start
    rw [dif_pos (show (0 : Fin 2) ∈ (rowScatterDims N R C wf).scatterDimsToOperandDims from List.mem_singleton.mpr rfl)]
    have hsi : (rowScatterDims N R C wf).siIdx (ix2 e c')
        ⟨List.idxOf (0 : Fin 2) (rowScatterDims N R C wf).scatterDimsToOperandDims,
          List.idxOf_lt_length_iff.2 (List.mem_singleton.mpr rfl)⟩ = ix2 e 0 := by
      funext b; refine Fin.ext ?_
      match b with
      | ⟨0, _⟩ => rfl
      | ⟨1, _⟩ => rfl
    rw [hsi]
  have hs1 : (rowScatterDims N R C wf).start (ix2 e c') idx 1 = 0 := by
    unfold ScatterDims.start
    rw [dif_neg (show (1 : Fin 2) ∉ (rowScatterDims N R C wf).scatterDimsToOperandDims from
      (by decide : (1 : Fin 2) ∉ [(0 : Fin 2)]))]
  have hw0 : (rowScatterDims N R C wf).window (ix2 e c') 0 = 0 := by
    unfold ScatterDims.window
    rw [dif_neg (show (0 : Fin 2) ∉ (rowScatterDims N R C wf).sKept from by
      simp [ScatterDims.sKept, Shape.kept])]
  have hw1 : (rowScatterDims N R C wf).window (ix2 e c') 1 = c'.val := by
    unfold ScatterDims.window
    rw [dif_pos (show (1 : Fin 2) ∈ (rowScatterDims N R C wf).sKept from by
      simp [ScatterDims.sKept, Shape.kept])]
    rfl
  unfold ScatterDims.resultIdx?
  split
  · rename_i h
    rw [Option.some.injEq]
    constructor
    · intro hf
      have h0 := congrArg (fun f => (f 0).val) hf
      have h1 := congrArg (fun f => (f 1).val) hf
      have g0 := (h 0).1
      simp only [hs0, hw0] at h0 g0
      simp only [hs1, hw1] at h1
      refine ⟨?_, Fin.ext ?_⟩
      · change ((idx (ix2 e 0)).toInt + ((0 : Nat) : Int)).toNat = n.val at h0
        omega
      · change ((0 : Int) + (c'.val : Int)).toNat = c.val at h1
        omega
    · rintro ⟨hA, rfl⟩
      funext a; refine Fin.ext ?_
      match a with
      | ⟨0, _⟩ =>
        show ((rowScatterDims N R C wf).start (ix2 e c') idx 0 + ((rowScatterDims N R C wf).window (ix2 e c') 0 : Nat)).toNat = n.val
        rw [hs0, hw0, hA]; simp
      | ⟨1, _⟩ =>
        show ((rowScatterDims N R C wf).start (ix2 e c') idx 1 + ((rowScatterDims N R C wf).window (ix2 e c') 1 : Nat)).toNat = c'.val
        rw [hs1, hw1]; simp
  · rename_i h
    constructor
    · intro hf; exact absurd hf (by simp)
    · rintro ⟨hA, rfl⟩
      exfalso; apply h
      intro a
      match a with
      | ⟨0, _⟩ =>
        show 0 ≤ (rowScatterDims N R C wf).start (ix2 e c') idx 0 + ((rowScatterDims N R C wf).window (ix2 e c') 0 : Nat)
          ∧ (rowScatterDims N R C wf).start (ix2 e c') idx 0 + ((rowScatterDims N R C wf).window (ix2 e c') 0 : Nat) < (N : Int)
        rw [hs0, hw0, hA]; have := n.isLt; omega
      | ⟨1, _⟩ =>
        show 0 ≤ (rowScatterDims N R C wf).start (ix2 e c') idx 1 + ((rowScatterDims N R C wf).window (ix2 e c') 1 : Nat)
          ∧ (rowScatterDims N R C wf).start (ix2 e c') idx 1 + ((rowScatterDims N R C wf).window (ix2 e c') 1 : Nat) < (C : Int)
        rw [hs1, hw1]; have := c'.isLt; omega

/-- THE ROW SCATTER-ADD READ AT `(n, c)`, over the extended reals: the operand's element plus the sum of column `c`
    of the updates whose scatter index, read signed and not clamped, is `n`. -/
theorem rowScatterAdd_apply {φ : FTy} {N R C w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (n : Fin N) (c : Fin C) :
    Host.scatterAdd (F := Ideal) (φ := φ) (rowScatterDims N R C wf) x idx upd (ix2 n c)
      = x (ix2 n c) + ∑ e ∈ Finset.univ.filter (fun e : Fin R => (idx (ix2 e 0)).toInt = (n.val : Int)), upd (ix2 e c) := by
  show x (ix2 n c) + ∑ j ∈ Finset.univ.filter
    (fun j => (rowScatterDims N R C wf).resultIdx? j idx = some (ix2 n c)), upd j = _
  congr 1
  rw [Finset.sum_filter, sum_idx2, Finset.sum_filter]
  refine Finset.sum_congr rfl fun e _ => ?_
  simp only [rowScatter_resultIdx_iff]
  by_cases hA : (idx (ix2 e 0)).toInt = (n.val : Int)
  · simp [hA]
  · simp [hA]

/-! ## An element gather -/

/-- The dimension numbers of an element gather: operand `[N]`, start indices `[R, 1]`, result `[R]`. -/
abbrev eltGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ELEMENT GATHER READ AT `e`: the operand at `idx[e, 0]`, read signed and clamped. -/
theorem eltGather_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (eltGatherDims N R wf) x idx (ix1 e) = x (ix1 (clampRow N hN (idx (ix2 e 0)))) := by
  unfold Host.gather
  congr 1
  funext a
  obtain rfl : a = 0 := Subsingleton.elim _ _
  refine Fin.ext ?_
  show (eltGatherDims N R wf).start (ix1 e) idx 0 + (eltGatherDims N R wf).batchCoord (ix1 e) 0
    + (eltGatherDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (eltGatherDims N R wf).startIndexMap from List.mem_singleton.mpr rfl)]
  have hsi : (eltGatherDims N R wf).siIdx (ix1 e) ⟨List.idxOf (0 : Fin 1) (eltGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## An element scatter-add -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of an element scatter: operand `[N]`, scatter indices `[R, 1]`, updates `[R]`. -/
abbrev eltScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Where update `e` of an element scatter lands: at `n` exactly when its scatter index, read signed, is `n`. -/
theorem eltScatter_resultIdx_iff {N R w : Nat}
    (wf : ScatterDims.WF ⟨1, ![N]⟩ ⟨2, ![R, 1]⟩ ⟨1, ![R]⟩ [] [0] [0] 1)
    (idx : IVec ⟨2, ![R, 1]⟩ w) (e : Fin R) (n : Fin N) :
    (eltScatterDims N R wf).resultIdx? (ix1 e) idx = some (ix1 n) ↔ (idx (ix2 e 0)).toInt = (n.val : Int) := by
  have hs0 : (eltScatterDims N R wf).start (ix1 e) idx 0 = (idx (ix2 e 0)).toInt := by
    unfold ScatterDims.start
    rw [dif_pos (show (0 : Fin 1) ∈ (eltScatterDims N R wf).scatterDimsToOperandDims from List.mem_singleton.mpr rfl)]
    have hsi : (eltScatterDims N R wf).siIdx (ix1 e)
        ⟨List.idxOf (0 : Fin 1) (eltScatterDims N R wf).scatterDimsToOperandDims,
          List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (eltScatterDims N R wf).window (ix1 e) 0 = 0 := by
    unfold ScatterDims.window
    rw [dif_neg (show (0 : Fin 1) ∉ (eltScatterDims N R wf).sKept from by
      simp [ScatterDims.sKept, Shape.kept])]
  unfold ScatterDims.resultIdx?
  split
  · rename_i h
    rw [Option.some.injEq]
    constructor
    · intro hf
      have h0 := congrArg (fun f => (f 0).val) hf
      have g0 := (h 0).1
      simp only [hs0, hw0] at h0 g0
      change ((idx (ix2 e 0)).toInt + ((0 : Nat) : Int)).toNat = n.val at h0
      omega
    · intro hA
      funext a
      obtain rfl : a = 0 := Subsingleton.elim _ _
      refine Fin.ext ?_
      show ((eltScatterDims N R wf).start (ix1 e) idx 0 + ((eltScatterDims N R wf).window (ix1 e) 0 : Nat)).toNat = n.val
      rw [hs0, hw0, hA]; simp
  · rename_i h
    constructor
    · intro hf; exact absurd hf (by simp)
    · intro hA
      exfalso; apply h
      intro a
      obtain rfl : a = 0 := Subsingleton.elim _ _
      show 0 ≤ (eltScatterDims N R wf).start (ix1 e) idx 0 + ((eltScatterDims N R wf).window (ix1 e) 0 : Nat)
        ∧ (eltScatterDims N R wf).start (ix1 e) idx 0 + ((eltScatterDims N R wf).window (ix1 e) 0 : Nat) < (N : Int)
      rw [hs0, hw0, hA]; have := n.isLt; omega

/-- THE ELEMENT SCATTER-ADD READ AT `n`, over the extended reals: the operand's element plus the sum of the updates
    whose scatter index, read signed and not clamped, is `n`. -/
theorem eltScatterAdd_apply {φ : FTy} {N R w : Nat}
    (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (n : Fin N) :
    Host.scatterAdd (F := Ideal) (φ := φ) (eltScatterDims N R wf) x idx upd (ix1 n)
      = x (ix1 n) + ∑ e ∈ Finset.univ.filter (fun e : Fin R => (idx (ix2 e 0)).toInt = (n.val : Int)), upd (ix1 e) := by
  show x (ix1 n) + ∑ j ∈ Finset.univ.filter
    (fun j => (eltScatterDims N R wf).resultIdx? j idx = some (ix1 n)), upd j = _
  congr 1
  rw [Finset.sum_filter, sum_idx1, Finset.sum_filter]
  refine Finset.sum_congr rfl fun e _ => ?_
  simp only [eltScatter_resultIdx_iff]

/-! ## Sums over a concatenated range, and a filter that holds at one point -/

/-- A filtered sum over `Fin T`, `T = A + B`, is the filtered sum over the first `A` indices plus the one over the
    last `B`. -/
theorem sum_filter_split {M : Type*} [AddCommMonoid M] {A B T : Nat} (h : A + B = T) (P : Fin T → Prop)
    [DecidablePred P] (f : Fin T → M) :
    ∑ i ∈ Finset.univ.filter P, f i
      = ∑ i ∈ Finset.univ.filter (fun i : Fin A => P ⟨i.val, by omega⟩), f ⟨i.val, by omega⟩
      + ∑ i ∈ Finset.univ.filter (fun i : Fin B => P ⟨A + i.val, by omega⟩), f ⟨A + i.val, by omega⟩ := by
  subst h
  rw [Finset.sum_filter, Finset.sum_filter, Finset.sum_filter, Fin.sum_univ_add]
  rfl

/-- A filtered sum whose filter holds at exactly one point is the summand there. -/
theorem sum_filter_single {M : Type*} [AddCommMonoid M] {B : Nat} (n : Fin B) (P : Fin B → Prop) [DecidablePred P]
    (hP : ∀ i, P i ↔ i = n) (f : Fin B → M) :
    ∑ i ∈ Finset.univ.filter P, f i = f n := by
  have hs : Finset.univ.filter P = {n} := by
    ext i; simp [hP]
  rw [hs, Finset.sum_singleton]

/-! ## A nonnegative real factor across extended-real sums -/

/-- A nonnegative real factor distributes over an extended-real sum of two terms, whatever the terms. -/
theorem coe_mul_add {r : ℝ} (hr : 0 ≤ r) (y z : EReal) : (r : EReal) * (y + z) = (r : EReal) * y + (r : EReal) * z :=
  EReal.left_distrib_of_nonneg_of_ne_top (EReal.coe_nonneg.mpr hr) (EReal.coe_ne_top r) y z

/-- A nonnegative real factor distributes over a finite extended-real sum, whatever the summands. -/
theorem coe_mul_sum {ι : Type*} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih => rw [Finset.sum_insert ha, Finset.sum_insert ha, coe_mul_add hr, ih]

/-- Scaling "zero plus a sum, plus a tail" by a nonnegative real: the factor goes onto every summand and the tail. -/
theorem scale_law {ι : Type*} (s : Finset ι) (r : ℝ) (hr : 0 ≤ r) (z : EReal) (hz : z = 0) (a : ι → EReal) (t : EReal) :
    (r : EReal) * ((z + ∑ e ∈ s, a e) + t) = z + (∑ e ∈ s, a e * (r : EReal) + t * (r : EReal)) := by
  subst hz
  rw [zero_add, zero_add, coe_mul_add hr, coe_mul_sum s r hr, mul_comm (r : EReal) t]
  congr 1
  exact Finset.sum_congr rfl fun e _ => mul_comm _ _

/-! ## The index normalisation before a gather, on an index that is a row number already -/

/-- A natural below `100000` as a 32-bit word reads back, signed, as itself. -/
theorem toInt_ofNat_small (k : Nat) (hk : k < 100000) : (BitVec.ofNat 32 k).toInt = (k : Int) := by
  rw [BitVec.toInt_eq_toNat_cond, BitVec.toNat_ofNat]
  split <;> omega

/-- The normalisation "a negative index is shifted up by the extent" leaves a word whose signed value is a row
    number `n` alone, and clamping reads it as `n`. -/
theorem clampRow_of_hit (v : BitVec 32) (n : Fin 100000) (h : v.toInt = (n.val : Int)) :
    clampRow 100000 (by decide) (Scalar.select (IntOp.cmpi .slt v 0#32) (IntOp.addi v 100000#32) v) = n := by
  have hlt : v.slt 0#32 = false := by
    unfold BitVec.slt
    rw [h]
    simp
  have hc : IntOp.cmpi .slt v 0#32 = 0#1 := by
    show BitVec.ofBool (v.slt 0#32) = 0#1
    rw [hlt]; rfl
  rw [hc, select_zero]
  refine Fin.ext ?_
  show min v.toInt.toNat (100000 - 1) = n.val
  rw [h]
  have := n.isLt
  omega

/-- The same for the word of a row number. -/
theorem clampRow_ofNat (n : Fin 100000) :
    clampRow 100000 (by decide) (Scalar.select (IntOp.cmpi .slt (BitVec.ofNat 32 n.val) 0#32)
      (IntOp.addi (BitVec.ofNat 32 n.val) 100000#32) (BitVec.ofNat 32 n.val)) = n :=
  clampRow_of_hit _ n (toInt_ofNat_small n.val n.isLt)

/-- The word of a row number `i` reads, signed, as the row number `n` exactly when `i = n`. -/
theorem toInt_ofNat_lt (n i : Fin 100000) : (BitVec.ofNat 32 i.val).toInt = (n.val : Int) ↔ i = n := by
  rw [toInt_ofNat_small i.val i.isLt]
  constructor
  · intro h; exact Fin.ext (by exact_mod_cast h)
  · rintro rfl; rfl

end Cert.LibGS

end
-- ==== Proof.HeadRead.lean ====
/-
  The first line of host operations read at an index: what the region finds in the buffers that line writes.

  The line splits the edge array into its two rows (sources, destinations), counts for every node the edges arriving at
  it (a scatter-add of ones into an array of ones, so the self loop is counted) and takes the inverse square root,
  narrows the two weight matrices (the identity on extended reals), reshapes the two biases to one row each, and lays
  the node features out as a 25088 × 2048 matrix. Each buffer the line writes is one operation's function of the
  buffers written before it, so each is read by following its operations back to the arguments.
-/
import proofs.«149964_j22067541967300_2_alg».proof.Proof.KIFrame
import proofs.«149964_j22067541967300_2_alg».proof.Proof.LibLineStep
import proofs.«149964_j22067541967300_2_alg».proof.Proof.LibTypedRefCasts
import proofs.«149964_j22067541967300_2_alg».proof.Proof.LibHostRead
import proofs.«149964_j22067541967300_2_alg».proof.Proof.LibGatherScatter
import proofs.«149964_j22067541967300_2_alg».proof.Proof.SpecArgs
import Idealize.ShloMosaic.Lib.IdealHost

set_option maxRecDepth 16384

noncomputable section

namespace Cert.Gcn.Head

open Cert.KernelIdeal Cert.KernelIdeal.Gen Cert.KernelIdeal.Hand
open Idealize.ShloMosaic Idealize.ShloMosaic.ValueIdx Idealize.ShloMosaic.StableHlo Idealize.ShloMosaic.TcCoe Idealize.SL.Sem
open Cert.CubePad.Line Cert.Line
open scoped BigOperators

variable (m : (ℓ : Loc nD τ sig) → Buf (Elt Ideal) ℓ) (c : Dev nD)

/-- What the region finds in a buffer is what the first host line alone leaves there. -/
theorem V_eq (b : Ref sig .tc) :
    V m c b = StableHlo.after (hostOps0 (F := Ideal)) (fun b => m (c, b)) (Proc.devRef .tc b) := by
  show StableHlo.after (List.flatten [hostOps0]) (fun b => m (c, b)) (Proc.devRef .tc b) = _
  rw [show List.flatten [(hostOps0 : List (HloOp τ sig (Elt Ideal)))] = hostOps0 from by
    simp only [List.flatten_cons, List.flatten_nil, List.append_nil]]

/-! ## The edge array's two rows -/

/-- The sources: row 0 of the edge array. -/
theorem v3_apply (e : Fin 1404) : V m c main_call0_v3 (ix1 e) = (m ((c.tc : Thread nD τ).loc main_arg1)) (ix2 (0 : Fin 2) e) := by
  rw [V_eq]
  line_step (headWrites (F := Ideal)) _ 3
  line_step (headWrites (F := Ideal)) _ 2
  rw [(headWrites (F := Ideal)).arg _ (by decide)]
  exact Cert.LibHR.rowSlice_apply (0 : Fin 2) (m ((c.tc : Thread nD τ).loc main_arg1)) slices_S2x1404_S1x1404_0_0 shapeCasts_S1x1404_S1404 e

/-- The destinations: row 1 of the edge array. -/
theorem v5_apply (e : Fin 1404) : V m c main_call0_v5 (ix1 e) = (m ((c.tc : Thread nD τ).loc main_arg1)) (ix2 (1 : Fin 2) e) := by
  rw [V_eq]
  line_step (headWrites (F := Ideal)) _ 5
  line_step (headWrites (F := Ideal)) _ 4
  rw [(headWrites (F := Ideal)).arg _ (by decide)]
  exact Cert.LibHR.rowSlice_apply (1 : Fin 2) (m ((c.tc : Thread nD τ).loc main_arg1)) slices_S2x1404_S1x1404_1_0 shapeCasts_S1x1404_S1404 e

/-! ## The degrees -/

/-- A nonnegative index word is left as it is by the shift of negative indices up by the extent. -/
theorem fix_of_nonneg (d : BitVec 32) (h : 0 ≤ d.toInt) :
    Scalar.select (IntOp.cmpi .slt d 0#32) (IntOp.addi d 25088#32) d = d := by
  unfold Scalar.select
  rw [if_neg]
  intro h1
  have h2 : d.toInt < (0#32 : BitVec 32).toInt := IntOp.cmpi_slt.1 h1
  have h3 : (0#32 : BitVec 32).toInt = 0 := by decide
  omega

/-- The normalised destination of edge e: the destination word, shifted up by 25088 if negative. -/
theorem v11_apply (e : Fin 1404) :
    V m c main_call0_v11 (ix1 e)
      = Scalar.select (IntOp.cmpi .slt ((m ((c.tc : Thread nD τ).loc main_arg1)) (ix2 (1 : Fin 2) e)) 0#32)
          (IntOp.addi ((m ((c.tc : Thread nD τ).loc main_arg1)) (ix2 (1 : Fin 2) e)) 25088#32) ((m ((c.tc : Thread nD τ).loc main_arg1)) (ix2 (1 : Fin 2) e)) := by
  rw [← v5_apply m c e, V_eq, V_eq]
  line_step (headWrites (F := Ideal)) _ 14
  line_step (headWrites (F := Ideal)) _ 10
  line_step (headWrites (F := Ideal)) _ 9
  line_step (headWrites (F := Ideal)) _ 8
  line_step (headWrites (F := Ideal)) _ 13
  line_step (headWrites (F := Ideal)) _ 12
  line_step (headWrites (F := Ideal)) _ 11
  generalize after (hostOps0 (F := Ideal)) _ (Proc.devRef .tc main_call0_v5) = x_v5
  rfl

/-- The scatter's index column holds the normalised destinations. -/
theorem v12_apply (e : Fin 1404) (u : Fin 1) : V m c main_call0_v12 (ix2 e u) = V m c main_call0_v11 (ix1 e) := by
  rw [V_eq, V_eq]
  line_step (headWrites (F := Ideal)) _ 15
  generalize after (hostOps0 (F := Ideal)) _ (Proc.devRef .tc main_call0_v11) = x_v11
  exact Cert.LibHR.bcastCol_apply bcast_S1404_S1404x1_0 _ e u

/-- The scatter's operand is one everywhere. -/
theorem v6_apply (n : Fin 25088) : V m c main_call0_v6 (ix1 n) = (1 : EReal) := by
  rw [V_eq]
  line_step (headWrites (F := Ideal)) _ 7
  line_step (headWrites (F := Ideal)) _ 6
  exact Ideal.ofBits_one_f32

/-- The scatter's updates are one everywhere. -/
theorem v13_apply (e : Fin 1404) : V m c main_call0_v13 (ix1 e) = (1 : EReal) := by
  rw [V_eq]
  line_step (headWrites (F := Ideal)) _ 17
  line_step (headWrites (F := Ideal)) _ 16
  exact Ideal.ofBits_one_f32

/-- The inverse square root of the degrees. -/
theorem v15_step (n : Fin 25088) :
    V m c main_call0_v15 (ix1 n) = Ideal.rsqrt ((V m c main_call0_v14 : S25088.Idx → EReal) (ix1 n)) := by
  rw [V_eq, V_eq]
  line_step (headWrites (F := Ideal)) _ 19
  generalize after (hostOps0 (F := Ideal)) _ (Proc.devRef .tc main_call0_v14) = x_v14
  rfl

/-- With every endpoint among the first 196 nodes, the scatter-add of ones into ones holds the specification's degrees:
    at node n, one plus one for every edge whose destination word reads n … -/
theorem v14_deg (hE : Cert.Gcn.InGrid (m ((c.tc : Thread nD τ).loc main_arg1))) (n : Fin 25088) :
    V m c main_call0_v14 (ix1 n) = Cert.Gcn.deg (Cert.Gcn.edgesOf (m ((c.tc : Thread nD τ).loc main_arg1))) n.val := by
  have h6 := v6_apply m c n
  have h13 := v13_apply m c
  have h12 : ∀ e : Fin 1404, BitVec.toInt (V m c main_call0_v12 (ix2 e (0 : Fin 1)))
      = BitVec.toInt ((m ((c.tc : Thread nD τ).loc main_arg1)) (ix2 (1 : Fin 2) e)) := fun e => by
    rw [v12_apply, v11_apply, fix_of_nonneg _ (hE _).1]
  rw [V_eq] at h6 h13 h12 ⊢
  line_step (headWrites (F := Ideal)) _ 18
  generalize after (hostOps0 (F := Ideal)) _ (Proc.devRef .tc main_call0_v6) = x_v6 at h6 ⊢
  generalize after (hostOps0 (F := Ideal)) _ (Proc.devRef .tc main_call0_v12) = x_v12 at h12 ⊢
  generalize after (hostOps0 (F := Ideal)) _ (Proc.devRef .tc main_call0_v13) = x_v13 at h13 ⊢
  refine (Cert.LibGS.eltScatterAdd_apply (φ := .f32) (N := 25088) (R := 1404) scatter_S25088_S1404x1_S1404_n_0_0_1_wf
    x_v6 x_v12 x_v13 n).trans ?_
  rw [h6]
  unfold Cert.Gcn.deg Cert.Gcn.arriving
  congr 1
  refine Finset.sum_congr (Finset.filter_congr fun e _ => ?_) (fun e _ => h13 e)
  rw [h12 e]
  rfl

/-- … and the next array their inverse square roots. -/
theorem v15_apply (hE : Cert.Gcn.InGrid (m ((c.tc : Thread nD τ).loc main_arg1))) (n : Fin 25088) :
    V m c main_call0_v15 (ix1 n) = Cert.Gcn.dinv (Cert.Gcn.edgesOf (m ((c.tc : Thread nD τ).loc main_arg1))) n.val := by
  rw [v15_step, v14_deg m c hE]
  rfl

/-! ## The weights and biases as the region finds them -/

/-- The first weight matrix: the narrowing format change is the identity on extended reals. -/
theorem v16_eq : V m c main_call0_v16 = ((m ((c.tc : Thread nD τ).loc main_arg2)) : S2048x1024.Idx → EReal) := by
  rw [V_eq]
  line_step (headWrites (F := Ideal)) _ 20
  rw [(headWrites (F := Ideal)).arg _ (by decide)]
  rfl

/-- The second weight matrix. -/
theorem v17_eq : V m c main_call0_v17 = ((m ((c.tc : Thread nD τ).loc main_arg4)) : S1024x2048.Idx → EReal) := by
  rw [V_eq]
  line_step (headWrites (F := Ideal)) _ 21
  rw [(headWrites (F := Ideal)).arg _ (by decide)]
  rfl

/-- The first bias as one row. -/
theorem v18_apply (k : Fin 1024) : V m c main_call0_v18 (ix2 (0 : Fin 1) k) = (m ((c.tc : Thread nD τ).loc main_arg3)) (ix1 k) := by
  rw [V_eq]
  line_step (headWrites (F := Ideal)) _ 22
  rw [(headWrites (F := Ideal)).arg _ (by decide)]
  refine shapeCast_apply (s := S1024) (t := S1x1024) (m ((c.tc : Thread nD τ).loc main_arg3)) shapeCasts_S1024_S1x1024 _ _ ?_
  rw [Shape.rowMajor_val_two, Shape.rowMajor_val_one]
  all_goals (show k.val = 0 * 1024 + k.val; omega)

/-- The second bias as one row. -/
theorem v19_apply (k : Fin 2048) : V m c main_call0_v19 (ix2 (0 : Fin 1) k) = (m ((c.tc : Thread nD τ).loc main_arg5)) (ix1 k) := by
  rw [V_eq]
  line_step (headWrites (F := Ideal)) _ 23
  rw [(headWrites (F := Ideal)).arg _ (by decide)]
  refine shapeCast_apply (s := S2048) (t := S1x2048) (m ((c.tc : Thread nD τ).loc main_arg5)) shapeCasts_S2048_S1x2048 _ _ ?_
  rw [Shape.rowMajor_val_two, Shape.rowMajor_val_one]
  all_goals (show k.val = 0 * 2048 + k.val; omega)

/-! ## The node features as the region finds them -/

/-- The features, channels moved next to the batch axis and the leading three axes flattened into the node axis. -/
theorem v1_eq :
    V m c main_call0_v1
      = shapeCast S25088x2048 (transpose S128x2048x14x14 [0, 3, 1, 2] (m ((c.tc : Thread nD τ).loc main_arg0)) transposes_S128x14x14x2048_S128x2048x14x14_0_3_1_2)
          shapeCasts_S128x2048x14x14_S25088x2048 := by
  rw [V_eq]
  line_step (headWrites (F := Ideal)) _ 1
  line_step (headWrites (F := Ideal)) _ 0
  rw [(headWrites (F := Ideal)).arg _ (by decide)]
  rfl

end Cert.Gcn.Head

end
-- ==== Proof.RefAgg.lean ====
/-
  The three indexed operations of a graph-convolution layer, each read at one index and stated over abstract operands.

  * The degree: a vector of ones into which a one is added for every edge whose destination word names the node is,
    at node `n`, one plus the number of edges arriving at `n`.
  * A gather from the vector of inverse square roots of the degrees, by a word naming a node, is that node's value.
  * The neighbour sum: rows of `y` gathered by the source words, scaled by the edge's normalisation, and added into a
    zero table at the destination words give, at node `n` and feature `c`, zero plus the sum over the edges arriving
    at `n` of `y (src e) c` times the normalisation of `e`.

  The words are read as signed integers; a gather clamps a word into the row range, which changes nothing for a word
  that already names a row.
-/
import proofs.«149964_j22067541967300_2_alg».proof.Proof.SpecArgs
import proofs.«149964_j22067541967300_2_alg».proof.Proof.LibGatherScatter

noncomputable section

open scoped BigOperators

namespace Cert.Gcn.Ref

open Idealize.ShloMosaic Idealize.ShloMosaic.ValueIdx Cert.LibGS

/-- A word whose signed value `z` is a row number, clamped into the row range, is the row `z`. -/
theorem clampRow_val {N : ℕ} (hN : 0 < N) (v : BitVec 32) (z : ℤ) (h : v.toInt = z) (h0 : 0 ≤ z) (h1 : z < N) :
    (clampRow N hN v).val = z.toNat := by
  show min v.toInt.toNat (N - 1) = z.toNat
  rw [h]; omega

/-- The edges whose destination word, read signed, is `n` are the edges arriving at `n`. -/
theorem filter_dst (G : Edges) (didx : IVec ⟨2, ![1404, 1]⟩ 32)
    (hd : ∀ e, (didx (ix2 e 0)).toInt = G.dst e) (n : ℕ) :
    Finset.univ.filter (fun e : Fin 1404 => (didx (ix2 e 0)).toInt = (n : ℤ)) = arriving G n := by
  unfold arriving
  exact Finset.filter_congr (fun e _ => by rw [hd])

/-- The degree vector at node `n`. -/
theorem degree_apply (G : Edges)
    (wf : ScatterDims.WF ⟨1, ![25088]⟩ ⟨2, ![1404, 1]⟩ ⟨1, ![1404]⟩ [] [0] [0] 1)
    (ones : (⟨1, ![25088]⟩ : Shape).Idx → EReal) (h1 : ∀ i, ones i = 1)
    (didx : IVec ⟨2, ![1404, 1]⟩ 32) (hd : ∀ e, (didx (ix2 e 0)).toInt = G.dst e)
    (upd : (⟨1, ![1404]⟩ : Shape).Idx → EReal) (hu : ∀ i, upd i = 1) (n : Fin 25088) :
    Host.scatterAdd (F := Ideal) (φ := .f32) (eltScatterDims 25088 1404 wf) ones didx upd (ix1 n) = deg G n.val := by
  rw [eltScatterAdd_apply, h1, filter_dst G didx hd]
  unfold deg
  congr 1
  exact Finset.sum_congr rfl fun e _ => hu _

/-- A gather from the inverse-square-root vector by a word naming the node `z e`. -/
theorem dinv_gather (G : Edges)
    (wf : GatherDims.WF ⟨1, ![25088]⟩ ⟨2, ![1404, 1]⟩ ⟨1, ![1404]⟩ [] [0] [] [0] [] 1 ![1])
    (dv : (⟨1, ![25088]⟩ : Shape).Idx → EReal) (hdv : ∀ n : Fin 25088, dv (ix1 n) = dinv G n.val)
    (idx : IVec ⟨2, ![1404, 1]⟩ 32) (z : Fin 1404 → ℤ) (hi : ∀ e, (idx (ix2 e 0)).toInt = z e)
    (hz : ∀ e, 0 ≤ z e ∧ z e < 25088) (e : Fin 1404) :
    Host.gather (eltGatherDims 25088 1404 wf) dv idx (ix1 e) = dinv G (z e).toNat := by
  rw [eltGather_apply (by decide : 0 < 25088), hdv,
    clampRow_val (by decide) _ _ (hi e) (hz e).1 (hz e).2]

/-- The neighbour sum at node `n`, feature `c`. -/
theorem neighbours_apply {C : ℕ} (G : Edges) (hG : ∀ e, 0 ≤ G.src e ∧ G.src e < 25088)
    (wfG : GatherDims.WF ⟨2, ![25088, C]⟩ ⟨2, ![1404, 1]⟩ ⟨2, ![1404, C]⟩ [1] [0] [] [0] [] 1 ![1, C])
    (wfS : ScatterDims.WF ⟨2, ![25088, C]⟩ ⟨2, ![1404, 1]⟩ ⟨2, ![1404, C]⟩ [1] [0] [0] 1)
    (y : (⟨2, ![25088, C]⟩ : Shape).Idx → EReal)
    (sidx didx : IVec ⟨2, ![1404, 1]⟩ 32)
    (hs : ∀ e, (sidx (ix2 e 0)).toInt = G.src e) (hd : ∀ e, (didx (ix2 e 0)).toInt = G.dst e)
    (nrm : (⟨2, ![1404, C]⟩ : Shape).Idx → EReal)
    (hn : ∀ e c, nrm (ix2 e c) = dinv G (G.src e).toNat * dinv G (G.dst e).toNat)
    (z : (⟨2, ![25088, C]⟩ : Shape).Idx → EReal) (hz : ∀ i, z i = 0)
    (n : Fin 25088) (c : Fin C) :
    Host.scatterAdd (F := Ideal) (φ := .f32) (rowScatterDims 25088 1404 C wfS) z didx
        (fun i => Host.gather (rowGatherDims 25088 1404 C wfG) y sidx i * nrm i) (ix2 n c)
      = 0 + ∑ e ∈ arriving G n.val,
          rowsOf y (G.src e).toNat c * (dinv G (G.src e).toNat * dinv G (G.dst e).toNat) := by
  rw [rowScatterAdd_apply, hz, filter_dst G didx hd]
  congr 1
  refine Finset.sum_congr rfl fun e _ => ?_
  show Host.gather _ y sidx (ix2 e c) * nrm (ix2 e c) = _
  rw [rowGather_apply (by decide : 0 < 25088), hn]
  congr 1
  rw [← clampRow_val (by decide : 0 < 25088) _ _ (hs e) (hG e).1 (hG e).2, rowsOf_lt]

end Cert.Gcn.Ref

end
-- ==== Proof.RefWords.lean ====
/-
  The index words the reference's gathers and scatters read. Row 0 of the index array holds the source words and
  row 1 the destination words. Before a gather the program shifts a negative word up by the number of rows; a word
  that is nonnegative (as every word is under the precondition) is left as it is. So each of the index columns the
  indexed operations read holds, at edge `e`, the source or the destination word of `e` itself.
-/
import proofs.«149964_j22067541967300_2_alg».proof.Proof.ReadP
import proofs.«149964_j22067541967300_2_alg».proof.Proof.SpecArgs

noncomputable section

namespace Cert.Gcn.Ref

open Cert.ReferenceIdeal Cert.ReferenceIdeal.ReadP Idealize.ShloMosaic Idealize.ShloMosaic.ValueIdx

/-- The word of the float one. -/
theorem one_f32 : Ideal.ofBits .f32 0x3F800000#32 = 1 := by
  simp [Ideal.ofBits, Ideal.ieee, -EReal.coe_mul]; norm_num

/-- Shifting a negative word up by 25088 leaves a nonnegative word alone. -/
theorem fixup_eq (v : BitVec 32) (h : 0 ≤ v.toInt) :
    Scalar.select (IntOp.cmpi .slt v 0#32) (IntOp.addi v 25088#32) v = v := by
  have hlt : v.slt 0#32 = false := by
    unfold BitVec.slt
    simpa using h
  have hc : IntOp.cmpi .slt v 0#32 = 0#1 := by
    show BitVec.ofBool (v.slt 0#32) = 0#1
    rw [hlt]; rfl
  rw [hc, select_zero]

/-- The index of a column `[1404, 1]` at `(e, 0)` read back in the vector `[1404]` it was broadcast from. -/
theorem bcast_idx (f : S1404x1.Idx → S1404.Idx) (hf : ∀ i, (f i 0).val = (i 0).val) (e : Fin 1404) :
    f (ix2 e 0) = ix1 e := by
  funext a
  match a with
  | ⟨0, _⟩ => exact Fin.ext (hf _)

/-- The source word of edge `e`. -/
theorem src_word (E : (⟨S2x1404, .i32⟩ : BufTy).Contents (Elt Ideal)) (e : Fin 1404) :
    val_main_v3 (F := Ideal) E (ix1 e) = E (ix2 0 e) := by
  rw [val_main_v3_apply, val_main_v2_apply]
  congr 1
  funext a
  refine Fin.ext ?_
  match a with
  | ⟨0, _⟩ => rfl
  | ⟨1, _⟩ => exact Nat.mod_eq_of_lt e.isLt

/-- The destination word of edge `e`. -/
theorem dst_word (E : (⟨S2x1404, .i32⟩ : BufTy).Contents (Elt Ideal)) (e : Fin 1404) :
    val_main_v5 (F := Ideal) E (ix1 e) = E (ix2 1 e) := by
  rw [val_main_v5_apply, val_main_v4_apply]
  congr 1
  funext a
  refine Fin.ext ?_
  match a with
  | ⟨0, _⟩ => rfl
  | ⟨1, _⟩ => exact Nat.mod_eq_of_lt e.isLt

/-! The destination columns (the degree scatter's, and the two gathers' of the normalisation). -/

theorem w12 (E : (⟨S2x1404, .i32⟩ : BufTy).Contents (Elt Ideal)) (hE : InGrid E) (e : Fin 1404) :
    val_main_v12 (F := Ideal) E (ix2 e 0) = E (ix2 1 e) := by
  rw [val_main_v12_apply, bcast_idx idx_main_v12 (fun _ => rfl), val_main_v11_apply, val_main_v8_apply,
    val_main_v10_apply, val_main_v7_apply, val_main_v9_apply, val_main_c_apply, val_main_c_0_apply,
    dst_word]
  exact fixup_eq _ (hE _).1

theorem w29 (E : (⟨S2x1404, .i32⟩ : BufTy).Contents (Elt Ideal)) (hE : InGrid E) (e : Fin 1404) :
    val_main_v29 (F := Ideal) E (ix2 e 0) = E (ix2 1 e) := by
  rw [val_main_v29_apply, bcast_idx idx_main_v29 (fun _ => rfl), val_main_v28_apply, val_main_v25_apply,
    val_main_v27_apply, val_main_v24_apply, val_main_v26_apply, val_main_c_4_apply, val_main_c_5_apply,
    dst_word]
  exact fixup_eq _ (hE _).1

theorem w67 (E : (⟨S2x1404, .i32⟩ : BufTy).Contents (Elt Ideal)) (hE : InGrid E) (e : Fin 1404) :
    val_main_v67 (F := Ideal) E (ix2 e 0) = E (ix2 1 e) := by
  rw [val_main_v67_apply, bcast_idx idx_main_v67 (fun _ => rfl), val_main_v66_apply, val_main_v63_apply,
    val_main_v65_apply, val_main_v62_apply, val_main_v64_apply, val_main_c_11_apply, val_main_c_12_apply,
    dst_word]
  exact fixup_eq _ (hE _).1

/-! The source columns (the normalisation's and the feature rows' gathers, in both layers). -/

theorem w22 (E : (⟨S2x1404, .i32⟩ : BufTy).Contents (Elt Ideal)) (hE : InGrid E) (e : Fin 1404) :
    val_main_v22 (F := Ideal) E (ix2 e 0) = E (ix2 0 e) := by
  rw [val_main_v22_apply, bcast_idx idx_main_v22 (fun _ => rfl), val_main_v21_apply, val_main_v18_apply,
    val_main_v20_apply, val_main_v17_apply, val_main_v19_apply, val_main_c_2_apply, val_main_c_3_apply,
    src_word]
  exact fixup_eq _ (hE _).1

theorem w38 (E : (⟨S2x1404, .i32⟩ : BufTy).Contents (Elt Ideal)) (hE : InGrid E) (e : Fin 1404) :
    val_main_v38 (F := Ideal) E (ix2 e 0) = E (ix2 0 e) := by
  rw [val_main_v38_apply, bcast_idx idx_main_v38 (fun _ => rfl), val_main_v37_apply, val_main_v34_apply,
    val_main_v36_apply, val_main_v33_apply, val_main_v35_apply, val_main_c_6_apply, val_main_c_7_apply,
    src_word]
  exact fixup_eq _ (hE _).1

theorem w60 (E : (⟨S2x1404, .i32⟩ : BufTy).Contents (Elt Ideal)) (hE : InGrid E) (e : Fin 1404) :
    val_main_v60 (F := Ideal) E (ix2 e 0) = E (ix2 0 e) := by
  rw [val_main_v60_apply, bcast_idx idx_main_v60 (fun _ => rfl), val_main_v59_apply, val_main_v56_apply,
    val_main_v58_apply, val_main_v55_apply, val_main_v57_apply, val_main_c_9_apply, val_main_c_10_apply,
    src_word]
  exact fixup_eq _ (hE _).1

theorem w76 (E : (⟨S2x1404, .i32⟩ : BufTy).Contents (Elt Ideal)) (hE : InGrid E) (e : Fin 1404) :
    val_main_v76 (F := Ideal) E (ix2 e 0) = E (ix2 0 e) := by
  rw [val_main_v76_apply, bcast_idx idx_main_v76 (fun _ => rfl), val_main_v75_apply, val_main_v72_apply,
    val_main_v74_apply, val_main_v71_apply, val_main_v73_apply, val_main_c_13_apply, val_main_c_14_apply,
    src_word]
  exact fixup_eq _ (hE _).1

/-! The destination columns of the two neighbour sums: the destination words as they are. -/

theorem w43 (E : (⟨S2x1404, .i32⟩ : BufTy).Contents (Elt Ideal)) (e : Fin 1404) :
    val_main_v43 (F := Ideal) E (ix2 e 0) = E (ix2 1 e) := by
  rw [val_main_v43_apply, bcast_idx idx_main_v43 (fun _ => rfl), dst_word]

theorem w81 (E : (⟨S2x1404, .i32⟩ : BufTy).Contents (Elt Ideal)) (e : Fin 1404) :
    val_main_v81 (F := Ideal) E (ix2 e 0) = E (ix2 1 e) := by
  rw [val_main_v81_apply, bcast_idx idx_main_v81 (fun _ => rfl), dst_word]

end Cert.Gcn.Ref

end
-- ==== Proof.RefDeg.lean ====
/-
  The degrees and the normalisation of the reference. Its degree vector (ones, plus a one added at every destination
  word) is, at node `n`, one plus the number of edges arriving at `n`; its inverse square root is `dinv`; the four
  gathers from it by the source and destination words are `dinv` at the edge's endpoints; the two normalisation
  tables hold, in every column of row `e`, `dinv (src e) · dinv (dst e)`; the two self-loop tables hold, in every column
  of row `n`, `dinv n · dinv n`; the two bias tables hold the bias vector in every row; the four zero tables hold zero.
-/
import proofs.«149964_j22067541967300_2_alg».proof.Proof.ReadP
import proofs.«149964_j22067541967300_2_alg».proof.Proof.RefAgg
import proofs.«149964_j22067541967300_2_alg».proof.Proof.RefWords

noncomputable section

namespace Cert.Gcn.Ref

open Cert.ReferenceIdeal Cert.ReferenceIdeal.Gen Cert.ReferenceIdeal.ReadP Idealize.ShloMosaic Idealize.ShloMosaic.ValueIdx

/-- A rank-1 index with coordinate `a`. -/
theorem idx1_eq {m : ℕ} (j : (⟨1, ![m]⟩ : Shape).Idx) (a : Fin m) (h : (j 0).val = a.val) : j = ix1 a := by
  funext d
  match d with
  | ⟨0, _⟩ => exact Fin.ext h

/-- A rank-2 index with coordinates `a`, `b`. -/
theorem idx2_eq {p q : ℕ} (j : (⟨2, ![p, q]⟩ : Shape).Idx) (a : Fin p) (b : Fin q) (h0 : (j 0).val = a.val)
    (h1 : (j 1).val = b.val) : j = ix2 a b := by
  funext d
  match d with
  | ⟨0, _⟩ => exact Fin.ext h0
  | ⟨1, _⟩ => exact Fin.ext h1

/-- Under the precondition every source is a row of the tables. -/
theorem src_rows (E : (⟨S2x1404, .i32⟩ : BufTy).Contents (Elt Ideal)) (hE : InGrid E) (e : Fin 1404) :
    0 ≤ (edgesOf E).src e ∧ (edgesOf E).src e < 25088 :=
  ⟨(hE (ix2 0 e)).1, lt_trans (hE (ix2 0 e)).2 (by norm_num)⟩

/-- Under the precondition every destination is a row of the tables. -/
theorem dst_rows (E : (⟨S2x1404, .i32⟩ : BufTy).Contents (Elt Ideal)) (hE : InGrid E) (e : Fin 1404) :
    0 ≤ (edgesOf E).dst e ∧ (edgesOf E).dst e < 25088 :=
  ⟨(hE (ix2 1 e)).1, lt_trans (hE (ix2 1 e)).2 (by norm_num)⟩

/-- The degree vector at node `n`. -/
theorem deg_at (E : (⟨S2x1404, .i32⟩ : BufTy).Contents (Elt Ideal)) (hE : InGrid E) (n : Fin 25088) :
    val_main_v14 (F := Ideal) E (ix1 n) = deg (edgesOf E) n.val :=
  degree_apply (edgesOf E) scatter_S25088_S1404x1_S1404_n_0_0_1_wf (val_main_v6 (F := Ideal))
    (fun i => by rw [val_main_v6_apply, val_main_cst_apply]; exact one_f32)
    (val_main_v12 (F := Ideal) E) (fun e => by rw [w12 E hE]; rfl)
    (val_main_v13 (F := Ideal)) (fun i => by rw [val_main_v13_apply, val_main_cst_1_apply]; exact one_f32) n

/-- The inverse square root of the degree at node `n`. -/
theorem dinv_at (E : (⟨S2x1404, .i32⟩ : BufTy).Contents (Elt Ideal)) (hE : InGrid E) (n : Fin 25088) :
    val_main_v15 (F := Ideal) E (ix1 n) = dinv (edgesOf E) n.val := by
  rw [val_main_v15_apply, deg_at E hE]
  rfl

theorem g23 (E : (⟨S2x1404, .i32⟩ : BufTy).Contents (Elt Ideal)) (hE : InGrid E) (e : Fin 1404) :
    val_main_v23 (F := Ideal) E (ix1 e) = dinv (edgesOf E) ((edgesOf E).src e).toNat :=
  dinv_gather (edgesOf E) gather_S25088_S1404x1_S1404_n_0_n_n_0_1_1_wf (val_main_v15 (F := Ideal) E) (dinv_at E hE)
    (val_main_v22 (F := Ideal) E) (edgesOf E).src (fun e => by rw [w22 E hE]; rfl) (src_rows E hE) e

theorem g30 (E : (⟨S2x1404, .i32⟩ : BufTy).Contents (Elt Ideal)) (hE : InGrid E) (e : Fin 1404) :
    val_main_v30 (F := Ideal) E (ix1 e) = dinv (edgesOf E) ((edgesOf E).dst e).toNat :=
  dinv_gather (edgesOf E) gather_S25088_S1404x1_S1404_n_0_n_n_0_1_1_wf (val_main_v15 (F := Ideal) E) (dinv_at E hE)
    (val_main_v29 (F := Ideal) E) (edgesOf E).dst (fun e => by rw [w29 E hE]; rfl) (dst_rows E hE) e

theorem g61 (E : (⟨S2x1404, .i32⟩ : BufTy).Contents (Elt Ideal)) (hE : InGrid E) (e : Fin 1404) :
    val_main_v61 (F := Ideal) E (ix1 e) = dinv (edgesOf E) ((edgesOf E).src e).toNat :=
  dinv_gather (edgesOf E) gather_S25088_S1404x1_S1404_n_0_n_n_0_1_1_wf (val_main_v15 (F := Ideal) E) (dinv_at E hE)
    (val_main_v60 (F := Ideal) E) (edgesOf E).src (fun e => by rw [w60 E hE]; rfl) (src_rows E hE) e

theorem g68 (E : (⟨S2x1404, .i32⟩ : BufTy).Contents (Elt Ideal)) (hE : InGrid E) (e : Fin 1404) :
    val_main_v68 (F := Ideal) E (ix1 e) = dinv (edgesOf E) ((edgesOf E).dst e).toNat :=
  dinv_gather (edgesOf E) gather_S25088_S1404x1_S1404_n_0_n_n_0_1_1_wf (val_main_v15 (F := Ideal) E) (dinv_at E hE)
    (val_main_v67 (F := Ideal) E) (edgesOf E).dst (fun e => by rw [w67 E hE]; rfl) (dst_rows E hE) e

/-- The first layer's normalisation table. -/
theorem norm1 (E : (⟨S2x1404, .i32⟩ : BufTy).Contents (Elt Ideal)) (hE : InGrid E) (e : Fin 1404) (c : Fin 1024) :
    val_main_v40 (F := Ideal) E (ix2 e c)
      = dinv (edgesOf E) ((edgesOf E).src e).toNat * dinv (edgesOf E) ((edgesOf E).dst e).toNat := by
  rw [val_main_v40_apply, val_main_v32_apply, idx1_eq (idx_main_v32 (idx_main_v40 (ix2 e c))) e rfl,
    val_main_v31_apply, g23 E hE, g30 E hE]
  rfl

/-- The second layer's normalisation table. -/
theorem norm2 (E : (⟨S2x1404, .i32⟩ : BufTy).Contents (Elt Ideal)) (hE : InGrid E) (e : Fin 1404) (c : Fin 2048) :
    val_main_v78 (F := Ideal) E (ix2 e c)
      = dinv (edgesOf E) ((edgesOf E).src e).toNat * dinv (edgesOf E) ((edgesOf E).dst e).toNat := by
  rw [val_main_v78_apply, val_main_v70_apply, idx1_eq (idx_main_v70 (idx_main_v78 (ix2 e c))) e rfl,
    val_main_v69_apply, g61 E hE, g68 E hE]
  rfl

/-- The first layer's self-loop table. -/
theorem self1 (E : (⟨S2x1404, .i32⟩ : BufTy).Contents (Elt Ideal)) (hE : InGrid E) (n : Fin 25088) (c : Fin 1024) :
    val_main_v47 (F := Ideal) E (ix2 n c) = dinv (edgesOf E) n.val * dinv (edgesOf E) n.val := by
  rw [val_main_v47_apply, val_main_v46_apply, idx1_eq (idx_main_v46 (idx_main_v47 (ix2 n c))) n rfl,
    val_main_v45_apply, dinv_at E hE]
  rfl

/-- The second layer's self-loop table. -/
theorem self2 (E : (⟨S2x1404, .i32⟩ : BufTy).Contents (Elt Ideal)) (hE : InGrid E) (n : Fin 25088) (c : Fin 2048) :
    val_main_v85 (F := Ideal) E (ix2 n c) = dinv (edgesOf E) n.val * dinv (edgesOf E) n.val := by
  rw [val_main_v85_apply, val_main_v84_apply, idx1_eq (idx_main_v84 (idx_main_v85 (ix2 n c))) n rfl,
    val_main_v83_apply, dinv_at E hE]
  rfl

/-- The first layer's bias table. -/
theorem bias1 (b : (⟨S1024, .f32⟩ : BufTy).Contents (Elt Ideal)) (n : Fin 25088) (c : Fin 1024) :
    val_main_v51 (F := Ideal) b (ix2 n c) = vecOf b c := by
  rw [val_main_v51_apply, val_main_v50_apply, idx1_eq (idx_main_v50 (idx_main_v51 (ix2 n c))) c rfl]
  rfl

/-- The second layer's bias table. -/
theorem bias2 (b : (⟨S2048, .f32⟩ : BufTy).Contents (Elt Ideal)) (n : Fin 25088) (c : Fin 2048) :
    val_main_v89 (F := Ideal) b (ix2 n c) = vecOf b c := by
  rw [val_main_v89_apply, val_main_v88_apply, idx1_eq (idx_main_v88 (idx_main_v89 (ix2 n c))) c rfl]
  rfl

/-- The zero tables. -/
theorem zero42 (i : S25088x1024.Idx) : val_main_v42 (F := Ideal) i = 0 := by
  rw [val_main_v42_apply, val_main_cst_8_apply]; exact Ideal.ofBits_zero_f32
theorem zero80 (i : S25088x2048.Idx) : val_main_v80 (F := Ideal) i = 0 := by
  rw [val_main_v80_apply, val_main_cst_15_apply]; exact Ideal.ofBits_zero_f32
theorem zeroRelu1 (i : S25088x1024.Idx) : val_main_call0_v0 (F := Ideal) i = 0 := by
  rw [val_main_call0_v0_apply, val_main_call0_cst_apply]; exact Ideal.ofBits_zero_f32
theorem zeroRelu2 (i : S25088x2048.Idx) : val_main_call1_v0 (F := Ideal) i = 0 := by
  rw [val_main_call1_v0_apply, val_main_call1_cst_apply]; exact Ideal.ofBits_zero_f32

end Cert.Gcn.Ref

end
-- ==== Proof.RefLayer1.lean ====
/-
  The first layer of the reference read at a node and a feature. Its matrix product is the layer's linear map of the
  rows of its input; its scatter-add of the gathered, normalised rows is the sum over the arriving edges; adding the
  self-loop term and the bias and taking the positive part gives the layer of the specification.
-/
import proofs.«149964_j22067541967300_2_alg».proof.Proof.ReadP
import proofs.«149964_j22067541967300_2_alg».proof.Proof.RefAgg
import proofs.«149964_j22067541967300_2_alg».proof.Proof.RefWords
import proofs.«149964_j22067541967300_2_alg».proof.Proof.RefDeg

noncomputable section

open scoped BigOperators

namespace Cert.Gcn.Ref

open Cert.ReferenceIdeal Cert.ReferenceIdeal.Gen Cert.ReferenceIdeal.ReadP Idealize.ShloMosaic Idealize.ShloMosaic.ValueIdx

/-- The first matrix product at `(n, j)`: row `n` of the input times column `j` of the weights. -/
theorem lin1 (X : (⟨S128x14x14x2048, .f32⟩ : BufTy).Contents (Elt Ideal)) (W1 : (⟨S2048x1024, .f32⟩ : BufTy).Contents (Elt Ideal)) (n : Fin 25088) (j : Fin 1024) :
    val_main_v16 (F := Ideal) X W1 (ix2 n j) = lin (rowsOf (val_main_v1 (F := Ideal) X)) (matOf W1) n.val j := by
  rw [val_main_v16_apply]
  unfold lin
  refine Finset.sum_congr rfl fun k _ => ?_
  rw [rowsOf_lt, idx2_eq (lidx_main_v16 (ix2 n j) k) n k rfl rfl, idx2_eq (ridx_main_v16 (ix2 n j) k) k j rfl rfl]
  rfl

/-- The same at a row given as a natural below the number of rows. -/
theorem lin1_rows (X : (⟨S128x14x14x2048, .f32⟩ : BufTy).Contents (Elt Ideal)) (W1 : (⟨S2048x1024, .f32⟩ : BufTy).Contents (Elt Ideal)) (m : ℕ) (hm : m < 25088) (j : Fin 1024) :
    rowsOf (val_main_v16 (F := Ideal) X W1) m j = lin (rowsOf (val_main_v1 (F := Ideal) X)) (matOf W1) m j :=
  (rowsOf_lt (val_main_v16 (F := Ideal) X W1) ⟨m, hm⟩ j).trans (lin1 X W1 ⟨m, hm⟩ j)

/-- The first neighbour sum at `(n, j)`. -/
theorem agg1 (X : (⟨S128x14x14x2048, .f32⟩ : BufTy).Contents (Elt Ideal)) (E : (⟨S2x1404, .i32⟩ : BufTy).Contents (Elt Ideal)) (W1 : (⟨S2048x1024, .f32⟩ : BufTy).Contents (Elt Ideal)) (hE : InGrid E) (n : Fin 25088) (j : Fin 1024) :
    val_main_v44 (F := Ideal) X E W1 (ix2 n j)
      = 0 + ∑ e ∈ arriving (edgesOf E) n.val,
          rowsOf (val_main_v16 (F := Ideal) X W1) ((edgesOf E).src e).toNat j
            * (dinv (edgesOf E) ((edgesOf E).src e).toNat * dinv (edgesOf E) ((edgesOf E).dst e).toNat) :=
  neighbours_apply (edgesOf E) (src_rows E hE) gather_S25088x1024_S1404x1_S1404x1024_1_0_n_n_0_1_11024_wf scatter_S25088x1024_S1404x1_S1404x1024_1_0_0_1_wf
    (val_main_v16 (F := Ideal) X W1) (val_main_v38 (F := Ideal) E) (val_main_v43 (F := Ideal) E)
    (fun e => by rw [w38 E hE]; rfl) (fun e => by rw [w43 E]; rfl)
    (val_main_v40 (F := Ideal) E) (norm1 E hE) (val_main_v42 (F := Ideal)) zero42 n j

/-- The first layer at `(n, j)`. -/
theorem layer1_apply (X : (⟨S128x14x14x2048, .f32⟩ : BufTy).Contents (Elt Ideal)) (E : (⟨S2x1404, .i32⟩ : BufTy).Contents (Elt Ideal)) (W1 : (⟨S2048x1024, .f32⟩ : BufTy).Contents (Elt Ideal)) (b1 : (⟨S1024, .f32⟩ : BufTy).Contents (Elt Ideal)) (hE : InGrid E) (n : Fin 25088) (j : Fin 1024) :
    val_main_v53 (F := Ideal) X E W1 b1 (ix2 n j)
      = layer (edgesOf E) (rowsOf (val_main_v1 (F := Ideal) X)) (matOf W1) (vecOf b1) n.val j := by
  rw [val_main_v53_apply, val_main_v52_apply, val_main_v49_apply, val_main_v48_apply, agg1 X E W1 hE n j,
    self1 E hE n j, bias1 b1 n j, zeroRelu1 (ix2 n j), lin1 X W1 n j]
  have hsum : ∑ e ∈ arriving (edgesOf E) n.val,
        rowsOf (val_main_v16 (F := Ideal) X W1) ((edgesOf E).src e).toNat j
          * (dinv (edgesOf E) ((edgesOf E).src e).toNat * dinv (edgesOf E) ((edgesOf E).dst e).toNat)
      = ∑ e ∈ arriving (edgesOf E) n.val,
        lin (rowsOf (val_main_v1 (F := Ideal) X)) (matOf W1) ((edgesOf E).src e).toNat j
          * (dinv (edgesOf E) ((edgesOf E).src e).toNat * dinv (edgesOf E) ((edgesOf E).dst e).toNat) :=
    Finset.sum_congr rfl fun e _ => by
      rw [lin1_rows X W1 _ (by have := (src_rows E hE e); omega) j]
  rw [hsum]
  rfl

end Cert.Gcn.Ref

end
-- ==== Proof.RefLayer2.lean ====
/-
  The second layer of the reference read at a node and a feature. Its matrix product is the layer's linear map of the
  rows of its input; its scatter-add of the gathered, normalised rows is the sum over the arriving edges; adding the
  self-loop term and the bias and taking the positive part gives the layer of the specification.
-/
import proofs.«149964_j22067541967300_2_alg».proof.Proof.ReadP
import proofs.«149964_j22067541967300_2_alg».proof.Proof.RefAgg
import proofs.«149964_j22067541967300_2_alg».proof.Proof.RefWords
import proofs.«149964_j22067541967300_2_alg».proof.Proof.RefDeg

noncomputable section

open scoped BigOperators

namespace Cert.Gcn.Ref

open Cert.ReferenceIdeal Cert.ReferenceIdeal.Gen Cert.ReferenceIdeal.ReadP Idealize.ShloMosaic Idealize.ShloMosaic.ValueIdx

/-- The second matrix product at `(n, j)`: row `n` of the input times column `j` of the weights. -/
theorem lin2 (X : (⟨S128x14x14x2048, .f32⟩ : BufTy).Contents (Elt Ideal)) (E : (⟨S2x1404, .i32⟩ : BufTy).Contents (Elt Ideal)) (W1 : (⟨S2048x1024, .f32⟩ : BufTy).Contents (Elt Ideal)) (b1 : (⟨S1024, .f32⟩ : BufTy).Contents (Elt Ideal)) (W2 : (⟨S1024x2048, .f32⟩ : BufTy).Contents (Elt Ideal)) (n : Fin 25088) (j : Fin 2048) :
    val_main_v54 (F := Ideal) X E W1 b1 W2 (ix2 n j) = lin (rowsOf (val_main_v53 (F := Ideal) X E W1 b1)) (matOf W2) n.val j := by
  rw [val_main_v54_apply]
  unfold lin
  refine Finset.sum_congr rfl fun k _ => ?_
  rw [rowsOf_lt, idx2_eq (lidx_main_v54 (ix2 n j) k) n k rfl rfl, idx2_eq (ridx_main_v54 (ix2 n j) k) k j rfl rfl]
  rfl

/-- The same at a row given as a natural below the number of rows. -/
theorem lin2_rows (X : (⟨S128x14x14x2048, .f32⟩ : BufTy).Contents (Elt Ideal)) (E : (⟨S2x1404, .i32⟩ : BufTy).Contents (Elt Ideal)) (W1 : (⟨S2048x1024, .f32⟩ : BufTy).Contents (Elt Ideal)) (b1 : (⟨S1024, .f32⟩ : BufTy).Contents (Elt Ideal)) (W2 : (⟨S1024x2048, .f32⟩ : BufTy).Contents (Elt Ideal)) (m : ℕ) (hm : m < 25088) (j : Fin 2048) :
    rowsOf (val_main_v54 (F := Ideal) X E W1 b1 W2) m j = lin (rowsOf (val_main_v53 (F := Ideal) X E W1 b1)) (matOf W2) m j :=
  (rowsOf_lt (val_main_v54 (F := Ideal) X E W1 b1 W2) ⟨m, hm⟩ j).trans (lin2 X E W1 b1 W2 ⟨m, hm⟩ j)

/-- The second neighbour sum at `(n, j)`. -/
theorem agg2 (X : (⟨S128x14x14x2048, .f32⟩ : BufTy).Contents (Elt Ideal)) (E : (⟨S2x1404, .i32⟩ : BufTy).Contents (Elt Ideal)) (W1 : (⟨S2048x1024, .f32⟩ : BufTy).Contents (Elt Ideal)) (b1 : (⟨S1024, .f32⟩ : BufTy).Contents (Elt Ideal)) (W2 : (⟨S1024x2048, .f32⟩ : BufTy).Contents (Elt Ideal)) (hE : InGrid E) (n : Fin 25088) (j : Fin 2048) :
    val_main_v82 (F := Ideal) X E W1 b1 W2 (ix2 n j)
      = 0 + ∑ e ∈ arriving (edgesOf E) n.val,
          rowsOf (val_main_v54 (F := Ideal) X E W1 b1 W2) ((edgesOf E).src e).toNat j
            * (dinv (edgesOf E) ((edgesOf E).src e).toNat * dinv (edgesOf E) ((edgesOf E).dst e).toNat) :=
  neighbours_apply (edgesOf E) (src_rows E hE) gather_S25088x2048_S1404x1_S1404x2048_1_0_n_n_0_1_12048_wf scatter_S25088x2048_S1404x1_S1404x2048_1_0_0_1_wf
    (val_main_v54 (F := Ideal) X E W1 b1 W2) (val_main_v76 (F := Ideal) E) (val_main_v81 (F := Ideal) E)
    (fun e => by rw [w76 E hE]; rfl) (fun e => by rw [w81 E]; rfl)
    (val_main_v78 (F := Ideal) E) (norm2 E hE) (val_main_v80 (F := Ideal)) zero80 n j

/-- The second layer at `(n, j)`. -/
theorem layer2_apply (X : (⟨S128x14x14x2048, .f32⟩ : BufTy).Contents (Elt Ideal)) (E : (⟨S2x1404, .i32⟩ : BufTy).Contents (Elt Ideal)) (W1 : (⟨S2048x1024, .f32⟩ : BufTy).Contents (Elt Ideal)) (b1 : (⟨S1024, .f32⟩ : BufTy).Contents (Elt Ideal)) (W2 : (⟨S1024x2048, .f32⟩ : BufTy).Contents (Elt Ideal)) (b2 : (⟨S2048, .f32⟩ : BufTy).Contents (Elt Ideal)) (hE : InGrid E) (n : Fin 25088) (j : Fin 2048) :
    val_main_v91 (F := Ideal) X E W1 b1 W2 b2 (ix2 n j)
      = layer (edgesOf E) (rowsOf (val_main_v53 (F := Ideal) X E W1 b1)) (matOf W2) (vecOf b2) n.val j := by
  rw [val_main_v91_apply, val_main_v90_apply, val_main_v87_apply, val_main_v86_apply, agg2 X E W1 b1 W2 hE n j,
    self2 E hE n j, bias2 b2 n j, zeroRelu2 (ix2 n j), lin2 X E W1 b1 W2 n j]
  have hsum : ∑ e ∈ arriving (edgesOf E) n.val,
        rowsOf (val_main_v54 (F := Ideal) X E W1 b1 W2) ((edgesOf E).src e).toNat j
          * (dinv (edgesOf E) ((edgesOf E).src e).toNat * dinv (edgesOf E) ((edgesOf E).dst e).toNat)
      = ∑ e ∈ arriving (edgesOf E) n.val,
        lin (rowsOf (val_main_v53 (F := Ideal) X E W1 b1)) (matOf W2) ((edgesOf E).src e).toNat j
          * (dinv (edgesOf E) ((edgesOf E).src e).toNat * dinv (edgesOf E) ((edgesOf E).dst e).toNat) :=
    Finset.sum_congr rfl fun e _ => by
      rw [lin2_rows X E W1 b1 W2 _ (by have := (src_rows E hE e); omega) j]
  rw [hsum]
  rfl

end Cert.Gcn.Ref

end
-- ==== Proof.RefResult.lean ====
/-
  The reference's result read at a node and a feature is the two-layer network of the specification.

  A layer reads its input only in the node's own row and in the rows of the sources of the edges arriving at it, and
  every source is one of the table's rows; so the second layer of the specification may be read over the rows of the
  reference's first layer, which are the specification's first layer.
-/
import proofs.«149964_j22067541967300_2_alg».proof.Proof.ReadP
import proofs.«149964_j22067541967300_2_alg».proof.Proof.RefLayer1
import proofs.«149964_j22067541967300_2_alg».proof.Proof.RefLayer2

noncomputable section

open scoped BigOperators

namespace Cert.Gcn.Ref

open Cert.ReferenceIdeal Cert.ReferenceIdeal.Gen Cert.ReferenceIdeal.ReadP Idealize.ShloMosaic Idealize.ShloMosaic.ValueIdx

/-- A layer at node `i` reads its input only in row `i` and in the rows of the sources of the arriving edges. -/
theorem layer_congr {K C : ℕ} (G : Edges) (N : ℕ) (hsrc : ∀ e, (G.src e).toNat < N)
    (h h' : ℕ → Fin K → EReal) (hh : ∀ i, i < N → ∀ k, h i k = h' i k)
    (W : Fin K → Fin C → EReal) (b : Fin C → EReal) (i : ℕ) (hi : i < N) (j : Fin C) :
    layer G h W b i j = layer G h' W b i j := by
  have hl : ∀ m, m < N → lin h W m j = lin h' W m j := fun m hm => by
    unfold lin
    exact Finset.sum_congr rfl fun k _ => by rw [hh m hm k]
  have hs : ∑ e ∈ arriving G i, lin h W (G.src e).toNat j * (dinv G (G.src e).toNat * dinv G (G.dst e).toNat)
      = ∑ e ∈ arriving G i, lin h' W (G.src e).toNat j * (dinv G (G.src e).toNat * dinv G (G.dst e).toNat) :=
    Finset.sum_congr rfl fun e _ => by rw [hl _ (hsrc e)]
  unfold layer Cert.Gcn.conv
  rw [hl i hi, hs]

/-- THE REFERENCE AT AN INDEX: its second positive part at `(n, c)` is the specification's network. -/
theorem result_apply (X : (⟨S128x14x14x2048, .f32⟩ : BufTy).Contents (Elt Ideal)) (E : (⟨S2x1404, .i32⟩ : BufTy).Contents (Elt Ideal))
    (W1 : (⟨S2048x1024, .f32⟩ : BufTy).Contents (Elt Ideal)) (b1 : (⟨S1024, .f32⟩ : BufTy).Contents (Elt Ideal))
    (W2 : (⟨S1024x2048, .f32⟩ : BufTy).Contents (Elt Ideal)) (b2 : (⟨S2048, .f32⟩ : BufTy).Contents (Elt Ideal))
    (hE : InGrid E) (n : Fin 25088) (c : Fin 2048) :
    val_main_v91 (F := Ideal) X E W1 b1 W2 b2 (ix2 n c)
      = out (edgesOf E) (rowsOf (val_main_v1 (F := Ideal) X)) (matOf W1) (vecOf b1) (matOf W2) (vecOf b2) n.val c := by
  rw [layer2_apply X E W1 b1 W2 b2 hE n c]
  unfold out
  exact layer_congr (edgesOf E) 25088 (fun e => by have := src_rows E hE e; omega) _ _
    (fun i hi k => (rowsOf_lt (val_main_v53 (F := Ideal) X E W1 b1) ⟨i, hi⟩ k).trans
      (layer1_apply X E W1 b1 hE ⟨i, hi⟩ k)) _ _ n.val n.isLt c

/-- The reference's result proper, the same table regrouped as `[128, 14, 14, 2048]`, at an index `i`: the network at
    the node and the feature that `i` regroups to. -/
theorem result_reshaped_apply (X : (⟨S128x14x14x2048, .f32⟩ : BufTy).Contents (Elt Ideal)) (E : (⟨S2x1404, .i32⟩ : BufTy).Contents (Elt Ideal))
    (W1 : (⟨S2048x1024, .f32⟩ : BufTy).Contents (Elt Ideal)) (b1 : (⟨S1024, .f32⟩ : BufTy).Contents (Elt Ideal))
    (W2 : (⟨S1024x2048, .f32⟩ : BufTy).Contents (Elt Ideal)) (b2 : (⟨S2048, .f32⟩ : BufTy).Contents (Elt Ideal))
    (hE : InGrid E) (i : S128x14x14x2048.Idx) :
    val_main_v92 (F := Ideal) X E W1 b1 W2 b2 i
      = out (edgesOf E) (rowsOf (val_main_v1 (F := Ideal) X)) (matOf W1) (vecOf b1) (matOf W2) (vecOf b2)
          (idx_main_v92 i 0).val (idx_main_v92 i 1) :=
  (val_main_v92_apply (F := Ideal) X E W1 b1 W2 b2 i).trans
    ((congrArg (val_main_v91 (F := Ideal) X E W1 b1 W2 b2) (eq_ix2 (idx_main_v92 i))).trans
      (result_apply X E W1 b1 W2 b2 hE (idx_main_v92 i 0) (idx_main_v92 i 1)))

end Cert.Gcn.Ref

end
-- ==== Proof.TailLine.lean ====
/-
  The host operations that follow the region: the buffers they write, and the buffers read at their tensor types.

  The 103 operations each write one buffer of their own; the list below names those buffers in the operations' order.
  With it, what the whole line leaves in the buffer an operation writes is that operation's function of what the line
  leaves in its operands. Each buffer is read through a reference that carries the tensor type of its contents.
-/
import proofs.«149964_j22067541967300_2_alg».proof.Proof.Gen.KernelIdeal.Launch
import proofs.«149964_j22067541967300_2_alg».proof.Proof.LibLineStep
import proofs.«149964_j22067541967300_2_alg».proof.Proof.LibTypedRefCasts
import Idealize.ShloMosaic.Lib.ValueIdx

set_option maxRecDepth 4000

noncomputable section

namespace Cert.KernelIdeal.Tail

open Idealize.ShloMosaic Idealize.ShloMosaic.StableHlo Idealize.ShloMosaic.ValueIdx
open Cert.KernelIdeal Cert.KernelIdeal.Gen Cert.Line Cert.CubePad.Line

/-- The references the operations after the region write, in order. -/
abbrev tailRefs : List (Ref sig .tc) :=
  [main_call0_v21, main_call0_v22, main_call0_c_2, main_call0_v23, main_call0_v24, main_call0_c_3, main_call0_v25, main_call0_v26, main_call0_v27, main_call0_v28, main_call0_v29, main_call0_c_4, main_call0_v30, main_call0_v31, main_call0_c_5, main_call0_v32, main_call0_v33, main_call0_v34, main_call0_v35, main_call0_v36, main_call0_v37, main_call0_v38, main_call0_c_6, main_call0_v39, main_call0_v40, main_call0_c_7, main_call0_v41, main_call0_v42, main_call0_v43, main_call0_v44, main_call0_v45, main_call0_v46, main_call0_v47, main_call0_cst_8, main_call0_v48, main_call0_v49, main_call0_v50, main_call0_v51, main_call0_v52, main_call0_v53, main_call0_v54, main_call0_v55, main_call0_v56, main_call0_v57, main_call0_v58, main_call0_v59, main_call0_v60, main_call0_call0_cst, main_call0_call0_v0, main_call0_v61, main_call0_v62, main_call0_c_9, main_call0_v63, main_call0_v64, main_call0_c_10, main_call0_v65, main_call0_v66, main_call0_v67, main_call0_v68, main_call0_v69, main_call0_c_11, main_call0_v70, main_call0_v71, main_call0_c_12, main_call0_v72, main_call0_v73, main_call0_v74, main_call0_v75, main_call0_v76, main_call0_v77, main_call0_v78, main_call0_c_13, main_call0_v79, main_call0_v80, main_call0_c_14, main_call0_v81, main_call0_v82, main_call0_v83, main_call0_v84, main_call0_v85, main_call0_v86, main_call0_v87, main_call0_cst_15, main_call0_v88, main_call0_v89, main_call0_v90, main_call0_v91, main_call0_v92, main_call0_v93, main_call0_v94, main_call0_v95, main_call0_v96, main_call0_v97, main_call0_v98, main_call0_v99, main_call0_v100, main_call0_call1_cst, main_call0_call1_v0, main_call0_v101, main_call0_c_16, main_call0_v102, main_call0_v103, main_v0]

set_option maxHeartbeats 4000000 in
theorem tail_writes : Writes (hostOps1 (F := Ideal)) tailRefs := by
  line_writes

/-- What the line leaves in a buffer, from the contents `W` it starts from, at the buffer's tensor type. -/
abbrev Rd (W : Valuation τ sig (Elt Ideal)) {T : BufTy} (x : TRef sig T) : T.Contents (Elt Ideal) :=
  x.ofBuf (after (hostOps1 (F := Ideal)) W (Proc.devRef .tc x.ref))

/-! The buffers of the line, each with the tensor type of its contents. -/
abbrev t_v21 : TRef sig ⟨S196x2048, .f32⟩ := .of main_call0_v21
abbrev t_v1 : TRef sig ⟨S25088x2048, .f32⟩ := .of main_call0_v1
abbrev t_v22 : TRef sig ⟨S196x1024, .f32⟩ := .of main_call0_v22
abbrev t_m_arg2 : TRef sig ⟨S2048x1024, .f32⟩ := .of main_arg2
abbrev t_c_2 : TRef sig ⟨S_, .i32⟩ := .of main_call0_c_2
abbrev t_v23 : TRef sig ⟨S1404, .i32⟩ := .of main_call0_v23
abbrev t_v24 : TRef sig ⟨S1404, .i1⟩ := .of main_call0_v24
abbrev t_v3 : TRef sig ⟨S1404, .i32⟩ := .of main_call0_v3
abbrev t_c_3 : TRef sig ⟨S_, .i32⟩ := .of main_call0_c_3
abbrev t_v25 : TRef sig ⟨S1404, .i32⟩ := .of main_call0_v25
abbrev t_v26 : TRef sig ⟨S1404, .i32⟩ := .of main_call0_v26
abbrev t_v27 : TRef sig ⟨S1404, .i32⟩ := .of main_call0_v27
abbrev t_v28 : TRef sig ⟨S1404x1, .i32⟩ := .of main_call0_v28
abbrev t_v29 : TRef sig ⟨S1404, .f32⟩ := .of main_call0_v29
abbrev t_v15 : TRef sig ⟨S25088, .f32⟩ := .of main_call0_v15
abbrev t_c_4 : TRef sig ⟨S_, .i32⟩ := .of main_call0_c_4
abbrev t_v30 : TRef sig ⟨S1404, .i32⟩ := .of main_call0_v30
abbrev t_v31 : TRef sig ⟨S1404, .i1⟩ := .of main_call0_v31
abbrev t_v5 : TRef sig ⟨S1404, .i32⟩ := .of main_call0_v5
abbrev t_c_5 : TRef sig ⟨S_, .i32⟩ := .of main_call0_c_5
abbrev t_v32 : TRef sig ⟨S1404, .i32⟩ := .of main_call0_v32
abbrev t_v33 : TRef sig ⟨S1404, .i32⟩ := .of main_call0_v33
abbrev t_v34 : TRef sig ⟨S1404, .i32⟩ := .of main_call0_v34
abbrev t_v35 : TRef sig ⟨S1404x1, .i32⟩ := .of main_call0_v35
abbrev t_v36 : TRef sig ⟨S1404, .f32⟩ := .of main_call0_v36
abbrev t_v37 : TRef sig ⟨S1404, .f32⟩ := .of main_call0_v37
abbrev t_v38 : TRef sig ⟨S1404x1, .f32⟩ := .of main_call0_v38
abbrev t_c_6 : TRef sig ⟨S_, .i32⟩ := .of main_call0_c_6
abbrev t_v39 : TRef sig ⟨S1404, .i32⟩ := .of main_call0_v39
abbrev t_v40 : TRef sig ⟨S1404, .i1⟩ := .of main_call0_v40
abbrev t_c_7 : TRef sig ⟨S_, .i32⟩ := .of main_call0_c_7
abbrev t_v41 : TRef sig ⟨S1404, .i32⟩ := .of main_call0_v41
abbrev t_v42 : TRef sig ⟨S1404, .i32⟩ := .of main_call0_v42
abbrev t_v43 : TRef sig ⟨S1404, .i32⟩ := .of main_call0_v43
abbrev t_v44 : TRef sig ⟨S1404x1, .i32⟩ := .of main_call0_v44
abbrev t_v45 : TRef sig ⟨S1404x1024, .f32⟩ := .of main_call0_v45
abbrev t_v46 : TRef sig ⟨S1404x1024, .f32⟩ := .of main_call0_v46
abbrev t_v47 : TRef sig ⟨S1404x1024, .f32⟩ := .of main_call0_v47
abbrev t_cst_8 : TRef sig ⟨S_, .f32⟩ := .of main_call0_cst_8
abbrev t_v48 : TRef sig ⟨S196x1024, .f32⟩ := .of main_call0_v48
abbrev t_v49 : TRef sig ⟨S1404x1, .i32⟩ := .of main_call0_v49
abbrev t_v50 : TRef sig ⟨S196x1024, .f32⟩ := .of main_call0_v50
abbrev t_v51 : TRef sig ⟨S196, .f32⟩ := .of main_call0_v51
abbrev t_v52 : TRef sig ⟨S196, .f32⟩ := .of main_call0_v52
abbrev t_v53 : TRef sig ⟨S196, .f32⟩ := .of main_call0_v53
abbrev t_v54 : TRef sig ⟨S196x1, .f32⟩ := .of main_call0_v54
abbrev t_v55 : TRef sig ⟨S196x1024, .f32⟩ := .of main_call0_v55
abbrev t_v56 : TRef sig ⟨S196x1024, .f32⟩ := .of main_call0_v56
abbrev t_v57 : TRef sig ⟨S196x1024, .f32⟩ := .of main_call0_v57
abbrev t_v58 : TRef sig ⟨S1x1024, .f32⟩ := .of main_call0_v58
abbrev t_m_arg3 : TRef sig ⟨S1024, .f32⟩ := .of main_arg3
abbrev t_v59 : TRef sig ⟨S196x1024, .f32⟩ := .of main_call0_v59
abbrev t_v60 : TRef sig ⟨S196x1024, .f32⟩ := .of main_call0_v60
abbrev t_call0_cst : TRef sig ⟨S_, .f32⟩ := .of main_call0_call0_cst
abbrev t_call0_v0 : TRef sig ⟨S196x1024, .f32⟩ := .of main_call0_call0_v0
abbrev t_v61 : TRef sig ⟨S196x1024, .f32⟩ := .of main_call0_v61
abbrev t_v62 : TRef sig ⟨S196x2048, .f32⟩ := .of main_call0_v62
abbrev t_m_arg4 : TRef sig ⟨S1024x2048, .f32⟩ := .of main_arg4
abbrev t_c_9 : TRef sig ⟨S_, .i32⟩ := .of main_call0_c_9
abbrev t_v63 : TRef sig ⟨S1404, .i32⟩ := .of main_call0_v63
abbrev t_v64 : TRef sig ⟨S1404, .i1⟩ := .of main_call0_v64
abbrev t_c_10 : TRef sig ⟨S_, .i32⟩ := .of main_call0_c_10
abbrev t_v65 : TRef sig ⟨S1404, .i32⟩ := .of main_call0_v65
abbrev t_v66 : TRef sig ⟨S1404, .i32⟩ := .of main_call0_v66
abbrev t_v67 : TRef sig ⟨S1404, .i32⟩ := .of main_call0_v67
abbrev t_v68 : TRef sig ⟨S1404x1, .i32⟩ := .of main_call0_v68
abbrev t_v69 : TRef sig ⟨S1404, .f32⟩ := .of main_call0_v69
abbrev t_c_11 : TRef sig ⟨S_, .i32⟩ := .of main_call0_c_11
abbrev t_v70 : TRef sig ⟨S1404, .i32⟩ := .of main_call0_v70
abbrev t_v71 : TRef sig ⟨S1404, .i1⟩ := .of main_call0_v71
abbrev t_c_12 : TRef sig ⟨S_, .i32⟩ := .of main_call0_c_12
abbrev t_v72 : TRef sig ⟨S1404, .i32⟩ := .of main_call0_v72
abbrev t_v73 : TRef sig ⟨S1404, .i32⟩ := .of main_call0_v73
abbrev t_v74 : TRef sig ⟨S1404, .i32⟩ := .of main_call0_v74
abbrev t_v75 : TRef sig ⟨S1404x1, .i32⟩ := .of main_call0_v75
abbrev t_v76 : TRef sig ⟨S1404, .f32⟩ := .of main_call0_v76
abbrev t_v77 : TRef sig ⟨S1404, .f32⟩ := .of main_call0_v77
abbrev t_v78 : TRef sig ⟨S1404x1, .f32⟩ := .of main_call0_v78
abbrev t_c_13 : TRef sig ⟨S_, .i32⟩ := .of main_call0_c_13
abbrev t_v79 : TRef sig ⟨S1404, .i32⟩ := .of main_call0_v79
abbrev t_v80 : TRef sig ⟨S1404, .i1⟩ := .of main_call0_v80
abbrev t_c_14 : TRef sig ⟨S_, .i32⟩ := .of main_call0_c_14
abbrev t_v81 : TRef sig ⟨S1404, .i32⟩ := .of main_call0_v81
abbrev t_v82 : TRef sig ⟨S1404, .i32⟩ := .of main_call0_v82
abbrev t_v83 : TRef sig ⟨S1404, .i32⟩ := .of main_call0_v83
abbrev t_v84 : TRef sig ⟨S1404x1, .i32⟩ := .of main_call0_v84
abbrev t_v85 : TRef sig ⟨S1404x2048, .f32⟩ := .of main_call0_v85
abbrev t_v86 : TRef sig ⟨S1404x2048, .f32⟩ := .of main_call0_v86
abbrev t_v87 : TRef sig ⟨S1404x2048, .f32⟩ := .of main_call0_v87
abbrev t_cst_15 : TRef sig ⟨S_, .f32⟩ := .of main_call0_cst_15
abbrev t_v88 : TRef sig ⟨S196x2048, .f32⟩ := .of main_call0_v88
abbrev t_v89 : TRef sig ⟨S1404x1, .i32⟩ := .of main_call0_v89
abbrev t_v90 : TRef sig ⟨S196x2048, .f32⟩ := .of main_call0_v90
abbrev t_v91 : TRef sig ⟨S196, .f32⟩ := .of main_call0_v91
abbrev t_v92 : TRef sig ⟨S196, .f32⟩ := .of main_call0_v92
abbrev t_v93 : TRef sig ⟨S196, .f32⟩ := .of main_call0_v93
abbrev t_v94 : TRef sig ⟨S196x1, .f32⟩ := .of main_call0_v94
abbrev t_v95 : TRef sig ⟨S196x2048, .f32⟩ := .of main_call0_v95
abbrev t_v96 : TRef sig ⟨S196x2048, .f32⟩ := .of main_call0_v96
abbrev t_v97 : TRef sig ⟨S196x2048, .f32⟩ := .of main_call0_v97
abbrev t_v98 : TRef sig ⟨S1x2048, .f32⟩ := .of main_call0_v98
abbrev t_m_arg5 : TRef sig ⟨S2048, .f32⟩ := .of main_arg5
abbrev t_v99 : TRef sig ⟨S196x2048, .f32⟩ := .of main_call0_v99
abbrev t_v100 : TRef sig ⟨S196x2048, .f32⟩ := .of main_call0_v100
abbrev t_call1_cst : TRef sig ⟨S_, .f32⟩ := .of main_call0_call1_cst
abbrev t_call1_v0 : TRef sig ⟨S196x2048, .f32⟩ := .of main_call0_call1_v0
abbrev t_v101 : TRef sig ⟨S196x2048, .f32⟩ := .of main_call0_v101
abbrev t_c_16 : TRef sig ⟨S_, .i32⟩ := .of main_call0_c_16
abbrev t_v102 : TRef sig ⟨S1, .i32⟩ := .of main_call0_v102
abbrev t_v103 : TRef sig ⟨S25088x2048, .f32⟩ := .of main_call0_v103
abbrev t_v20 : TRef sig ⟨S25088x2048, .f32⟩ := .of main_call0_v20

end Cert.KernelIdeal.Tail

end
-- ==== Proof.LibRowOps.lean ====
/-
  ROW GATHER AND ROW SCATTER-ADD READ AT AN INDEX.

  A table of N rows and C columns is gathered by a column of E index words (row e of the result is the table's row
  at the e-th word, read as a signed integer and clamped into [0, N - 1]), and a table of E update rows is
  scatter-added into a table of N rows by such a column (row n of the result is row n of the table plus the sum of
  the update rows whose word, read as a signed integer and not clamped, is n; a word outside [0, N - 1] drops its row).
-/
import Idealize.ShloMosaic.Lib.ValueIdx

noncomputable section

open scoped BigOperators

namespace RowOps

open Idealize.ShloMosaic Idealize.ShloMosaic.ValueIdx

/-- The dimension numbers of a row gather: operand [N, C], start indices [E, 1], result [E, C]; axis 0 is collapsed
    and indexed, axis 1 is the offset axis carried whole. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section Gather
variable {N E C w : Nat}
  (wf : GatherDims.WF ⟨2, ![N, C]⟩ ⟨2, ![E, 1]⟩ ⟨2, ![E, C]⟩ [1] [0] [] [0] [] 1 ![1, C])
  (idx : IVec ⟨2, ![E, 1]⟩ w) (e : Fin E) (k : Fin C)

/-- On the row axis the operand coordinate of result (e, k) is the e-th word read signed, clamped into [0, N - 1]. -/
theorem gather_rows_coord0 :
    (rowGatherDims N E C wf).start (ix2 e k) idx (0 : Fin 2) + (rowGatherDims N E C wf).batchCoord (ix2 e k) (0 : Fin 2)
      + (rowGatherDims N E C wf).offCoord (ix2 e k) (0 : Fin 2) = min (idx (ix2 e 0)).toInt.toNat (N - 1) := by
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx (ix2 e k)
      ⟨List.idxOf (0 : Fin 2) (rowGatherDims N E C wf).startIndexMap,
        List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- On the column axis the operand coordinate of result (e, k) is k. -/
theorem gather_rows_coord1 :
    (rowGatherDims N E C wf).start (ix2 e k) idx (1 : Fin 2) + (rowGatherDims N E C wf).batchCoord (ix2 e k) (1 : Fin 2)
      + (rowGatherDims N E C wf).offCoord (ix2 e k) (1 : Fin 2) = k.val := by
  rw [GatherDims.batchCoord_eq_zero _ _ _ List.not_mem_nil]
  have hst : (rowGatherDims N E C wf).start (ix2 e k) idx (1 : Fin 2) = 0 := by
    unfold GatherDims.start
    rw [dif_neg (show (1 : Fin 2) ∉ ([0] : List (Fin 2)) by decide)]
  have hoff : (rowGatherDims N E C wf).offCoord (ix2 e k) (1 : Fin 2) = k.val := by
    rfl
  rw [hst, hoff]
  simp

end Gather

/-- The row gather at (e, k): the table at row min (toNat of the e-th word read signed) (N - 1), column k. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e 0)).toInt.toNat (N - 1), by omega⟩ k) := by
  unfold Host.gather
  congr 1
  funext a
  refine Fin.ext ?_
  match a with
  | ⟨0, _⟩ => exact gather_rows_coord0 wf idx e k
  | ⟨1, _⟩ => exact gather_rows_coord1 wf idx e k

/-- The dimension numbers of a row scatter: operand [N, C], scatter indices [E, 1], updates [E, C]; axis 0 is the
    inserted and indexed axis, axis 1 the window axis carried whole. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat}
  (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis the window of update (e, k) starts at the e-th word read signed (not clamped). -/
theorem scatter_rows_start0 :
    (rowScatterDims N E C wf).start (ix2 e k) idx (0 : Fin 2) = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e k)
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window of every update starts at 0. -/
theorem scatter_rows_start1 :
    (rowScatterDims N E C wf).start (ix2 e k) idx (1 : Fin 2) = 0 := by
  unfold ScatterDims.start
  rw [dif_neg (show (1 : Fin 2) ∉ ([0] : List (Fin 2)) by decide)]

/-- On the row axis the window coordinate of every update is 0. -/
theorem scatter_rows_window0 : (rowScatterDims N E C wf).window (ix2 e k) (0 : Fin 2) = 0 := by
  rfl

/-- On the column axis the window coordinate of update (e, k) is k. -/
theorem scatter_rows_window1 : (rowScatterDims N E C wf).window (ix2 e k) (1 : Fin 2) = k.val := by
  rfl

end Scatter

/-- An update lands on operand index i exactly when, on every axis, its window start plus its window coordinate is
    i's coordinate (an update leaving the operand on some axis lands nowhere). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hf a
      have ha := h a
      rw [← hf]
      show _ = (((d.start j idx a + (d.window j a : Int)).toNat : Nat) : Int)
      omega
    · intro hf
      funext a
      refine Fin.ext ?_
      show (d.start j idx a + (d.window j a : Int)).toNat = (i a).val
      rw [hf a]
      omega
  · rename_i h
    constructor
    · intro hf
      cases hf
    · intro hf
      exfalso
      apply h
      intro a
      rw [hf a]
      have := (i a).isLt
      constructor <;> omega

/-- Update (e, k) lands on (n, k') exactly when the e-th word read signed is n and k = k'. -/
theorem resultIdx_rows {N E C w : Nat}
    (wf : ScatterDims.WF ⟨2, ![N, C]⟩ ⟨2, ![E, 1]⟩ ⟨2, ![E, C]⟩ [1] [0] [0] 1)
    (idx : IVec ⟨2, ![E, 1]⟩ w) (e : Fin E) (k : Fin C) (n : Fin N) (k' : Fin C) :
    (rowScatterDims N E C wf).resultIdx? (ix2 e k) idx = some (ix2 n k')
      ↔ (idx (ix2 e 0)).toInt = (n.val : Int) ∧ k = k' := by
  rw [resultIdx?_eq_some_iff]
  constructor
  · intro h
    have a0 : (rowScatterDims N E C wf).start (ix2 e k) idx (0 : Fin 2)
        + ((rowScatterDims N E C wf).window (ix2 e k) (0 : Fin 2) : Int) = (n.val : Int) := h (0 : Fin 2)
    have a1 : (rowScatterDims N E C wf).start (ix2 e k) idx (1 : Fin 2)
        + ((rowScatterDims N E C wf).window (ix2 e k) (1 : Fin 2) : Int) = (k'.val : Int) := h (1 : Fin 2)
    rw [scatter_rows_start0, scatter_rows_window0] at a0
    rw [scatter_rows_start1, scatter_rows_window1] at a1
    exact ⟨by omega, Fin.ext (by omega)⟩
  · rintro ⟨h0, rfl⟩ a
    match a with
    | ⟨0, _⟩ =>
      show (rowScatterDims N E C wf).start (ix2 e k) idx (0 : Fin 2)
        + ((rowScatterDims N E C wf).window (ix2 e k) (0 : Fin 2) : Int) = (n.val : Int)
      rw [scatter_rows_start0, scatter_rows_window0]
      omega
    | ⟨1, _⟩ =>
      show (rowScatterDims N E C wf).start (ix2 e k) idx (1 : Fin 2)
        + ((rowScatterDims N E C wf).window (ix2 e k) (1 : Fin 2) : Int) = (k.val : Int)
      rw [scatter_rows_start1, scatter_rows_window1]
      omega

/-- The row scatter-add at (n, k): the table's element plus the sum, over the update rows whose word read signed
    is n, of their element in column k. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowScatterDims N E C wf) x idx upd (ix2 n k)
      = x (ix2 n k) + ∑ e ∈ Finset.univ.filter (fun e : Fin E => (idx (ix2 e 0)).toInt = (n.val : Int)),
          upd (ix2 e k) := by
  unfold Ideal.hostScatterAdd
  congr 1
  rw [Finset.sum_filter, Finset.sum_filter, sum_idx2]
  refine Finset.sum_congr rfl fun e _ => ?_
  simp only [resultIdx_rows]
  by_cases h : (idx (ix2 e 0)).toInt = (n.val : Int)
  · simp [h, Finset.sum_ite_eq']
  · simp [h]

end RowOps

end
-- ==== Proof.LibScatterSet.lean ====
/-
  A host scatter whose body returns the update (an overwrite), read at an index.

  The scatter folds over the update's indices in row-major order, each step overwriting the operand's element at the
  update index's target. When every update index has a target inside the operand and distinct update indices have
  distinct targets, the order does not matter: the result at a target is that target's update, and every other
  element is the operand's.
-/
import Idealize.ShloMosaic.PureOps.ShapeOps
import Idealize.ShloMosaic.Lib.ValueIdx

noncomputable section

namespace Cert.LibScatterSet

open Idealize.ShloMosaic

variable {α : Type}

/-- A left fold of overwrites leaves alone an index that none of the steps targets. -/
theorem foldl_set_of_forall_ne {ι κ : Type} [inst : DecidableEq ι] (g : κ → ι) (upd : κ → α) :
    ∀ (L : List κ) (x : ι → α) (i : ι), (∀ n ∈ L, g n ≠ i) →
      (L.foldl (fun r n => fun i' => if i' = g n then upd n else r i') x) i = x i
  | [], _, _, _ => rfl
  | n :: L, x, i, h => by
    rw [List.foldl_cons, foldl_set_of_forall_ne g upd L _ i (fun k hk => h k (List.mem_cons_of_mem _ hk))]
    exact if_neg (fun e => h n List.mem_cons_self e.symm)

/-- A left fold of overwrites at pairwise distinct targets holds, at a step's target, that step's value. -/
theorem foldl_set_of_mem {ι κ : Type} [inst : DecidableEq ι] (g : κ → ι) (hg : Function.Injective g) (upd : κ → α) :
    ∀ (L : List κ), L.Nodup → ∀ (x : ι → α) (n0 : κ), n0 ∈ L →
      (L.foldl (fun r n => fun i' => if i' = g n then upd n else r i') x) (g n0) = upd n0
  | [], _, _, _, h => absurd h List.not_mem_nil
  | n :: L, hL, x, n0, h => by
    rw [List.foldl_cons]
    rcases List.mem_cons.mp h with e | h'
    · subst e
      rw [foldl_set_of_forall_ne g upd L _ (g n0)
        (fun k hk e => (List.nodup_cons.mp hL).1 (hg e ▸ hk))]
      exact if_pos rfl
    · exact foldl_set_of_mem g hg upd L (List.nodup_cons.mp hL).2 _ n0 h'

variable {s si u : Shape} {w : Nat}

/-- The overwriting scatter as a fold of plain overwrites, when every update index has a target. -/
theorem scatter_set_eq_foldl (d : ScatterDims s si u) (x : s.Idx → α) (idx : IVec si w) (upd : u.Idx → α)
    (g : u.Idx → s.Idx) (h : ∀ j, d.resultIdx? j idx = some (g j)) :
    Host.scatter d (fun _ b => b) x idx upd
      = (List.finRange u.numel).foldl (fun r n => fun i' =>
          if i' = (g ∘ u.rowMajor.symm) n then (upd ∘ u.rowMajor.symm) n else r i') x := by
  unfold Host.scatter
  congr 1
  funext r n
  rw [h]
  rfl

/-- At an update index's target the overwriting scatter holds that update. -/
theorem scatter_set_at (d : ScatterDims s si u) (x : s.Idx → α) (idx : IVec si w) (upd : u.Idx → α)
    (g : u.Idx → s.Idx) (hg : Function.Injective g) (h : ∀ j, d.resultIdx? j idx = some (g j)) (j : u.Idx) :
    Host.scatter d (fun _ b => b) x idx upd (g j) = upd j := by
  rw [scatter_set_eq_foldl d x idx upd g h]
  have := foldl_set_of_mem (g ∘ u.rowMajor.symm) (hg.comp u.rowMajor.symm.injective) (upd ∘ u.rowMajor.symm)
    (List.finRange u.numel) (List.nodup_finRange _) x (u.rowMajor j) (List.mem_finRange _)
  simpa only [Function.comp_apply, Equiv.symm_apply_apply] using this

/-- Away from every target the overwriting scatter keeps the operand. -/
theorem scatter_set_away (d : ScatterDims s si u) (x : s.Idx → α) (idx : IVec si w) (upd : u.Idx → α)
    (g : u.Idx → s.Idx) (h : ∀ j, d.resultIdx? j idx = some (g j)) (i : s.Idx) (hi : ∀ j, g j ≠ i) :
    Host.scatter d (fun _ b => b) x idx upd i = x i := by
  rw [scatter_set_eq_foldl d x idx upd g h]
  exact foldl_set_of_forall_ne (g ∘ u.rowMajor.symm) (upd ∘ u.rowMajor.symm) (List.finRange u.numel) x i
    (fun n _ => hi _)

end Cert.LibScatterSet

end
-- ==== Proof.TailOps.lean ====
/-
  The operations of a graph-convolution step on a small table, each read at one index, generic in the sizes.

  * The index normalisation "a negative index is shifted up by the extent" is the identity on an index that is not
    negative (`fixup_eq`).
  * A gather whose index lies inside the table reads the table at that index, no clamping (`eltGather_inrange`,
    `rowGather_inrange`).
  * A leading slice reads the array at the same coordinates (`slice1_apply`, `slice2_apply`).
  * A zero constant broadcast to any shape is zero everywhere (`zeros_apply`).
  * A scatter that overwrites, at start row 0, the first `M` rows of an `N`-row table with an `M`-row table: the
    first `M` rows are the small table's, the others the large table's (`blockScatter_lt`, `blockScatter_ge`).
-/
import proofs.«149964_j22067541967300_2_alg».proof.Proof.LibGatherScatter
import proofs.«149964_j22067541967300_2_alg».proof.Proof.LibHostRead
import proofs.«149964_j22067541967300_2_alg».proof.Proof.LibRowOps
import proofs.«149964_j22067541967300_2_alg».proof.Proof.LibScatterSet
import Idealize.ShloMosaic.Lib.IdealHost

noncomputable section

namespace Cert.TailOps

open Idealize.ShloMosaic Idealize.ShloMosaic.ValueIdx Cert.LibGS

/-! ## The index normalisation -/

/-- A word that is not negative, read signed, is not below zero. -/
theorem cmpi_slt_zero_of_nonneg (v : BitVec 32) (h : 0 ≤ v.toInt) : IntOp.cmpi .slt v 0#32 = 0#1 := by
  have h0 : (0#32 : BitVec 32).toInt = 0 := by decide
  have hlt : v.slt 0#32 = false := by
    unfold BitVec.slt
    rw [h0]
    exact decide_eq_false (not_lt.mpr h)
  show BitVec.ofBool (v.slt 0#32) = 0#1
  rw [hlt]; rfl

/-- "A negative index is shifted up by the extent" leaves indices that are not negative alone. -/
theorem fixup_eq {s : Shape} (hz : (⟨0, ![]⟩ : Shape).BroadcastsInDim s ![]) (M : BitVec 32) (idx : IVec s 32)
    (h : ∀ i, 0 ≤ (idx i).toInt) :
    select (cmpi .slt idx (broadcastInDim s ![] hz (constantI ⟨0, ![]⟩ 32 0#32)))
      (addi idx (broadcastInDim s ![] hz (constantI ⟨0, ![]⟩ 32 M))) idx = idx := by
  funext i
  show Scalar.select (IntOp.cmpi .slt (idx i) (broadcastInDim s ![] hz (constantI ⟨0, ![]⟩ 32 0#32) i)) _ (idx i) = idx i
  rw [Cert.LibHR.bcastScalar_apply]
  show Scalar.select (IntOp.cmpi .slt (idx i) 0#32) _ (idx i) = idx i
  rw [cmpi_slt_zero_of_nonneg _ (h i), select_zero]

/-! ## Gathers inside the table -/

/-- Clamping leaves a row number inside the table alone. -/
theorem clampRow_of_range {N : Nat} (hN : 0 < N) (v : BitVec 32) (h0 : 0 ≤ v.toInt) (h1 : v.toInt < (N : Int)) :
    clampRow N hN v = ⟨v.toInt.toNat, by omega⟩ := by
  refine Fin.ext ?_
  show min v.toInt.toNat (N - 1) = v.toInt.toNat
  omega

/-- An element gather at an index inside the table. -/
theorem eltGather_inrange {α : Type} {N R : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ 32) (e : Fin R)
    (h0 : 0 ≤ (idx (ix2 e 0)).toInt) (h1 : (idx (ix2 e 0)).toInt < (N : Int)) :
    Host.gather (eltGatherDims N R wf) x idx (ix1 e) = x (ix1 ⟨(idx (ix2 e 0)).toInt.toNat, by omega⟩) := by
  rw [eltGather_apply hN, clampRow_of_range hN _ h0 h1]

/-- A row gather at an index inside the table. -/
theorem rowGather_inrange {α : Type} {N R C : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ 32) (e : Fin R) (c : Fin C)
    (h0 : 0 ≤ (idx (ix2 e 0)).toInt) (h1 : (idx (ix2 e 0)).toInt < (N : Int)) :
    Host.gather (rowGatherDims N R C wf) x idx (ix2 e c) = x (ix2 ⟨(idx (ix2 e 0)).toInt.toNat, by omega⟩ c) := by
  rw [rowGather_apply hN, clampRow_of_range hN _ h0 h1]

/-! ## Leading slices -/

/-- The first `M` entries of a vector. -/
theorem slice1_apply {α : Type} {N M : Nat} (h : (⟨1, ![N]⟩ : Shape).Slices ![0] ⟨1, ![M]⟩)
    (x : (⟨1, ![N]⟩ : Shape).Idx → α) (n : Fin M) (hn : n.val < N) :
    extractStridedSlice ⟨1, ![M]⟩ ![0] x h (ix1 n) = x (ix1 ⟨n.val, hn⟩) :=
  extractStridedSlice_apply _ x h _ _ fun a => match a with
    | ⟨0, _⟩ => by show n.val = 0 + n.val; omega

/-- The first `M` rows of a table. -/
theorem slice2_apply {α : Type} {N M C : Nat} (h : (⟨2, ![N, C]⟩ : Shape).Slices ![0, 0] ⟨2, ![M, C]⟩)
    (x : (⟨2, ![N, C]⟩ : Shape).Idx → α) (n : Fin M) (c : Fin C) (hn : n.val < N) :
    extractStridedSlice ⟨2, ![M, C]⟩ ![0, 0] x h (ix2 n c) = x (ix2 ⟨n.val, hn⟩ c) :=
  extractStridedSlice_apply _ x h _ _ fun a => match a with
    | ⟨0, _⟩ => by show n.val = 0 + n.val; omega
    | ⟨1, _⟩ => by show c.val = 0 + c.val; omega

/-! ## Zeros -/

/-- The zero constant broadcast to any shape is zero at every index. -/
theorem zeros_apply {t : Shape} (h : (⟨0, ![]⟩ : Shape).BroadcastsInDim t ![]) (j : t.Idx) :
    broadcastInDim t ![] h (constant (F := Ideal) ⟨0, ![]⟩ .f32 0x00000000#32) j = (0 : EReal) := by
  rw [Cert.LibHR.bcastScalar_apply]
  exact Ideal.ofBits_zero_f32

/-! ## Overwriting the leading rows of a table -/

/-- The dimension numbers of a scatter of one `M × C` window into an `N × C` table at one start row. -/
abbrev blockScatterDims (N M C : Nat)
    (wf : ScatterDims.WF ⟨2, ![N, C]⟩ ⟨1, ![1]⟩ ⟨2, ![M, C]⟩ [0, 1] [] [0] 0) :
    ScatterDims ⟨2, ![N, C]⟩ ⟨1, ![1]⟩ ⟨2, ![M, C]⟩ where
  updateWindowDims := [0, 1]
  insertedWindowDims := []
  scatterDimsToOperandDims := [0]
  indexVectorDim := 0
  wf := wf

/-- Where row `r`, column `c` of the window lands when the start row is 0: at row `r`, column `c`. -/
theorem blockScatter_resultIdx {N M C w : Nat} (hMN : M ≤ N)
    (wf : ScatterDims.WF ⟨2, ![N, C]⟩ ⟨1, ![1]⟩ ⟨2, ![M, C]⟩ [0, 1] [] [0] 0)
    (idx : IVec ⟨1, ![1]⟩ w) (h0 : ∀ i, (idx i).toInt = 0) (r : Fin M) (c : Fin C) :
    (blockScatterDims N M C wf).resultIdx? (ix2 r c) idx = some (ix2 ⟨r.val, by have := r.isLt; omega⟩ c) := by
  rw [RowOps.resultIdx?_eq_some_iff]
  have hs0 : (blockScatterDims N M C wf).start (ix2 r c) idx 0 = 0 := by
    unfold ScatterDims.start
    rw [dif_pos (show (0 : Fin 2) ∈ (blockScatterDims N M C wf).scatterDimsToOperandDims from List.mem_singleton.mpr rfl)]
    exact h0 _
  have hs1 : (blockScatterDims N M C wf).start (ix2 r c) idx 1 = 0 := by
    unfold ScatterDims.start
    rw [dif_neg (show (1 : Fin 2) ∉ (blockScatterDims N M C wf).scatterDimsToOperandDims from
      (by decide : (1 : Fin 2) ∉ [(0 : Fin 2)]))]
  have hw0 : (blockScatterDims N M C wf).window (ix2 r c) 0 = r.val := by
    unfold ScatterDims.window
    rw [dif_pos (show (0 : Fin 2) ∈ (blockScatterDims N M C wf).sKept from by
      simp [ScatterDims.sKept, Shape.kept])]
    rfl
  have hw1 : (blockScatterDims N M C wf).window (ix2 r c) 1 = c.val := by
    unfold ScatterDims.window
    rw [dif_pos (show (1 : Fin 2) ∈ (blockScatterDims N M C wf).sKept from by
      simp [ScatterDims.sKept, Shape.kept])]
    rfl
  intro a
  match a with
  | ⟨0, _⟩ =>
    show (blockScatterDims N M C wf).start (ix2 r c) idx 0 + ((blockScatterDims N M C wf).window (ix2 r c) 0 : Int) = (r.val : Int)
    rw [hs0, hw0]; omega
  | ⟨1, _⟩ =>
    show (blockScatterDims N M C wf).start (ix2 r c) idx 1 + ((blockScatterDims N M C wf).window (ix2 r c) 1 : Int) = (c.val : Int)
    rw [hs1, hw1]; omega

/-- The row-preserving embedding of the window's indices into the table's. -/
def embed {N M C : Nat} (hMN : M ≤ N) (j : (⟨2, ![M, C]⟩ : Shape).Idx) : (⟨2, ![N, C]⟩ : Shape).Idx :=
  ix2 ⟨(j 0).val, by have := (j 0).isLt; show (j 0).val < N; have h : (⟨2, ![M, C]⟩ : Shape).size 0 = M := rfl; omega⟩ (j 1)

theorem embed_ix2 {N M C : Nat} (hMN : M ≤ N) (r : Fin M) (c : Fin C) :
    embed (N := N) hMN (ix2 r c) = ix2 ⟨r.val, by have := r.isLt; omega⟩ c := rfl

theorem embed_injective {N M C : Nat} (hMN : M ≤ N) : Function.Injective (embed (N := N) (M := M) (C := C) hMN) := by
  intro j j' h
  obtain ⟨r, c, rfl⟩ : ∃ (r : Fin M) (c : Fin C), j = ix2 r c := ⟨j 0, j 1, eq_ix2 j⟩
  obtain ⟨r', c', rfl⟩ : ∃ (r : Fin M) (c : Fin C), j' = ix2 r c := ⟨j' 0, j' 1, eq_ix2 j'⟩
  rw [embed_ix2, embed_ix2] at h
  have h0 := congrArg (fun f => (f 0).val) h
  have h1 := congrArg (fun f => (f 1).val) h
  have e0 : r = r' := Fin.ext h0
  have e1 : c = c' := Fin.ext h1
  rw [e0, e1]

/-- Below row `M` the overwritten table holds the window. -/
theorem blockScatter_lt {α : Type} {N M C w : Nat} (hMN : M ≤ N)
    (wf : ScatterDims.WF ⟨2, ![N, C]⟩ ⟨1, ![1]⟩ ⟨2, ![M, C]⟩ [0, 1] [] [0] 0)
    (x : (⟨2, ![N, C]⟩ : Shape).Idx → α) (idx : IVec ⟨1, ![1]⟩ w) (h0 : ∀ i, (idx i).toInt = 0)
    (upd : (⟨2, ![M, C]⟩ : Shape).Idx → α) (r : Fin M) (c : Fin C) :
    Host.scatter (blockScatterDims N M C wf) (fun _ b => b) x idx upd (ix2 ⟨r.val, by have := r.isLt; omega⟩ c)
      = upd (ix2 r c) := by
  have h : ∀ j, (blockScatterDims N M C wf).resultIdx? j idx = some (embed hMN j) := by
    intro j
    obtain ⟨r, c, rfl⟩ : ∃ (r : Fin M) (c : Fin C), j = ix2 r c := ⟨j 0, j 1, eq_ix2 j⟩
    rw [embed_ix2]
    exact blockScatter_resultIdx hMN wf idx h0 r c
  rw [← embed_ix2 hMN r c]
  exact Cert.LibScatterSet.scatter_set_at _ x idx upd (embed hMN) (embed_injective hMN) h (ix2 r c)

/-- From row `M` on the overwritten table is the table. -/
theorem blockScatter_ge {α : Type} {N M C w : Nat} (hMN : M ≤ N)
    (wf : ScatterDims.WF ⟨2, ![N, C]⟩ ⟨1, ![1]⟩ ⟨2, ![M, C]⟩ [0, 1] [] [0] 0)
    (x : (⟨2, ![N, C]⟩ : Shape).Idx → α) (idx : IVec ⟨1, ![1]⟩ w) (h0 : ∀ i, (idx i).toInt = 0)
    (upd : (⟨2, ![M, C]⟩ : Shape).Idx → α) (n : Fin N) (c : Fin C) (hn : M ≤ n.val) :
    Host.scatter (blockScatterDims N M C wf) (fun _ b => b) x idx upd (ix2 n c) = x (ix2 n c) := by
  have h : ∀ j, (blockScatterDims N M C wf).resultIdx? j idx = some (embed hMN j) := by
    intro j
    obtain ⟨r, c, rfl⟩ : ∃ (r : Fin M) (c : Fin C), j = ix2 r c := ⟨j 0, j 1, eq_ix2 j⟩
    rw [embed_ix2]
    exact blockScatter_resultIdx hMN wf idx h0 r c
  refine Cert.LibScatterSet.scatter_set_away _ x idx upd (embed hMN) h (ix2 n c) fun j hj => ?_
  obtain ⟨r, c', rfl⟩ : ∃ (r : Fin M) (c : Fin C), j = ix2 r c := ⟨j 0, j 1, eq_ix2 j⟩
  rw [embed_ix2] at hj
  have h0' := congrArg (fun f => (f 0).val) hj
  have : r.val = n.val := h0'
  have := r.isLt
  omega

end Cert.TailOps

end
-- ==== Proof.TailAgg.lean ====
/-
  One graph-convolution step on the first 196 nodes, read at a node and a feature, generic in the number of features.

  With every edge endpoint among the first 196 nodes, the rows of `y` gathered at the sources, weighted by the product
  of the normalising weights of the edge's two ends, and summed into the destinations' rows from zero, plus the self-loop
  term, plus the bias, then the positive part, is the specification's layer at that node: the gathers stay inside the
  table, and the segment sum over the 196 rows sees exactly the edges arriving at the node.
-/
import proofs.«149964_j22067541967300_2_alg».proof.Proof.TailOps
import proofs.«149964_j22067541967300_2_alg».proof.Proof.SpecArgs

noncomputable section

namespace Cert.TailAgg

open Idealize.ShloMosaic Idealize.ShloMosaic.ValueIdx Cert.LibGS Cert.Gcn Cert.TailOps

/-- The edges whose endpoints are the signed readings of two index vectors. -/
abbrev edges (srcA dstA : (⟨1, ![1404]⟩ : Shape).Idx → BitVec 32) : Edges :=
  ⟨fun e => (srcA (ix1 e)).toInt, fun e => (dstA (ix1 e)).toInt⟩

/-- The normalising weight gathered at an endpoint that lies among the first 196 nodes. -/
theorem dinvGather_apply
    (wf : GatherDims.WF ⟨1, ![25088]⟩ ⟨2, ![1404, 1]⟩ ⟨1, ![1404]⟩ [] [0] [] [0] [] 1 ![1])
    (dinvA : (⟨1, ![25088]⟩ : Shape).Idx → EReal) (D : ℕ → EReal)
    (hdinv : ∀ (n : ℕ) (hn : n < 25088), dinvA (ix1 ⟨n, hn⟩) = D n)
    (col : IVec ⟨2, ![1404, 1]⟩ 32) (a : (⟨1, ![1404]⟩ : Shape).Idx → BitVec 32)
    (hcol : ∀ e : Fin 1404, col (ix2 e 0) = a (ix1 e))
    (ha : ∀ e : Fin 1404, 0 ≤ (a (ix1 e)).toInt ∧ (a (ix1 e)).toInt < 196) (e : Fin 1404) :
    Host.gather (eltGatherDims 25088 1404 wf) dinvA col (ix1 e) = D (a (ix1 e)).toInt.toNat := by
  have h0 : 0 ≤ (col (ix2 e 0)).toInt := by rw [hcol]; exact (ha e).1
  have h1 : (col (ix2 e 0)).toInt < ((25088 : ℕ) : Int) := by rw [hcol]; have := (ha e).2; omega
  rw [eltGather_inrange (by decide) wf dinvA col e h0 h1, hdinv, hcol]

/-- The aggregation, self-loop term, bias and positive part at node `n`, feature `c`. -/
theorem agg_apply {C : ℕ}
    (wfG : GatherDims.WF ⟨2, ![196, C]⟩ ⟨2, ![1404, 1]⟩ ⟨2, ![1404, C]⟩ [1] [0] [] [0] [] 1 ![1, C])
    (wfS : ScatterDims.WF ⟨2, ![196, C]⟩ ⟨2, ![1404, 1]⟩ ⟨2, ![1404, C]⟩ [1] [0] [0] 1)
    (srcA dstA : (⟨1, ![1404]⟩ : Shape).Idx → BitVec 32)
    (hsrc : ∀ e : Fin 1404, 0 ≤ (srcA (ix1 e)).toInt ∧ (srcA (ix1 e)).toInt < 196)
    (y : (⟨2, ![196, C]⟩ : Shape).Idx → EReal) (Y : ℕ → Fin C → EReal)
    (hy : ∀ (r : ℕ) (hr : r < 196) (c : Fin C), y (ix2 ⟨r, hr⟩ c) = Y r c)
    (srcCol dstCol : IVec ⟨2, ![1404, 1]⟩ 32)
    (hsc : ∀ e : Fin 1404, srcCol (ix2 e 0) = srcA (ix1 e))
    (hdc : ∀ e : Fin 1404, dstCol (ix2 e 0) = dstA (ix1 e))
    (wt : (⟨2, ![1404, C]⟩ : Shape).Idx → EReal)
    (hwt : ∀ (e : Fin 1404) (c : Fin C), wt (ix2 e c)
      = dinv (edges srcA dstA) ((edges srcA dstA).src e).toNat * dinv (edges srcA dstA) ((edges srcA dstA).dst e).toNat)
    (z : (⟨2, ![196, C]⟩ : Shape).Idx → EReal) (hz : ∀ j, z j = 0)
    (sw : (⟨2, ![196, C]⟩ : Shape).Idx → EReal)
    (hsw : ∀ (r : Fin 196) (c : Fin C), sw (ix2 r c) = dinv (edges srcA dstA) r.val * dinv (edges srcA dstA) r.val)
    (bb : (⟨2, ![196, C]⟩ : Shape).Idx → EReal) (b : Fin C → EReal) (hbb : ∀ (r : Fin 196) (c : Fin C), bb (ix2 r c) = b c)
    (z' : (⟨2, ![196, C]⟩ : Shape).Idx → EReal) (hz' : ∀ j, z' j = 0)
    (n : Fin 196) (c : Fin C) :
    maximumf (F := Ideal) (φ := .f32)
        (addf (F := Ideal) (φ := .f32)
          (addf (F := Ideal) (φ := .f32)
            (Host.scatterAdd (F := Ideal) (φ := .f32) (rowScatterDims 196 1404 C wfS) z dstCol
              (mulf (F := Ideal) (φ := .f32) (Host.gather (rowGatherDims 196 1404 C wfG) y srcCol) wt))
            (mulf (F := Ideal) (φ := .f32) y sw))
          bb)
        z' (ix2 n c)
      = max (conv (edges srcA dstA) Y b n.val c) 0 := by
  show max (((Host.scatterAdd (F := Ideal) (φ := .f32) (rowScatterDims 196 1404 C wfS) z dstCol
      (mulf (F := Ideal) (φ := .f32) (Host.gather (rowGatherDims 196 1404 C wfG) y srcCol) wt) (ix2 n c))
      + (y (ix2 n c) * sw (ix2 n c))) + bb (ix2 n c)) (z' (ix2 n c)) = _
  rw [rowScatterAdd_apply, hz, hsw, hbb, hz', hy n.val n.isLt]
  unfold conv
  have hf : Finset.univ.filter (fun e : Fin 1404 => (dstCol (ix2 e 0)).toInt = (n.val : Int))
      = arriving (edges srcA dstA) n.val := by
    unfold arriving
    refine Finset.filter_congr fun e _ => ?_
    rw [hdc]
  rw [hf]
  have hsum : ∑ e ∈ arriving (edges srcA dstA) n.val,
        mulf (F := Ideal) (φ := .f32) (Host.gather (rowGatherDims 196 1404 C wfG) y srcCol) wt (ix2 e c)
      = ∑ e ∈ arriving (edges srcA dstA) n.val, Y ((edges srcA dstA).src e).toNat c
          * (dinv (edges srcA dstA) ((edges srcA dstA).src e).toNat * dinv (edges srcA dstA) ((edges srcA dstA).dst e).toNat) := by
    refine Finset.sum_congr rfl fun e _ => ?_
    show Host.gather (rowGatherDims 196 1404 C wfG) y srcCol (ix2 e c) * wt (ix2 e c) = _
    have h0 : 0 ≤ (srcCol (ix2 e 0)).toInt := by rw [hsc]; exact (hsrc e).1
    have h1 : (srcCol (ix2 e 0)).toInt < ((196 : ℕ) : Int) := by rw [hsc]; have := (hsrc e).2; omega
    rw [rowGather_inrange (by decide) wfG y srcCol e c h0 h1, hy, hwt, hsc]
  rw [hsum]

end Cert.TailAgg

end
-- ==== Proof.TailStart.lean ====
/-
  What the operations after the region start from, and the buffers they do not write.

  The line starts from contents `W` holding the flattened input `xf`, the two rows of the edge list (sources and
  destinations), the normalising weights of all nodes, the region's result `P`, and the four parameter arrays. Every edge
  endpoint lies among the first 196 nodes, and the stored weight of a node is the specification's.
-/
import proofs.«149964_j22067541967300_2_alg».proof.Proof.TailLine
import proofs.«149964_j22067541967300_2_alg».proof.Proof.TailAgg

set_option maxRecDepth 4000

noncomputable section

namespace Cert.KernelIdeal.Tail

open Idealize.ShloMosaic Idealize.ShloMosaic.StableHlo Idealize.ShloMosaic.ValueIdx
open Cert.KernelIdeal Cert.KernelIdeal.Gen Cert.Line Cert.CubePad.Line

open Cert.Gcn Cert.TailOps Cert.TailAgg Cert.LibGS

/-- What the line starts from (each buffer read at its tensor type). -/
structure Start (W : Valuation τ sig (Elt Ideal))
    (xf : S25088x2048.Idx → EReal) (srcA dstA : S1404.Idx → BitVec 32) (dinvA : S25088.Idx → EReal)
    (P : S25088x2048.Idx → EReal) (W1 : S2048x1024.Idx → EReal) (b1 : S1024.Idx → EReal)
    (W2 : S1024x2048.Idx → EReal) (b2 : S2048.Idx → EReal) : Prop where
  h_xf : t_v1.ofBuf (W (Proc.devRef .tc main_call0_v1)) = xf
  h_src : t_v3.ofBuf (W (Proc.devRef .tc main_call0_v3)) = srcA
  h_dst : t_v5.ofBuf (W (Proc.devRef .tc main_call0_v5)) = dstA
  h_dinv : t_v15.ofBuf (W (Proc.devRef .tc main_call0_v15)) = dinvA
  h_P : t_v20.ofBuf (W (Proc.devRef .tc main_call0_v20)) = P
  h_W1 : t_m_arg2.ofBuf (W (Proc.devRef .tc main_arg2)) = W1
  h_b1 : t_m_arg3.ofBuf (W (Proc.devRef .tc main_arg3)) = b1
  h_W2 : t_m_arg4.ofBuf (W (Proc.devRef .tc main_arg4)) = W2
  h_b2 : t_m_arg5.ofBuf (W (Proc.devRef .tc main_arg5)) = b2
  src_range : ∀ e : Fin 1404, 0 ≤ (srcA (ix1 e)).toInt ∧ (srcA (ix1 e)).toInt < 196
  dst_range : ∀ e : Fin 1404, 0 ≤ (dstA (ix1 e)).toInt ∧ (dstA (ix1 e)).toInt < 196
  dinv_eq : ∀ n : Fin 25088, dinvA (ix1 n) = dinv (edges srcA dstA) n.val

/-- An index vector whose entries are all in range has no negative entry. -/
theorem idx_nonneg {a : S1404.Idx → BitVec 32} (h : ∀ e : Fin 1404, 0 ≤ (a (ix1 e)).toInt ∧ (a (ix1 e)).toInt < 196) :
    ∀ i : S1404.Idx, 0 ≤ (a i).toInt := fun i => by
  obtain ⟨e, rfl⟩ : ∃ e : Fin 1404, i = ix1 e := ⟨i 0, eq_ix1 i⟩
  exact (h e).1

section
variable {W : Valuation τ sig (Elt Ideal)}
  {xf : S25088x2048.Idx → EReal} {srcA dstA : S1404.Idx → BitVec 32} {dinvA : S25088.Idx → EReal}
  {P : S25088x2048.Idx → EReal} {W1 : S2048x1024.Idx → EReal} {b1 : S1024.Idx → EReal}
  {W2 : S1024x2048.Idx → EReal} {b2 : S2048.Idx → EReal}
  (S : Start W xf srcA dstA dinvA P W1 b1 W2 b2)
include S

/-! The buffers the line reads and never writes keep what they start with. -/
theorem a_v1 : (Rd W t_v1) = xf := by
  unfold Rd; rw [tail_writes.arg W (r := main_call0_v1) (by decide)]; exact S.h_xf
theorem a_v3 : (Rd W t_v3) = srcA := by
  unfold Rd; rw [tail_writes.arg W (r := main_call0_v3) (by decide)]; exact S.h_src
theorem a_v5 : (Rd W t_v5) = dstA := by
  unfold Rd; rw [tail_writes.arg W (r := main_call0_v5) (by decide)]; exact S.h_dst
theorem a_v15 : (Rd W t_v15) = dinvA := by
  unfold Rd; rw [tail_writes.arg W (r := main_call0_v15) (by decide)]; exact S.h_dinv
theorem a_v20 : (Rd W t_v20) = P := by
  unfold Rd; rw [tail_writes.arg W (r := main_call0_v20) (by decide)]; exact S.h_P
theorem a_arg2 : (Rd W t_m_arg2) = W1 := by
  unfold Rd; rw [tail_writes.arg W (r := main_arg2) (by decide)]; exact S.h_W1
theorem a_arg3 : (Rd W t_m_arg3) = b1 := by
  unfold Rd; rw [tail_writes.arg W (r := main_arg3) (by decide)]; exact S.h_b1
theorem a_arg4 : (Rd W t_m_arg4) = W2 := by
  unfold Rd; rw [tail_writes.arg W (r := main_arg4) (by decide)]; exact S.h_W2
theorem a_arg5 : (Rd W t_m_arg5) = b2 := by
  unfold Rd; rw [tail_writes.arg W (r := main_arg5) (by decide)]; exact S.h_b2

end

end Cert.KernelIdeal.Tail

end
-- ==== Proof.TailStagesA.lean ====
/-
  The host operations that follow the region, read one at a time: operations 0 to 25 of the line.

  One equation per operation: the buffer it writes ends at the operation's function of what its operands' buffers end at.
-/
import proofs.«149964_j22067541967300_2_alg».proof.Proof.TailLine

set_option maxRecDepth 4000

noncomputable section

namespace Cert.KernelIdeal.Tail

open Idealize.ShloMosaic Idealize.ShloMosaic.StableHlo Idealize.ShloMosaic.ValueIdx
open Cert.KernelIdeal Cert.KernelIdeal.Gen Cert.Line Cert.CubePad.Line

variable (W : Valuation τ sig (Elt Ideal))

theorem st_v21 : (Rd W t_v21) = (extractStridedSlice S196x2048 ![0, 0] · slices_S25088x2048_S196x2048_0_0) (Rd W t_v1) := by
  unfold Rd
  rw [Cert.CubePad.Line.Writes.unary_at tail_writes W 0 _ _ _ _ _ rfl (by decide) (by decide)]
  exact Cert.LibTypedRefCasts.ofBuf_toBuf _ _

theorem st_v22 : (Rd W t_v22) = (fun l r => Host.dotGeneral (F := Ideal) (φ₁ := .f32) (φ₂ := .f32) dot_S196x2048_S2048x1024_S196x1024_1_0_0_1_n_n none l r) (Rd W t_v21) (Rd W t_m_arg2) := by
  unfold Rd
  rw [Cert.Line.binary_at tail_writes W 1 _ _ _ _ _ _ _ rfl (by decide) (by decide) (by decide)]
  exact Cert.LibTypedRefCasts.ofBuf_toBuf _ _

theorem st_c_2 : (Rd W t_c_2) = (constantI S_ 32 0#32) := by
  unfold Rd
  rw [Cert.Line.nullary_at tail_writes W 2 _ _ _ rfl (by decide)]
  exact Cert.LibTypedRefCasts.ofBuf_toBuf _ _

theorem st_v23 : (Rd W t_v23) = (broadcastInDim S1404 ![] bcast_S_S1404) (Rd W t_c_2) := by
  unfold Rd
  rw [Cert.CubePad.Line.Writes.unary_at tail_writes W 3 _ _ _ _ _ rfl (by decide) (by decide)]
  exact Cert.LibTypedRefCasts.ofBuf_toBuf _ _

theorem st_v24 : (Rd W t_v24) = (cmpi .slt) (Rd W t_v3) (Rd W t_v23) := by
  unfold Rd
  rw [Cert.Line.binary_at tail_writes W 4 _ _ _ _ _ _ _ rfl (by decide) (by decide) (by decide)]
  exact Cert.LibTypedRefCasts.ofBuf_toBuf _ _

theorem st_c_3 : (Rd W t_c_3) = (constantI S_ 32 25088#32) := by
  unfold Rd
  rw [Cert.Line.nullary_at tail_writes W 5 _ _ _ rfl (by decide)]
  exact Cert.LibTypedRefCasts.ofBuf_toBuf _ _

theorem st_v25 : (Rd W t_v25) = (broadcastInDim S1404 ![] bcast_S_S1404) (Rd W t_c_3) := by
  unfold Rd
  rw [Cert.CubePad.Line.Writes.unary_at tail_writes W 6 _ _ _ _ _ rfl (by decide) (by decide)]
  exact Cert.LibTypedRefCasts.ofBuf_toBuf _ _

theorem st_v26 : (Rd W t_v26) = (addi) (Rd W t_v3) (Rd W t_v25) := by
  unfold Rd
  rw [Cert.Line.binary_at tail_writes W 7 _ _ _ _ _ _ _ rfl (by decide) (by decide) (by decide)]
  exact Cert.LibTypedRefCasts.ofBuf_toBuf _ _

theorem st_v27 : (Rd W t_v27) = (select (α := BitVec 32)) (Rd W t_v24) (Rd W t_v26) (Rd W t_v3) := by
  unfold Rd
  rw [Cert.Line.ternary_at tail_writes W 8 _ _ _ _ _ _ _ _ _ rfl (by decide) (by decide) (by decide) (by decide)]
  exact Cert.LibTypedRefCasts.ofBuf_toBuf _ _

theorem st_v28 : (Rd W t_v28) = (broadcastInDim S1404x1 ![0] bcast_S1404_S1404x1_0) (Rd W t_v27) := by
  unfold Rd
  rw [Cert.CubePad.Line.Writes.unary_at tail_writes W 9 _ _ _ _ _ rfl (by decide) (by decide)]
  exact Cert.LibTypedRefCasts.ofBuf_toBuf _ _

theorem st_v29 : (Rd W t_v29) = (fun x i => Host.gather gather_S25088_S1404x1_S1404_n_0_n_n_0_1_1 x i) (Rd W t_v15) (Rd W t_v28) := by
  unfold Rd
  rw [Cert.Line.binary_at tail_writes W 10 _ _ _ _ _ _ _ rfl (by decide) (by decide) (by decide)]
  exact Cert.LibTypedRefCasts.ofBuf_toBuf _ _

theorem st_c_4 : (Rd W t_c_4) = (constantI S_ 32 0#32) := by
  unfold Rd
  rw [Cert.Line.nullary_at tail_writes W 11 _ _ _ rfl (by decide)]
  exact Cert.LibTypedRefCasts.ofBuf_toBuf _ _

theorem st_v30 : (Rd W t_v30) = (broadcastInDim S1404 ![] bcast_S_S1404) (Rd W t_c_4) := by
  unfold Rd
  rw [Cert.CubePad.Line.Writes.unary_at tail_writes W 12 _ _ _ _ _ rfl (by decide) (by decide)]
  exact Cert.LibTypedRefCasts.ofBuf_toBuf _ _

theorem st_v31 : (Rd W t_v31) = (cmpi .slt) (Rd W t_v5) (Rd W t_v30) := by
  unfold Rd
  rw [Cert.Line.binary_at tail_writes W 13 _ _ _ _ _ _ _ rfl (by decide) (by decide) (by decide)]
  exact Cert.LibTypedRefCasts.ofBuf_toBuf _ _

theorem st_c_5 : (Rd W t_c_5) = (constantI S_ 32 25088#32) := by
  unfold Rd
  rw [Cert.Line.nullary_at tail_writes W 14 _ _ _ rfl (by decide)]
  exact Cert.LibTypedRefCasts.ofBuf_toBuf _ _

theorem st_v32 : (Rd W t_v32) = (broadcastInDim S1404 ![] bcast_S_S1404) (Rd W t_c_5) := by
  unfold Rd
  rw [Cert.CubePad.Line.Writes.unary_at tail_writes W 15 _ _ _ _ _ rfl (by decide) (by decide)]
  exact Cert.LibTypedRefCasts.ofBuf_toBuf _ _

theorem st_v33 : (Rd W t_v33) = (addi) (Rd W t_v5) (Rd W t_v32) := by
  unfold Rd
  rw [Cert.Line.binary_at tail_writes W 16 _ _ _ _ _ _ _ rfl (by decide) (by decide) (by decide)]
  exact Cert.LibTypedRefCasts.ofBuf_toBuf _ _

theorem st_v34 : (Rd W t_v34) = (select (α := BitVec 32)) (Rd W t_v31) (Rd W t_v33) (Rd W t_v5) := by
  unfold Rd
  rw [Cert.Line.ternary_at tail_writes W 17 _ _ _ _ _ _ _ _ _ rfl (by decide) (by decide) (by decide) (by decide)]
  exact Cert.LibTypedRefCasts.ofBuf_toBuf _ _

theorem st_v35 : (Rd W t_v35) = (broadcastInDim S1404x1 ![0] bcast_S1404_S1404x1_0) (Rd W t_v34) := by
  unfold Rd
  rw [Cert.CubePad.Line.Writes.unary_at tail_writes W 18 _ _ _ _ _ rfl (by decide) (by decide)]
  exact Cert.LibTypedRefCasts.ofBuf_toBuf _ _

theorem st_v36 : (Rd W t_v36) = (fun x i => Host.gather gather_S25088_S1404x1_S1404_n_0_n_n_0_1_1 x i) (Rd W t_v15) (Rd W t_v35) := by
  unfold Rd
  rw [Cert.Line.binary_at tail_writes W 19 _ _ _ _ _ _ _ rfl (by decide) (by decide) (by decide)]
  exact Cert.LibTypedRefCasts.ofBuf_toBuf _ _

theorem st_v37 : (Rd W t_v37) = (mulf (F := Ideal) (φ := .f32)) (Rd W t_v29) (Rd W t_v36) := by
  unfold Rd
  rw [Cert.Line.binary_at tail_writes W 20 _ _ _ _ _ _ _ rfl (by decide) (by decide) (by decide)]
  exact Cert.LibTypedRefCasts.ofBuf_toBuf _ _

theorem st_v38 : (Rd W t_v38) = (broadcastInDim S1404x1 ![0] bcast_S1404_S1404x1_0) (Rd W t_v37) := by
  unfold Rd
  rw [Cert.CubePad.Line.Writes.unary_at tail_writes W 21 _ _ _ _ _ rfl (by decide) (by decide)]
  exact Cert.LibTypedRefCasts.ofBuf_toBuf _ _

theorem st_c_6 : (Rd W t_c_6) = (constantI S_ 32 0#32) := by
  unfold Rd
  rw [Cert.Line.nullary_at tail_writes W 22 _ _ _ rfl (by decide)]
  exact Cert.LibTypedRefCasts.ofBuf_toBuf _ _

theorem st_v39 : (Rd W t_v39) = (broadcastInDim S1404 ![] bcast_S_S1404) (Rd W t_c_6) := by
  unfold Rd
  rw [Cert.CubePad.Line.Writes.unary_at tail_writes W 23 _ _ _ _ _ rfl (by decide) (by decide)]
  exact Cert.LibTypedRefCasts.ofBuf_toBuf _ _

theorem st_v40 : (Rd W t_v40) = (cmpi .slt) (Rd W t_v3) (Rd W t_v39) := by
  unfold Rd
  rw [Cert.Line.binary_at tail_writes W 24 _ _ _ _ _ _ _ rfl (by decide) (by decide) (by decide)]
  exact Cert.LibTypedRefCasts.ofBuf_toBuf _ _

theorem st_c_7 : (Rd W t_c_7) = (constantI S_ 32 196#32) := by
  unfold Rd
  rw [Cert.Line.nullary_at tail_writes W 25 _ _ _ rfl (by decide)]
  exact Cert.LibTypedRefCasts.ofBuf_toBuf _ _

end Cert.KernelIdeal.Tail

end
-- ==== Proof.TailStagesB.lean ====
/-
  The host operations that follow the region, read one at a time: operations 26 to 50 of the line.

  One equation per operation: the buffer it writes ends at the operation's function of what its operands' buffers end at.
-/
import proofs.«149964_j22067541967300_2_alg».proof.Proof.TailLine

set_option maxRecDepth 4000

noncomputable section

namespace Cert.KernelIdeal.Tail

open Idealize.ShloMosaic Idealize.ShloMosaic.StableHlo Idealize.ShloMosaic.ValueIdx
open Cert.KernelIdeal Cert.KernelIdeal.Gen Cert.Line Cert.CubePad.Line

variable (W : Valuation τ sig (Elt Ideal))

theorem st_v41 : (Rd W t_v41) = (broadcastInDim S1404 ![] bcast_S_S1404) (Rd W t_c_7) := by
  unfold Rd
  rw [Cert.CubePad.Line.Writes.unary_at tail_writes W 26 _ _ _ _ _ rfl (by decide) (by decide)]
  exact Cert.LibTypedRefCasts.ofBuf_toBuf _ _

theorem st_v42 : (Rd W t_v42) = (addi) (Rd W t_v3) (Rd W t_v41) := by
  unfold Rd
  rw [Cert.Line.binary_at tail_writes W 27 _ _ _ _ _ _ _ rfl (by decide) (by decide) (by decide)]
  exact Cert.LibTypedRefCasts.ofBuf_toBuf _ _

theorem st_v43 : (Rd W t_v43) = (select (α := BitVec 32)) (Rd W t_v40) (Rd W t_v42) (Rd W t_v3) := by
  unfold Rd
  rw [Cert.Line.ternary_at tail_writes W 28 _ _ _ _ _ _ _ _ _ rfl (by decide) (by decide) (by decide) (by decide)]
  exact Cert.LibTypedRefCasts.ofBuf_toBuf _ _

theorem st_v44 : (Rd W t_v44) = (broadcastInDim S1404x1 ![0] bcast_S1404_S1404x1_0) (Rd W t_v43) := by
  unfold Rd
  rw [Cert.CubePad.Line.Writes.unary_at tail_writes W 29 _ _ _ _ _ rfl (by decide) (by decide)]
  exact Cert.LibTypedRefCasts.ofBuf_toBuf _ _

theorem st_v45 : (Rd W t_v45) = (fun x i => Host.gather gather_S196x1024_S1404x1_S1404x1024_1_0_n_n_0_1_11024 x i) (Rd W t_v22) (Rd W t_v44) := by
  unfold Rd
  rw [Cert.Line.binary_at tail_writes W 30 _ _ _ _ _ _ _ rfl (by decide) (by decide) (by decide)]
  exact Cert.LibTypedRefCasts.ofBuf_toBuf _ _

theorem st_v46 : (Rd W t_v46) = (broadcastInDim S1404x1024 ![0, 1] bcast_S1404x1_S1404x1024_0_1) (Rd W t_v38) := by
  unfold Rd
  rw [Cert.CubePad.Line.Writes.unary_at tail_writes W 31 _ _ _ _ _ rfl (by decide) (by decide)]
  exact Cert.LibTypedRefCasts.ofBuf_toBuf _ _

theorem st_v47 : (Rd W t_v47) = (mulf (F := Ideal) (φ := .f32)) (Rd W t_v45) (Rd W t_v46) := by
  unfold Rd
  rw [Cert.Line.binary_at tail_writes W 32 _ _ _ _ _ _ _ rfl (by decide) (by decide) (by decide)]
  exact Cert.LibTypedRefCasts.ofBuf_toBuf _ _

theorem st_cst_8 : (Rd W t_cst_8) = (constant (F := Ideal) S_ .f32 0x00000000#32) := by
  unfold Rd
  rw [Cert.Line.nullary_at tail_writes W 33 _ _ _ rfl (by decide)]
  exact Cert.LibTypedRefCasts.ofBuf_toBuf _ _

theorem st_v48 : (Rd W t_v48) = (broadcastInDim S196x1024 ![] bcast_S_S196x1024) (Rd W t_cst_8) := by
  unfold Rd
  rw [Cert.CubePad.Line.Writes.unary_at tail_writes W 34 _ _ _ _ _ rfl (by decide) (by decide)]
  exact Cert.LibTypedRefCasts.ofBuf_toBuf _ _

theorem st_v49 : (Rd W t_v49) = (broadcastInDim S1404x1 ![0] bcast_S1404_S1404x1_0) (Rd W t_v5) := by
  unfold Rd
  rw [Cert.CubePad.Line.Writes.unary_at tail_writes W 35 _ _ _ _ _ rfl (by decide) (by decide)]
  exact Cert.LibTypedRefCasts.ofBuf_toBuf _ _

theorem st_v50 : (Rd W t_v50) = (fun x i u => Host.scatterAdd (F := Ideal) (φ := .f32) scatter_S196x1024_S1404x1_S1404x1024_1_0_0_1 x i u) (Rd W t_v48) (Rd W t_v49) (Rd W t_v47) := by
  unfold Rd
  rw [Cert.Line.ternary_at tail_writes W 36 _ _ _ _ _ _ _ _ _ rfl (by decide) (by decide) (by decide) (by decide)]
  exact Cert.LibTypedRefCasts.ofBuf_toBuf _ _

theorem st_v51 : (Rd W t_v51) = (extractStridedSlice S196 ![0] · slices_S25088_S196_0) (Rd W t_v15) := by
  unfold Rd
  rw [Cert.CubePad.Line.Writes.unary_at tail_writes W 37 _ _ _ _ _ rfl (by decide) (by decide)]
  exact Cert.LibTypedRefCasts.ofBuf_toBuf _ _

theorem st_v52 : (Rd W t_v52) = (extractStridedSlice S196 ![0] · slices_S25088_S196_0) (Rd W t_v15) := by
  unfold Rd
  rw [Cert.CubePad.Line.Writes.unary_at tail_writes W 38 _ _ _ _ _ rfl (by decide) (by decide)]
  exact Cert.LibTypedRefCasts.ofBuf_toBuf _ _

theorem st_v53 : (Rd W t_v53) = (mulf (F := Ideal) (φ := .f32)) (Rd W t_v51) (Rd W t_v52) := by
  unfold Rd
  rw [Cert.Line.binary_at tail_writes W 39 _ _ _ _ _ _ _ rfl (by decide) (by decide) (by decide)]
  exact Cert.LibTypedRefCasts.ofBuf_toBuf _ _

theorem st_v54 : (Rd W t_v54) = (broadcastInDim S196x1 ![0] bcast_S196_S196x1_0) (Rd W t_v53) := by
  unfold Rd
  rw [Cert.CubePad.Line.Writes.unary_at tail_writes W 40 _ _ _ _ _ rfl (by decide) (by decide)]
  exact Cert.LibTypedRefCasts.ofBuf_toBuf _ _

theorem st_v55 : (Rd W t_v55) = (broadcastInDim S196x1024 ![0, 1] bcast_S196x1_S196x1024_0_1) (Rd W t_v54) := by
  unfold Rd
  rw [Cert.CubePad.Line.Writes.unary_at tail_writes W 41 _ _ _ _ _ rfl (by decide) (by decide)]
  exact Cert.LibTypedRefCasts.ofBuf_toBuf _ _

theorem st_v56 : (Rd W t_v56) = (mulf (F := Ideal) (φ := .f32)) (Rd W t_v22) (Rd W t_v55) := by
  unfold Rd
  rw [Cert.Line.binary_at tail_writes W 42 _ _ _ _ _ _ _ rfl (by decide) (by decide) (by decide)]
  exact Cert.LibTypedRefCasts.ofBuf_toBuf _ _

theorem st_v57 : (Rd W t_v57) = (addf (F := Ideal) (φ := .f32)) (Rd W t_v50) (Rd W t_v56) := by
  unfold Rd
  rw [Cert.Line.binary_at tail_writes W 43 _ _ _ _ _ _ _ rfl (by decide) (by decide) (by decide)]
  exact Cert.LibTypedRefCasts.ofBuf_toBuf _ _

theorem st_v58 : (Rd W t_v58) = (broadcastInDim S1x1024 ![1] bcast_S1024_S1x1024_1) (Rd W t_m_arg3) := by
  unfold Rd
  rw [Cert.CubePad.Line.Writes.unary_at tail_writes W 44 _ _ _ _ _ rfl (by decide) (by decide)]
  exact Cert.LibTypedRefCasts.ofBuf_toBuf _ _

theorem st_v59 : (Rd W t_v59) = (broadcastInDim S196x1024 ![0, 1] bcast_S1x1024_S196x1024_0_1) (Rd W t_v58) := by
  unfold Rd
  rw [Cert.CubePad.Line.Writes.unary_at tail_writes W 45 _ _ _ _ _ rfl (by decide) (by decide)]
  exact Cert.LibTypedRefCasts.ofBuf_toBuf _ _

theorem st_v60 : (Rd W t_v60) = (addf (F := Ideal) (φ := .f32)) (Rd W t_v57) (Rd W t_v59) := by
  unfold Rd
  rw [Cert.Line.binary_at tail_writes W 46 _ _ _ _ _ _ _ rfl (by decide) (by decide) (by decide)]
  exact Cert.LibTypedRefCasts.ofBuf_toBuf _ _

theorem st_call0_cst : (Rd W t_call0_cst) = (constant (F := Ideal) S_ .f32 0x00000000#32) := by
  unfold Rd
  rw [Cert.Line.nullary_at tail_writes W 47 _ _ _ rfl (by decide)]
  exact Cert.LibTypedRefCasts.ofBuf_toBuf _ _

theorem st_call0_v0 : (Rd W t_call0_v0) = (broadcastInDim S196x1024 ![] bcast_S_S196x1024) (Rd W t_call0_cst) := by
  unfold Rd
  rw [Cert.CubePad.Line.Writes.unary_at tail_writes W 48 _ _ _ _ _ rfl (by decide) (by decide)]
  exact Cert.LibTypedRefCasts.ofBuf_toBuf _ _

theorem st_v61 : (Rd W t_v61) = (maximumf (F := Ideal) (φ := .f32)) (Rd W t_v60) (Rd W t_call0_v0) := by
  unfold Rd
  rw [Cert.Line.binary_at tail_writes W 49 _ _ _ _ _ _ _ rfl (by decide) (by decide) (by decide)]
  exact Cert.LibTypedRefCasts.ofBuf_toBuf _ _

theorem st_v62 : (Rd W t_v62) = (fun l r => Host.dotGeneral (F := Ideal) (φ₁ := .f32) (φ₂ := .f32) dot_S196x1024_S1024x2048_S196x2048_1_0_0_1_n_n none l r) (Rd W t_v61) (Rd W t_m_arg4) := by
  unfold Rd
  rw [Cert.Line.binary_at tail_writes W 50 _ _ _ _ _ _ _ rfl (by decide) (by decide) (by decide)]
  exact Cert.LibTypedRefCasts.ofBuf_toBuf _ _

end Cert.KernelIdeal.Tail

end
-- ==== Proof.LibLayoutCols.lean ====
/-
  Layout operations of a host program read at one index, for arrays of rank one and two given by coordinates.

  A broadcast, a slice of columns, a reversal of the columns, a concatenation of columns and a gather of whole columns
  each read, at the entry (n, k) of their result, one entry of one operand. The lemmas name that entry by its
  coordinates, so that a value at an index is rewritten operation by operation down to the arrays the program starts from.
-/
import Idealize.ShloMosaic.Lib.Pipeline.Value
import Idealize.ShloMosaic.Lib.ValueIdx

noncomputable section

namespace Cert.RefLayout

open Idealize.ShloMosaic Idealize.ShloMosaic.ValueIdx

variable {α : Type}

/-! ## Broadcasts -/

/-- A scalar broadcast to any shape reads the scalar at every index. -/
theorem bcast0_apply (t : Shape) (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A length-N array made the one column of an [N, 1] array: entry (n, 0) is entry n. -/
theorem bcast_col_apply {N : Nat} (h : (⟨1, ![N]⟩ : Shape).BroadcastsInDim ⟨2, ![N, 1]⟩ ![0])
    (x : (⟨1, ![N]⟩ : Shape).Idx → α) (n : Fin N) (k : Fin 1) :
    broadcastInDim ⟨2, ![N, 1]⟩ ![0] h x (ix2 n k) = x (ix1 n) :=
  broadcastInDim_apply _ h x _ (ix1 n) fun a => match a with
    | ⟨0, _⟩ => by
      show n.val = if N = 1 then 0 else n.val
      split
      · have := n.isLt; omega
      · rfl

/-- A length-W array made the one row of a [1, W] array: entry (0, k) is entry k. -/
theorem bcast_row_apply {W : Nat} (h : (⟨1, ![W]⟩ : Shape).BroadcastsInDim ⟨2, ![1, W]⟩ ![1])
    (x : (⟨1, ![W]⟩ : Shape).Idx → α) (n : Fin 1) (k : Fin W) :
    broadcastInDim ⟨2, ![1, W]⟩ ![1] h x (ix2 n k) = x (ix1 k) :=
  broadcastInDim_apply _ h x _ (ix1 k) fun a => match a with
    | ⟨0, _⟩ => by
      show k.val = if W = 1 then 0 else k.val
      split
      · have := k.isLt; omega
      · rfl

/-- A [1, W] array repeated down N rows: entry (n, k) is entry (0, k). -/
theorem bcast_rows_apply {N W : Nat} (h : (⟨2, ![1, W]⟩ : Shape).BroadcastsInDim ⟨2, ![N, W]⟩ ![0, 1])
    (x : (⟨2, ![1, W]⟩ : Shape).Idx → α) (n : Fin N) (k : Fin W) :
    broadcastInDim ⟨2, ![N, W]⟩ ![0, 1] h x (ix2 n k) = x (ix2 0 k) :=
  broadcastInDim_apply _ h x _ (ix2 0 k) fun a => match a with
    | ⟨0, _⟩ => rfl
    | ⟨1, _⟩ => by
      show k.val = if W = 1 then 0 else k.val
      split
      · have := k.isLt; omega
      · rfl

/-- An [N, 1] array repeated across W columns: entry (n, k) is entry (n, 0). -/
theorem bcast_cols_apply {N W : Nat} (h : (⟨2, ![N, 1]⟩ : Shape).BroadcastsInDim ⟨2, ![N, W]⟩ ![0, 1])
    (x : (⟨2, ![N, 1]⟩ : Shape).Idx → α) (n : Fin N) (k : Fin W) :
    broadcastInDim ⟨2, ![N, W]⟩ ![0, 1] h x (ix2 n k) = x (ix2 n 0) :=
  broadcastInDim_apply _ h x _ (ix2 n 0) fun a => match a with
    | ⟨0, _⟩ => by
      show n.val = if N = 1 then 0 else n.val
      split
      · have := n.isLt; omega
      · rfl
    | ⟨1, _⟩ => rfl

/-! ## A slice of columns, and the columns reversed -/

/-- Columns o, …, o + W - 1 of an [N, M] array: entry (n, k) is entry (n, o + k). -/
theorem slice_cols_apply {N M W : Nat} (o : Nat) (h : (⟨2, ![N, M]⟩ : Shape).Slices ![0, o] ⟨2, ![N, W]⟩)
    (x : (⟨2, ![N, M]⟩ : Shape).Idx → α) (n : Fin N) (k : Fin W) (hk : o + k.val < M) :
    extractStridedSlice ⟨2, ![N, W]⟩ ![0, o] x h (ix2 n k) = x (ix2 n ⟨o + k.val, hk⟩) :=
  extractStridedSlice_apply _ x h _ _ fun a => match a with
    | ⟨0, _⟩ => by show n.val = 0 + n.val; omega
    | ⟨1, _⟩ => rfl

/-- The columns of an [N, W] array in the opposite order: entry (n, k) is entry (n, W - 1 - k). -/
theorem reverse_cols_apply {N W : Nat} (x : (⟨2, ![N, W]⟩ : Shape).Idx → α) (n : Fin N) (k : Fin W) :
    Host.reverse (s := ⟨2, ![N, W]⟩) [1] x (ix2 n k) = x (ix2 n k.rev) := by
  unfold Host.reverse
  refine congrArg x (funext fun a => ?_)
  match a with
  | ⟨0, _⟩ => rfl
  | ⟨1, _⟩ => rfl

/-! ## Columns laid side by side -/

/-- W arrays of shape [N, 1] concatenated along the columns: entry (n, k) is entry (n, 0) of the k-th. -/
theorem cat_cols_apply {N W : Nat} (f : Fin W → ((⟨2, ![N, 1]⟩ : Shape).Idx → α))
    (h : Shape.Concatenates ((List.ofFn fun c : Fin W => (⟨⟨2, ![N, 1]⟩, f c⟩ : (s : Shape) × (s.Idx → α))).map (·.1)) ⟨2, ![N, W]⟩ 1)
    (n : Fin N) (k : Fin W) :
    concatenate ⟨2, ![N, W]⟩ 1 (List.ofFn fun c : Fin W => (⟨⟨2, ![N, 1]⟩, f c⟩ : (s : Shape) × (s.Idx → α))) h (ix2 n k)
      = f k (ix2 n 0) :=
  concatenate_ofFn_unit_apply (t := ⟨2, ![N, W]⟩) (s₁ := ⟨2, ![N, 1]⟩) 1 f h rfl rfl (ix2 n k) k rfl (ix2 n 0)
    fun b hb => match b with
      | ⟨0, _⟩ => rfl
      | ⟨1, _⟩ => absurd rfl hb

/-- Two to nine columns side by side, as literal lists: entry (n, k) is entry (n, 0) of the k-th column. -/
theorem cat2_apply {N : Nat} (c0 c1 : (⟨2, ![N, 1]⟩ : Shape).Idx → α) (h) (n : Fin N) (k : Fin 2) :
    concatenate ⟨2, ![N, 2]⟩ 1 [⟨⟨2, ![N, 1]⟩, c0⟩, ⟨⟨2, ![N, 1]⟩, c1⟩] h (ix2 n k) = ![c0, c1] k (ix2 n 0) :=
  cat_cols_apply ![c0, c1] h n k

theorem cat3_apply {N : Nat} (c0 c1 c2 : (⟨2, ![N, 1]⟩ : Shape).Idx → α) (h) (n : Fin N) (k : Fin 3) :
    concatenate ⟨2, ![N, 3]⟩ 1 [⟨⟨2, ![N, 1]⟩, c0⟩, ⟨⟨2, ![N, 1]⟩, c1⟩, ⟨⟨2, ![N, 1]⟩, c2⟩] h (ix2 n k) = ![c0, c1, c2] k (ix2 n 0) :=
  cat_cols_apply ![c0, c1, c2] h n k

theorem cat4_apply {N : Nat} (c0 c1 c2 c3 : (⟨2, ![N, 1]⟩ : Shape).Idx → α) (h) (n : Fin N) (k : Fin 4) :
    concatenate ⟨2, ![N, 4]⟩ 1 [⟨⟨2, ![N, 1]⟩, c0⟩, ⟨⟨2, ![N, 1]⟩, c1⟩, ⟨⟨2, ![N, 1]⟩, c2⟩, ⟨⟨2, ![N, 1]⟩, c3⟩] h (ix2 n k) = ![c0, c1, c2, c3] k (ix2 n 0) :=
  cat_cols_apply ![c0, c1, c2, c3] h n k

theorem cat5_apply {N : Nat} (c0 c1 c2 c3 c4 : (⟨2, ![N, 1]⟩ : Shape).Idx → α) (h) (n : Fin N) (k : Fin 5) :
    concatenate ⟨2, ![N, 5]⟩ 1 [⟨⟨2, ![N, 1]⟩, c0⟩, ⟨⟨2, ![N, 1]⟩, c1⟩, ⟨⟨2, ![N, 1]⟩, c2⟩, ⟨⟨2, ![N, 1]⟩, c3⟩, ⟨⟨2, ![N, 1]⟩, c4⟩] h (ix2 n k) = ![c0, c1, c2, c3, c4] k (ix2 n 0) :=
  cat_cols_apply ![c0, c1, c2, c3, c4] h n k

theorem cat6_apply {N : Nat} (c0 c1 c2 c3 c4 c5 : (⟨2, ![N, 1]⟩ : Shape).Idx → α) (h) (n : Fin N) (k : Fin 6) :
    concatenate ⟨2, ![N, 6]⟩ 1 [⟨⟨2, ![N, 1]⟩, c0⟩, ⟨⟨2, ![N, 1]⟩, c1⟩, ⟨⟨2, ![N, 1]⟩, c2⟩, ⟨⟨2, ![N, 1]⟩, c3⟩, ⟨⟨2, ![N, 1]⟩, c4⟩, ⟨⟨2, ![N, 1]⟩, c5⟩] h (ix2 n k) = ![c0, c1, c2, c3, c4, c5] k (ix2 n 0) :=
  cat_cols_apply ![c0, c1, c2, c3, c4, c5] h n k

theorem cat7_apply {N : Nat} (c0 c1 c2 c3 c4 c5 c6 : (⟨2, ![N, 1]⟩ : Shape).Idx → α) (h) (n : Fin N) (k : Fin 7) :
    concatenate ⟨2, ![N, 7]⟩ 1 [⟨⟨2, ![N, 1]⟩, c0⟩, ⟨⟨2, ![N, 1]⟩, c1⟩, ⟨⟨2, ![N, 1]⟩, c2⟩, ⟨⟨2, ![N, 1]⟩, c3⟩, ⟨⟨2, ![N, 1]⟩, c4⟩, ⟨⟨2, ![N, 1]⟩, c5⟩, ⟨⟨2, ![N, 1]⟩, c6⟩] h (ix2 n k) = ![c0, c1, c2, c3, c4, c5, c6] k (ix2 n 0) :=
  cat_cols_apply ![c0, c1, c2, c3, c4, c5, c6] h n k

theorem cat8_apply {N : Nat} (c0 c1 c2 c3 c4 c5 c6 c7 : (⟨2, ![N, 1]⟩ : Shape).Idx → α) (h) (n : Fin N) (k : Fin 8) :
    concatenate ⟨2, ![N, 8]⟩ 1 [⟨⟨2, ![N, 1]⟩, c0⟩, ⟨⟨2, ![N, 1]⟩, c1⟩, ⟨⟨2, ![N, 1]⟩, c2⟩, ⟨⟨2, ![N, 1]⟩, c3⟩, ⟨⟨2, ![N, 1]⟩, c4⟩, ⟨⟨2, ![N, 1]⟩, c5⟩, ⟨⟨2, ![N, 1]⟩, c6⟩, ⟨⟨2, ![N, 1]⟩, c7⟩] h (ix2 n k) = ![c0, c1, c2, c3, c4, c5, c6, c7] k (ix2 n 0) :=
  cat_cols_apply ![c0, c1, c2, c3, c4, c5, c6, c7] h n k

theorem cat9_apply {N : Nat} (c0 c1 c2 c3 c4 c5 c6 c7 c8 : (⟨2, ![N, 1]⟩ : Shape).Idx → α) (h) (n : Fin N) (k : Fin 9) :
    concatenate ⟨2, ![N, 9]⟩ 1 [⟨⟨2, ![N, 1]⟩, c0⟩, ⟨⟨2, ![N, 1]⟩, c1⟩, ⟨⟨2, ![N, 1]⟩, c2⟩, ⟨⟨2, ![N, 1]⟩, c3⟩, ⟨⟨2, ![N, 1]⟩, c4⟩, ⟨⟨2, ![N, 1]⟩, c5⟩, ⟨⟨2, ![N, 1]⟩, c6⟩, ⟨⟨2, ![N, 1]⟩, c7⟩, ⟨⟨2, ![N, 1]⟩, c8⟩] h (ix2 n k) = ![c0, c1, c2, c3, c4, c5, c6, c7, c8] k (ix2 n 0) :=
  cat_cols_apply ![c0, c1, c2, c3, c4, c5, c6, c7, c8] h n k

/-! ## Three blocks of columns side by side -/

/-- The first block of [A | B | C]. -/
theorem cat3blocks_left {N a b c : Nat} (xa : (⟨2, ![N, a]⟩ : Shape).Idx → α) (xb : (⟨2, ![N, b]⟩ : Shape).Idx → α)
    (xc : (⟨2, ![N, c]⟩ : Shape).Idx → α) (h) (n : Fin N) (k : Fin (a + b + c)) (hk : k.val < a) :
    concatenate ⟨2, ![N, a + b + c]⟩ 1 [⟨⟨2, ![N, a]⟩, xa⟩, ⟨⟨2, ![N, b]⟩, xb⟩, ⟨⟨2, ![N, c]⟩, xc⟩] h (ix2 n k) = xa (ix2 n ⟨k.val, hk⟩) :=
  concatenate_apply_piece 1 _ h (ix2 n k) 0 (by simp) ⟨2, ![N, a]⟩ xa rfl rfl 0 rfl (ix2 n ⟨k.val, hk⟩)
    (fun b hb => match b with
      | ⟨0, _⟩ => rfl
      | ⟨1, _⟩ => absurd rfl hb)
    (by show 0 + k.val = k.val; omega)

/-- The middle block of [A | B | C]. -/
theorem cat3blocks_mid {N a b c : Nat} (xa : (⟨2, ![N, a]⟩ : Shape).Idx → α) (xb : (⟨2, ![N, b]⟩ : Shape).Idx → α)
    (xc : (⟨2, ![N, c]⟩ : Shape).Idx → α) (h) (n : Fin N) (k : Fin (a + b + c)) (hk : a ≤ k.val) (hk' : k.val - a < b) :
    concatenate ⟨2, ![N, a + b + c]⟩ 1 [⟨⟨2, ![N, a]⟩, xa⟩, ⟨⟨2, ![N, b]⟩, xb⟩, ⟨⟨2, ![N, c]⟩, xc⟩] h (ix2 n k) = xb (ix2 n ⟨k.val - a, hk'⟩) :=
  concatenate_apply_piece 1 _ h (ix2 n k) 1 (by simp) ⟨2, ![N, b]⟩ xb rfl rfl a (by simp) (ix2 n ⟨k.val - a, hk'⟩)
    (fun b hb => match b with
      | ⟨0, _⟩ => rfl
      | ⟨1, _⟩ => absurd rfl hb)
    (by show a + (k.val - a) = k.val; omega)

/-- The last block of [A | B | C]. -/
theorem cat3blocks_right {N a b c : Nat} (xa : (⟨2, ![N, a]⟩ : Shape).Idx → α) (xb : (⟨2, ![N, b]⟩ : Shape).Idx → α)
    (xc : (⟨2, ![N, c]⟩ : Shape).Idx → α) (h) (n : Fin N) (k : Fin (a + b + c)) (hk : a + b ≤ k.val) :
    concatenate ⟨2, ![N, a + b + c]⟩ 1 [⟨⟨2, ![N, a]⟩, xa⟩, ⟨⟨2, ![N, b]⟩, xb⟩, ⟨⟨2, ![N, c]⟩, xc⟩] h (ix2 n k)
      = xc (ix2 n ⟨k.val - (a + b), by have := k.isLt; omega⟩) :=
  concatenate_apply_piece 1 _ h (ix2 n k) 2 (by simp) ⟨2, ![N, c]⟩ xc rfl rfl (a + b) (by simp) (ix2 n ⟨k.val - (a + b), by have := k.isLt; omega⟩)
    (fun b hb => match b with
      | ⟨0, _⟩ => rfl
      | ⟨1, _⟩ => absurd rfl hb)
    (by show a + b + (k.val - (a + b)) = k.val; omega)

/-! ## A gather of whole columns -/

/-- The dimension numbers of a gather of whole columns: operand [N, M], start indices [W, 1], result [N, W];
    the one offset axis is the rows, the columns are collapsed and indexed. -/
abbrev colDims (N M W : Nat) (wf : GatherDims.WF ⟨2, ![N, M]⟩ ⟨2, ![W, 1]⟩ ⟨2, ![N, W]⟩ [0] [1] [] [1] [] 1 ![N, 1]) :
    GatherDims ⟨2, ![N, M]⟩ ⟨2, ![W, 1]⟩ ⟨2, ![N, W]⟩ where
  offsetDims := [0]
  collapsedSliceDims := [1]
  operandBatchingDims := []
  startIndicesBatchingDims := []
  startIndexMap := [1]
  indexVectorDim := 1
  sliceSizes := ![N, 1]
  wf := wf

/-- The gather read at (n, k): row n of the operand's column idx[k, 0], the start index read signed and clamped
    into [0, M - 1]. -/
theorem gather_cols_apply {N M W w : Nat} (hM : 0 < M)
    (wf : GatherDims.WF ⟨2, ![N, M]⟩ ⟨2, ![W, 1]⟩ ⟨2, ![N, W]⟩ [0] [1] [] [1] [] 1 ![N, 1])
    (x : (⟨2, ![N, M]⟩ : Shape).Idx → α) (idx : IVec ⟨2, ![W, 1]⟩ w) (n : Fin N) (k : Fin W) :
    Host.gather (colDims N M W wf) x idx (ix2 n k)
      = x (ix2 n ⟨min (idx (ix2 k 0)).toInt.toNat (M - 1), by omega⟩) := by
  unfold Host.gather
  congr 1
  funext a
  refine Fin.ext ?_
  match a with
  | ⟨0, _⟩ =>
    show (colDims N M W wf).start (ix2 n k) idx 0 + (colDims N M W wf).batchCoord (ix2 n k) 0
      + (colDims N M W wf).offCoord (ix2 n k) 0 = n.val
    rw [GatherDims.batchCoord_eq_zero _ _ _ List.not_mem_nil]
    have hs : (colDims N M W wf).start (ix2 n k) idx 0 = 0 := by
      unfold GatherDims.start
      rw [dif_neg (show ¬ (0 : Fin 2) ∈ ([1] : List (Fin 2)) by decide)]
    have ho : (colDims N M W wf).offCoord (ix2 n k) 0 = n.val := by
      unfold GatherDims.offCoord
      rw [dif_pos ((GatherDims.mem_sKept _ _).2 ⟨(show ¬ (0 : Fin 2) ∈ ([1] : List (Fin 2)) by decide), List.not_mem_nil⟩)]
      rfl
    rw [hs, ho]; omega
  | ⟨1, _⟩ =>
    show (colDims N M W wf).start (ix2 n k) idx 1 + (colDims N M W wf).batchCoord (ix2 n k) 1
      + (colDims N M W wf).offCoord (ix2 n k) 1 = min (idx (ix2 k 0)).toInt.toNat (M - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims N M W wf).startIndexMap from List.mem_singleton.mpr rfl)]
    have hsi : (colDims N M W wf).siIdx (ix2 n k) ⟨List.idxOf (1 : Fin 2) (colDims N M W wf).startIndexMap,
        List.idxOf_lt_length_iff.2 (List.mem_singleton.mpr rfl)⟩ = ix2 k 0 := by
      funext b; refine Fin.ext ?_
      match b with
      | ⟨0, _⟩ => rfl
      | ⟨1, _⟩ => rfl
    rw [hsi]
    rfl

/-! ## The host's quotient at an index -/

/-- On the extended reals the host's quotient of two arrays is, entry by entry, the total quotient of the entries. -/
theorem hostDivf_apply {s : Shape} {φ : FTy} (a b : FVec Ideal s φ) (i : s.Idx) : Host.divf a b i = Ideal.div (a i) (b i) := rfl

/-! ## A table of words read at an index -/

/-- A length-W table given by its entries in row-major order, read at entry k. -/
theorem table_apply (W : Nat) {β : Type} (hW : (⟨1, ![W]⟩ : Shape).numel = W) (T : Fin W → β) (k : Fin W) :
    T (((⟨1, ![W]⟩ : Shape).rowMajor (ix1 k)).cast hW) = T k :=
  congrArg T (Fin.ext (Shape.rowMajor_val_one _))

end Cert.RefLayout

end
-- ==== Proof.TailLayer1.lean ====
/-
  The first graph-convolution layer on the first 196 nodes, as the operations after the region compute it.

  Walking the line back from the buffer of the layer's result: the index vectors pass the shift of negative indices
  unchanged, the gathers stay inside their tables, the edge weight is the product of the two ends' normalising weights,
  the segment sum starts from zero, and the self-loop term, the bias and the positive part follow. At node `n` and
  feature `k` the result is the specification's first layer.
-/
import proofs.«149964_j22067541967300_2_alg».proof.Proof.TailStart
import proofs.«149964_j22067541967300_2_alg».proof.Proof.TailStagesA
import proofs.«149964_j22067541967300_2_alg».proof.Proof.TailStagesB
import proofs.«149964_j22067541967300_2_alg».proof.Proof.LibLayoutCols

set_option maxRecDepth 4000

noncomputable section

namespace Cert.KernelIdeal.Tail

open Idealize.ShloMosaic Idealize.ShloMosaic.StableHlo Idealize.ShloMosaic.ValueIdx
open Cert.KernelIdeal Cert.KernelIdeal.Gen Cert.Line Cert.CubePad.Line

open Cert.Gcn Cert.TailOps Cert.TailAgg Cert.LibGS

section
variable {W : Valuation τ sig (Elt Ideal)}
  {xf : S25088x2048.Idx → EReal} {srcA dstA : S1404.Idx → BitVec 32} {dinvA : S25088.Idx → EReal}
  {P : S25088x2048.Idx → EReal} {W1 : S2048x1024.Idx → EReal} {b1 : S1024.Idx → EReal}
  {W2 : S1024x2048.Idx → EReal} {b2 : S2048.Idx → EReal}
  (S : Start W xf srcA dstA dinvA P W1 b1 W2 b2)
include S

/-! ### The index vectors: the shift of negative indices changes nothing -/

theorem srcBig_1 : (Rd W t_v27) = srcA := by
  rw [st_v27 W, st_v24 W, st_v26 W, st_v23 W, st_v25 W, st_c_2 W, st_c_3 W, a_v3 S]
  exact fixup_eq bcast_S_S1404 25088#32 srcA (idx_nonneg S.src_range)

theorem dstBig_1 : (Rd W t_v34) = dstA := by
  rw [st_v34 W, st_v31 W, st_v33 W, st_v30 W, st_v32 W, st_c_4 W, st_c_5 W, a_v5 S]
  exact fixup_eq bcast_S_S1404 25088#32 dstA (idx_nonneg S.dst_range)

theorem srcSmall_1 : (Rd W t_v43) = srcA := by
  rw [st_v43 W, st_v40 W, st_v42 W, st_v39 W, st_v41 W, st_c_6 W, st_c_7 W, a_v3 S]
  exact fixup_eq bcast_S_S1404 196#32 srcA (idx_nonneg S.src_range)

theorem srcBigCol_1 (e : Fin 1404) : (Rd W t_v28) (ix2 e 0) = srcA (ix1 e) := by
  rw [st_v28 W, srcBig_1 S]
  exact Cert.LibHR.bcastCol_apply _ srcA e 0

theorem dstBigCol_1 (e : Fin 1404) : (Rd W t_v35) (ix2 e 0) = dstA (ix1 e) := by
  rw [st_v35 W, dstBig_1 S]
  exact Cert.LibHR.bcastCol_apply _ dstA e 0

theorem srcSmallCol_1 (e : Fin 1404) : (Rd W t_v44) (ix2 e 0) = srcA (ix1 e) := by
  rw [st_v44 W, srcSmall_1 S]
  exact Cert.LibHR.bcastCol_apply _ srcA e 0

theorem dstCol_1 (e : Fin 1404) : (Rd W t_v49) (ix2 e 0) = dstA (ix1 e) := by
  rw [st_v49 W, a_v5 S]
  exact Cert.LibHR.bcastCol_apply _ dstA e 0

/-! ### The edge weights: the product of the normalising weights of an edge's two ends -/

theorem dinvSrc_1 (e : Fin 1404) : (Rd W t_v29) (ix1 e) = dinv (edges srcA dstA) (srcA (ix1 e)).toInt.toNat := by
  rw [st_v29 W, a_v15 S]
  exact dinvGather_apply _ dinvA (dinv (edges srcA dstA)) (fun n hn => S.dinv_eq ⟨n, hn⟩) _ srcA (srcBigCol_1 S) S.src_range e

theorem dinvDst_1 (e : Fin 1404) : (Rd W t_v36) (ix1 e) = dinv (edges srcA dstA) (dstA (ix1 e)).toInt.toNat := by
  rw [st_v36 W, a_v15 S]
  exact dinvGather_apply _ dinvA (dinv (edges srcA dstA)) (fun n hn => S.dinv_eq ⟨n, hn⟩) _ dstA (dstBigCol_1 S) S.dst_range e

theorem edgeWeightCol_1 (e : Fin 1404) : (Rd W t_v38) (ix2 e 0)
    = dinv (edges srcA dstA) (srcA (ix1 e)).toInt.toNat * dinv (edges srcA dstA) (dstA (ix1 e)).toInt.toNat := by
  rw [st_v38 W]
  refine (Cert.LibHR.bcastCol_apply _ _ e 0).trans ?_
  rw [st_v37 W]
  show ((Rd W t_v29) (ix1 e) : EReal) * ((Rd W t_v36) (ix1 e) : EReal) = _
  rw [dinvSrc_1 S, dinvDst_1 S]

theorem edgeWeight_1 (e : Fin 1404) (c : Fin 1024) : (Rd W t_v46) (ix2 e c)
    = dinv (edges srcA dstA) (srcA (ix1 e)).toInt.toNat * dinv (edges srcA dstA) (dstA (ix1 e)).toInt.toNat := by
  rw [st_v46 W]
  exact (Cert.RefLayout.bcast_cols_apply _ _ e c).trans (edgeWeightCol_1 S e)

/-! ### Zeros, the self-loop weight and the bias -/

theorem accZero_1 (j : S196x1024.Idx) : (Rd W t_v48) j = 0 := by
  rw [st_v48 W, st_cst_8 W]
  exact zeros_apply _ j

theorem reluZero_1 (j : S196x1024.Idx) : (Rd W t_call0_v0) j = 0 := by
  rw [st_call0_v0 W, st_call0_cst W]
  exact zeros_apply _ j

theorem selfWeight_1 (r : Fin 196) (c : Fin 1024) : (Rd W t_v55) (ix2 r c) = dinv (edges srcA dstA) r.val * dinv (edges srcA dstA) r.val := by
  rw [st_v55 W]
  refine (Cert.RefLayout.bcast_cols_apply _ _ r c).trans ?_
  rw [st_v54 W]
  refine (Cert.LibHR.bcastCol_apply _ _ r 0).trans ?_
  rw [st_v53 W, st_v51 W, st_v52 W, a_v15 S]
  show extractStridedSlice S196 ![0] dinvA slices_S25088_S196_0 (ix1 r) * extractStridedSlice S196 ![0] dinvA slices_S25088_S196_0 (ix1 r) = _
  rw [slice1_apply _ dinvA r (by have := r.isLt; omega), S.dinv_eq]

theorem biasRows_1 (r : Fin 196) (c : Fin 1024) : (Rd W t_v59) (ix2 r c) = b1 (ix1 c) := by
  rw [st_v59 W, st_v58 W, a_arg3 S]
  exact Cert.LibHR.bcastRow_apply _ _ b1 r c

/-! ### The linear map on the first 196 rows -/

theorem xfSmall_apply (r : Fin 196) (c : Fin 2048) : (Rd W t_v21) (ix2 r c)
    = xf (ix2 ⟨r.val, by have := r.isLt; omega⟩ c) := by
  rw [st_v21 W, a_v1 S]
  exact slice2_apply _ xf r c _

theorem lin1_apply (r : ℕ) (hr : r < 196) (k : Fin 1024) : (Rd W t_v22) (ix2 ⟨r, hr⟩ k)
    = lin (rowsOf xf) (matOf W1) r k := by
  rw [st_v22 W, a_arg2 S]
  refine (Cert.LibHR.plainDot_apply (φ₁ := .f32) (φ₂ := .f32) 196 2048 1024 _ _ _ ⟨r, hr⟩ k).trans ?_
  unfold lin
  refine Finset.sum_congr rfl fun c _ => ?_
  rw [xfSmall_apply S ⟨r, hr⟩ c]
  unfold rowsOf matOf
  rw [dif_pos (by omega : r < 25088)]

/-! ### The layer -/

theorem layer1_apply (n : Fin 196) (c : Fin 1024) : (Rd W t_v61) (ix2 n c)
    = layer (edges srcA dstA) (rowsOf xf) (matOf W1) (vecOf b1) n.val c := by
  rw [st_v61 W, st_v60 W, st_v57 W, st_v50 W, st_v47 W, st_v45 W, st_v56 W]
  show _ = max (conv (edges srcA dstA) (lin (rowsOf xf) (matOf W1)) (vecOf b1) n.val c) 0
  exact agg_apply _ _ srcA dstA S.src_range (Rd W t_v22) (lin (rowsOf xf) (matOf W1)) (lin1_apply S)
    (Rd W t_v44) (Rd W t_v49) (srcSmallCol_1 S) (dstCol_1 S)
    (Rd W t_v46) (edgeWeight_1 S) (Rd W t_v48) (accZero_1 S) (Rd W t_v55) (selfWeight_1 S)
    (Rd W t_v59) (vecOf b1) (biasRows_1 S) (Rd W t_call0_v0) (reluZero_1 S) n c

end

end Cert.KernelIdeal.Tail

end
-- ==== Proof.TailStagesC.lean ====
/-
  The host operations that follow the region, read one at a time: operations 51 to 76 of the line.

  One equation per operation: the buffer it writes ends at the operation's function of what its operands' buffers end at.
-/
import proofs.«149964_j22067541967300_2_alg».proof.Proof.TailLine

set_option maxRecDepth 4000

noncomputable section

namespace Cert.KernelIdeal.Tail

open Idealize.ShloMosaic Idealize.ShloMosaic.StableHlo Idealize.ShloMosaic.ValueIdx
open Cert.KernelIdeal Cert.KernelIdeal.Gen Cert.Line Cert.CubePad.Line

variable (W : Valuation τ sig (Elt Ideal))

theorem st_c_9 : (Rd W t_c_9) = (constantI S_ 32 0#32) := by
  unfold Rd
  rw [Cert.Line.nullary_at tail_writes W 51 _ _ _ rfl (by decide)]
  exact Cert.LibTypedRefCasts.ofBuf_toBuf _ _

theorem st_v63 : (Rd W t_v63) = (broadcastInDim S1404 ![] bcast_S_S1404) (Rd W t_c_9) := by
  unfold Rd
  rw [Cert.CubePad.Line.Writes.unary_at tail_writes W 52 _ _ _ _ _ rfl (by decide) (by decide)]
  exact Cert.LibTypedRefCasts.ofBuf_toBuf _ _

theorem st_v64 : (Rd W t_v64) = (cmpi .slt) (Rd W t_v3) (Rd W t_v63) := by
  unfold Rd
  rw [Cert.Line.binary_at tail_writes W 53 _ _ _ _ _ _ _ rfl (by decide) (by decide) (by decide)]
  exact Cert.LibTypedRefCasts.ofBuf_toBuf _ _

theorem st_c_10 : (Rd W t_c_10) = (constantI S_ 32 25088#32) := by
  unfold Rd
  rw [Cert.Line.nullary_at tail_writes W 54 _ _ _ rfl (by decide)]
  exact Cert.LibTypedRefCasts.ofBuf_toBuf _ _

theorem st_v65 : (Rd W t_v65) = (broadcastInDim S1404 ![] bcast_S_S1404) (Rd W t_c_10) := by
  unfold Rd
  rw [Cert.CubePad.Line.Writes.unary_at tail_writes W 55 _ _ _ _ _ rfl (by decide) (by decide)]
  exact Cert.LibTypedRefCasts.ofBuf_toBuf _ _

theorem st_v66 : (Rd W t_v66) = (addi) (Rd W t_v3) (Rd W t_v65) := by
  unfold Rd
  rw [Cert.Line.binary_at tail_writes W 56 _ _ _ _ _ _ _ rfl (by decide) (by decide) (by decide)]
  exact Cert.LibTypedRefCasts.ofBuf_toBuf _ _

theorem st_v67 : (Rd W t_v67) = (select (α := BitVec 32)) (Rd W t_v64) (Rd W t_v66) (Rd W t_v3) := by
  unfold Rd
  rw [Cert.Line.ternary_at tail_writes W 57 _ _ _ _ _ _ _ _ _ rfl (by decide) (by decide) (by decide) (by decide)]
  exact Cert.LibTypedRefCasts.ofBuf_toBuf _ _

theorem st_v68 : (Rd W t_v68) = (broadcastInDim S1404x1 ![0] bcast_S1404_S1404x1_0) (Rd W t_v67) := by
  unfold Rd
  rw [Cert.CubePad.Line.Writes.unary_at tail_writes W 58 _ _ _ _ _ rfl (by decide) (by decide)]
  exact Cert.LibTypedRefCasts.ofBuf_toBuf _ _

theorem st_v69 : (Rd W t_v69) = (fun x i => Host.gather gather_S25088_S1404x1_S1404_n_0_n_n_0_1_1 x i) (Rd W t_v15) (Rd W t_v68) := by
  unfold Rd
  rw [Cert.Line.binary_at tail_writes W 59 _ _ _ _ _ _ _ rfl (by decide) (by decide) (by decide)]
  exact Cert.LibTypedRefCasts.ofBuf_toBuf _ _

theorem st_c_11 : (Rd W t_c_11) = (constantI S_ 32 0#32) := by
  unfold Rd
  rw [Cert.Line.nullary_at tail_writes W 60 _ _ _ rfl (by decide)]
  exact Cert.LibTypedRefCasts.ofBuf_toBuf _ _

theorem st_v70 : (Rd W t_v70) = (broadcastInDim S1404 ![] bcast_S_S1404) (Rd W t_c_11) := by
  unfold Rd
  rw [Cert.CubePad.Line.Writes.unary_at tail_writes W 61 _ _ _ _ _ rfl (by decide) (by decide)]
  exact Cert.LibTypedRefCasts.ofBuf_toBuf _ _

theorem st_v71 : (Rd W t_v71) = (cmpi .slt) (Rd W t_v5) (Rd W t_v70) := by
  unfold Rd
  rw [Cert.Line.binary_at tail_writes W 62 _ _ _ _ _ _ _ rfl (by decide) (by decide) (by decide)]
  exact Cert.LibTypedRefCasts.ofBuf_toBuf _ _

theorem st_c_12 : (Rd W t_c_12) = (constantI S_ 32 25088#32) := by
  unfold Rd
  rw [Cert.Line.nullary_at tail_writes W 63 _ _ _ rfl (by decide)]
  exact Cert.LibTypedRefCasts.ofBuf_toBuf _ _

theorem st_v72 : (Rd W t_v72) = (broadcastInDim S1404 ![] bcast_S_S1404) (Rd W t_c_12) := by
  unfold Rd
  rw [Cert.CubePad.Line.Writes.unary_at tail_writes W 64 _ _ _ _ _ rfl (by decide) (by decide)]
  exact Cert.LibTypedRefCasts.ofBuf_toBuf _ _

theorem st_v73 : (Rd W t_v73) = (addi) (Rd W t_v5) (Rd W t_v72) := by
  unfold Rd
  rw [Cert.Line.binary_at tail_writes W 65 _ _ _ _ _ _ _ rfl (by decide) (by decide) (by decide)]
  exact Cert.LibTypedRefCasts.ofBuf_toBuf _ _

theorem st_v74 : (Rd W t_v74) = (select (α := BitVec 32)) (Rd W t_v71) (Rd W t_v73) (Rd W t_v5) := by
  unfold Rd
  rw [Cert.Line.ternary_at tail_writes W 66 _ _ _ _ _ _ _ _ _ rfl (by decide) (by decide) (by decide) (by decide)]
  exact Cert.LibTypedRefCasts.ofBuf_toBuf _ _

theorem st_v75 : (Rd W t_v75) = (broadcastInDim S1404x1 ![0] bcast_S1404_S1404x1_0) (Rd W t_v74) := by
  unfold Rd
  rw [Cert.CubePad.Line.Writes.unary_at tail_writes W 67 _ _ _ _ _ rfl (by decide) (by decide)]
  exact Cert.LibTypedRefCasts.ofBuf_toBuf _ _

theorem st_v76 : (Rd W t_v76) = (fun x i => Host.gather gather_S25088_S1404x1_S1404_n_0_n_n_0_1_1 x i) (Rd W t_v15) (Rd W t_v75) := by
  unfold Rd
  rw [Cert.Line.binary_at tail_writes W 68 _ _ _ _ _ _ _ rfl (by decide) (by decide) (by decide)]
  exact Cert.LibTypedRefCasts.ofBuf_toBuf _ _

theorem st_v77 : (Rd W t_v77) = (mulf (F := Ideal) (φ := .f32)) (Rd W t_v69) (Rd W t_v76) := by
  unfold Rd
  rw [Cert.Line.binary_at tail_writes W 69 _ _ _ _ _ _ _ rfl (by decide) (by decide) (by decide)]
  exact Cert.LibTypedRefCasts.ofBuf_toBuf _ _

theorem st_v78 : (Rd W t_v78) = (broadcastInDim S1404x1 ![0] bcast_S1404_S1404x1_0) (Rd W t_v77) := by
  unfold Rd
  rw [Cert.CubePad.Line.Writes.unary_at tail_writes W 70 _ _ _ _ _ rfl (by decide) (by decide)]
  exact Cert.LibTypedRefCasts.ofBuf_toBuf _ _

theorem st_c_13 : (Rd W t_c_13) = (constantI S_ 32 0#32) := by
  unfold Rd
  rw [Cert.Line.nullary_at tail_writes W 71 _ _ _ rfl (by decide)]
  exact Cert.LibTypedRefCasts.ofBuf_toBuf _ _

theorem st_v79 : (Rd W t_v79) = (broadcastInDim S1404 ![] bcast_S_S1404) (Rd W t_c_13) := by
  unfold Rd
  rw [Cert.CubePad.Line.Writes.unary_at tail_writes W 72 _ _ _ _ _ rfl (by decide) (by decide)]
  exact Cert.LibTypedRefCasts.ofBuf_toBuf _ _

theorem st_v80 : (Rd W t_v80) = (cmpi .slt) (Rd W t_v3) (Rd W t_v79) := by
  unfold Rd
  rw [Cert.Line.binary_at tail_writes W 73 _ _ _ _ _ _ _ rfl (by decide) (by decide) (by decide)]
  exact Cert.LibTypedRefCasts.ofBuf_toBuf _ _

theorem st_c_14 : (Rd W t_c_14) = (constantI S_ 32 196#32) := by
  unfold Rd
  rw [Cert.Line.nullary_at tail_writes W 74 _ _ _ rfl (by decide)]
  exact Cert.LibTypedRefCasts.ofBuf_toBuf _ _

theorem st_v81 : (Rd W t_v81) = (broadcastInDim S1404 ![] bcast_S_S1404) (Rd W t_c_14) := by
  unfold Rd
  rw [Cert.CubePad.Line.Writes.unary_at tail_writes W 75 _ _ _ _ _ rfl (by decide) (by decide)]
  exact Cert.LibTypedRefCasts.ofBuf_toBuf _ _

theorem st_v82 : (Rd W t_v82) = (addi) (Rd W t_v3) (Rd W t_v81) := by
  unfold Rd
  rw [Cert.Line.binary_at tail_writes W 76 _ _ _ _ _ _ _ rfl (by decide) (by decide) (by decide)]
  exact Cert.LibTypedRefCasts.ofBuf_toBuf _ _

end Cert.KernelIdeal.Tail

end
-- ==== Proof.TailStagesD.lean ====
/-
  The host operations that follow the region, read one at a time: operations 77 to 101 of the line.

  One equation per operation: the buffer it writes ends at the operation's function of what its operands' buffers end at.
-/
import proofs.«149964_j22067541967300_2_alg».proof.Proof.TailLine

set_option maxRecDepth 4000

noncomputable section

namespace Cert.KernelIdeal.Tail

open Idealize.ShloMosaic Idealize.ShloMosaic.StableHlo Idealize.ShloMosaic.ValueIdx
open Cert.KernelIdeal Cert.KernelIdeal.Gen Cert.Line Cert.CubePad.Line

variable (W : Valuation τ sig (Elt Ideal))

theorem st_v83 : (Rd W t_v83) = (select (α := BitVec 32)) (Rd W t_v80) (Rd W t_v82) (Rd W t_v3) := by
  unfold Rd
  rw [Cert.Line.ternary_at tail_writes W 77 _ _ _ _ _ _ _ _ _ rfl (by decide) (by decide) (by decide) (by decide)]
  exact Cert.LibTypedRefCasts.ofBuf_toBuf _ _

theorem st_v84 : (Rd W t_v84) = (broadcastInDim S1404x1 ![0] bcast_S1404_S1404x1_0) (Rd W t_v83) := by
  unfold Rd
  rw [Cert.CubePad.Line.Writes.unary_at tail_writes W 78 _ _ _ _ _ rfl (by decide) (by decide)]
  exact Cert.LibTypedRefCasts.ofBuf_toBuf _ _

theorem st_v85 : (Rd W t_v85) = (fun x i => Host.gather gather_S196x2048_S1404x1_S1404x2048_1_0_n_n_0_1_12048 x i) (Rd W t_v62) (Rd W t_v84) := by
  unfold Rd
  rw [Cert.Line.binary_at tail_writes W 79 _ _ _ _ _ _ _ rfl (by decide) (by decide) (by decide)]
  exact Cert.LibTypedRefCasts.ofBuf_toBuf _ _

theorem st_v86 : (Rd W t_v86) = (broadcastInDim S1404x2048 ![0, 1] bcast_S1404x1_S1404x2048_0_1) (Rd W t_v78) := by
  unfold Rd
  rw [Cert.CubePad.Line.Writes.unary_at tail_writes W 80 _ _ _ _ _ rfl (by decide) (by decide)]
  exact Cert.LibTypedRefCasts.ofBuf_toBuf _ _

theorem st_v87 : (Rd W t_v87) = (mulf (F := Ideal) (φ := .f32)) (Rd W t_v85) (Rd W t_v86) := by
  unfold Rd
  rw [Cert.Line.binary_at tail_writes W 81 _ _ _ _ _ _ _ rfl (by decide) (by decide) (by decide)]
  exact Cert.LibTypedRefCasts.ofBuf_toBuf _ _

theorem st_cst_15 : (Rd W t_cst_15) = (constant (F := Ideal) S_ .f32 0x00000000#32) := by
  unfold Rd
  rw [Cert.Line.nullary_at tail_writes W 82 _ _ _ rfl (by decide)]
  exact Cert.LibTypedRefCasts.ofBuf_toBuf _ _

theorem st_v88 : (Rd W t_v88) = (broadcastInDim S196x2048 ![] bcast_S_S196x2048) (Rd W t_cst_15) := by
  unfold Rd
  rw [Cert.CubePad.Line.Writes.unary_at tail_writes W 83 _ _ _ _ _ rfl (by decide) (by decide)]
  exact Cert.LibTypedRefCasts.ofBuf_toBuf _ _

theorem st_v89 : (Rd W t_v89) = (broadcastInDim S1404x1 ![0] bcast_S1404_S1404x1_0) (Rd W t_v5) := by
  unfold Rd
  rw [Cert.CubePad.Line.Writes.unary_at tail_writes W 84 _ _ _ _ _ rfl (by decide) (by decide)]
  exact Cert.LibTypedRefCasts.ofBuf_toBuf _ _

theorem st_v90 : (Rd W t_v90) = (fun x i u => Host.scatterAdd (F := Ideal) (φ := .f32) scatter_S196x2048_S1404x1_S1404x2048_1_0_0_1 x i u) (Rd W t_v88) (Rd W t_v89) (Rd W t_v87) := by
  unfold Rd
  rw [Cert.Line.ternary_at tail_writes W 85 _ _ _ _ _ _ _ _ _ rfl (by decide) (by decide) (by decide) (by decide)]
  exact Cert.LibTypedRefCasts.ofBuf_toBuf _ _

theorem st_v91 : (Rd W t_v91) = (extractStridedSlice S196 ![0] · slices_S25088_S196_0) (Rd W t_v15) := by
  unfold Rd
  rw [Cert.CubePad.Line.Writes.unary_at tail_writes W 86 _ _ _ _ _ rfl (by decide) (by decide)]
  exact Cert.LibTypedRefCasts.ofBuf_toBuf _ _

theorem st_v92 : (Rd W t_v92) = (extractStridedSlice S196 ![0] · slices_S25088_S196_0) (Rd W t_v15) := by
  unfold Rd
  rw [Cert.CubePad.Line.Writes.unary_at tail_writes W 87 _ _ _ _ _ rfl (by decide) (by decide)]
  exact Cert.LibTypedRefCasts.ofBuf_toBuf _ _

theorem st_v93 : (Rd W t_v93) = (mulf (F := Ideal) (φ := .f32)) (Rd W t_v91) (Rd W t_v92) := by
  unfold Rd
  rw [Cert.Line.binary_at tail_writes W 88 _ _ _ _ _ _ _ rfl (by decide) (by decide) (by decide)]
  exact Cert.LibTypedRefCasts.ofBuf_toBuf _ _

theorem st_v94 : (Rd W t_v94) = (broadcastInDim S196x1 ![0] bcast_S196_S196x1_0) (Rd W t_v93) := by
  unfold Rd
  rw [Cert.CubePad.Line.Writes.unary_at tail_writes W 89 _ _ _ _ _ rfl (by decide) (by decide)]
  exact Cert.LibTypedRefCasts.ofBuf_toBuf _ _

theorem st_v95 : (Rd W t_v95) = (broadcastInDim S196x2048 ![0, 1] bcast_S196x1_S196x2048_0_1) (Rd W t_v94) := by
  unfold Rd
  rw [Cert.CubePad.Line.Writes.unary_at tail_writes W 90 _ _ _ _ _ rfl (by decide) (by decide)]
  exact Cert.LibTypedRefCasts.ofBuf_toBuf _ _

theorem st_v96 : (Rd W t_v96) = (mulf (F := Ideal) (φ := .f32)) (Rd W t_v62) (Rd W t_v95) := by
  unfold Rd
  rw [Cert.Line.binary_at tail_writes W 91 _ _ _ _ _ _ _ rfl (by decide) (by decide) (by decide)]
  exact Cert.LibTypedRefCasts.ofBuf_toBuf _ _

theorem st_v97 : (Rd W t_v97) = (addf (F := Ideal) (φ := .f32)) (Rd W t_v90) (Rd W t_v96) := by
  unfold Rd
  rw [Cert.Line.binary_at tail_writes W 92 _ _ _ _ _ _ _ rfl (by decide) (by decide) (by decide)]
  exact Cert.LibTypedRefCasts.ofBuf_toBuf _ _

theorem st_v98 : (Rd W t_v98) = (broadcastInDim S1x2048 ![1] bcast_S2048_S1x2048_1) (Rd W t_m_arg5) := by
  unfold Rd
  rw [Cert.CubePad.Line.Writes.unary_at tail_writes W 93 _ _ _ _ _ rfl (by decide) (by decide)]
  exact Cert.LibTypedRefCasts.ofBuf_toBuf _ _

theorem st_v99 : (Rd W t_v99) = (broadcastInDim S196x2048 ![0, 1] bcast_S1x2048_S196x2048_0_1) (Rd W t_v98) := by
  unfold Rd
  rw [Cert.CubePad.Line.Writes.unary_at tail_writes W 94 _ _ _ _ _ rfl (by decide) (by decide)]
  exact Cert.LibTypedRefCasts.ofBuf_toBuf _ _

theorem st_v100 : (Rd W t_v100) = (addf (F := Ideal) (φ := .f32)) (Rd W t_v97) (Rd W t_v99) := by
  unfold Rd
  rw [Cert.Line.binary_at tail_writes W 95 _ _ _ _ _ _ _ rfl (by decide) (by decide) (by decide)]
  exact Cert.LibTypedRefCasts.ofBuf_toBuf _ _

theorem st_call1_cst : (Rd W t_call1_cst) = (constant (F := Ideal) S_ .f32 0x00000000#32) := by
  unfold Rd
  rw [Cert.Line.nullary_at tail_writes W 96 _ _ _ rfl (by decide)]
  exact Cert.LibTypedRefCasts.ofBuf_toBuf _ _

theorem st_call1_v0 : (Rd W t_call1_v0) = (broadcastInDim S196x2048 ![] bcast_S_S196x2048) (Rd W t_call1_cst) := by
  unfold Rd
  rw [Cert.CubePad.Line.Writes.unary_at tail_writes W 97 _ _ _ _ _ rfl (by decide) (by decide)]
  exact Cert.LibTypedRefCasts.ofBuf_toBuf _ _

theorem st_v101 : (Rd W t_v101) = (maximumf (F := Ideal) (φ := .f32)) (Rd W t_v100) (Rd W t_call1_v0) := by
  unfold Rd
  rw [Cert.Line.binary_at tail_writes W 98 _ _ _ _ _ _ _ rfl (by decide) (by decide) (by decide)]
  exact Cert.LibTypedRefCasts.ofBuf_toBuf _ _

theorem st_c_16 : (Rd W t_c_16) = (constantI S_ 32 0#32) := by
  unfold Rd
  rw [Cert.Line.nullary_at tail_writes W 99 _ _ _ rfl (by decide)]
  exact Cert.LibTypedRefCasts.ofBuf_toBuf _ _

theorem st_v102 : (Rd W t_v102) = (broadcastInDim S1 ![] bcast_S_S1) (Rd W t_c_16) := by
  unfold Rd
  rw [Cert.CubePad.Line.Writes.unary_at tail_writes W 100 _ _ _ _ _ rfl (by decide) (by decide)]
  exact Cert.LibTypedRefCasts.ofBuf_toBuf _ _

theorem st_v103 : (Rd W t_v103) = (fun x i u => Host.scatter scatter_S25088x2048_S1_S196x2048_01_n_0_0 (fun _ b => b) x i u) (Rd W t_v20) (Rd W t_v102) (Rd W t_v101) := by
  unfold Rd
  rw [Cert.Line.ternary_at tail_writes W 101 _ _ _ _ _ _ _ _ _ rfl (by decide) (by decide) (by decide) (by decide)]
  exact Cert.LibTypedRefCasts.ofBuf_toBuf _ _

end Cert.KernelIdeal.Tail

end
-- ==== Proof.TailLayer2.lean ====
/-
  The second graph-convolution layer on the first 196 nodes, as the operations after the region compute it.

  The same walk as for the first layer, one stretch further down the line: the layer reads the first layer's 196 rows,
  multiplies by the second weight matrix, and aggregates with the same edges and weights. At node `n` and feature `j`
  the result is the specification's two-layer network.
-/
import proofs.«149964_j22067541967300_2_alg».proof.Proof.TailLayer1
import proofs.«149964_j22067541967300_2_alg».proof.Proof.TailStagesC
import proofs.«149964_j22067541967300_2_alg».proof.Proof.TailStagesD

set_option maxRecDepth 4000

noncomputable section

namespace Cert.KernelIdeal.Tail

open Idealize.ShloMosaic Idealize.ShloMosaic.StableHlo Idealize.ShloMosaic.ValueIdx
open Cert.KernelIdeal Cert.KernelIdeal.Gen Cert.Line Cert.CubePad.Line

open Cert.Gcn Cert.TailOps Cert.TailAgg Cert.LibGS

section
variable {W : Valuation τ sig (Elt Ideal)}
  {xf : S25088x2048.Idx → EReal} {srcA dstA : S1404.Idx → BitVec 32} {dinvA : S25088.Idx → EReal}
  {P : S25088x2048.Idx → EReal} {W1 : S2048x1024.Idx → EReal} {b1 : S1024.Idx → EReal}
  {W2 : S1024x2048.Idx → EReal} {b2 : S2048.Idx → EReal}
  (S : Start W xf srcA dstA dinvA P W1 b1 W2 b2)
include S

/-! ### The index vectors: the shift of negative indices changes nothing -/

theorem srcBig_2 : (Rd W t_v67) = srcA := by
  rw [st_v67 W, st_v64 W, st_v66 W, st_v63 W, st_v65 W, st_c_9 W, st_c_10 W, a_v3 S]
  exact fixup_eq bcast_S_S1404 25088#32 srcA (idx_nonneg S.src_range)

theorem dstBig_2 : (Rd W t_v74) = dstA := by
  rw [st_v74 W, st_v71 W, st_v73 W, st_v70 W, st_v72 W, st_c_11 W, st_c_12 W, a_v5 S]
  exact fixup_eq bcast_S_S1404 25088#32 dstA (idx_nonneg S.dst_range)

theorem srcSmall_2 : (Rd W t_v83) = srcA := by
  rw [st_v83 W, st_v80 W, st_v82 W, st_v79 W, st_v81 W, st_c_13 W, st_c_14 W, a_v3 S]
  exact fixup_eq bcast_S_S1404 196#32 srcA (idx_nonneg S.src_range)

theorem srcBigCol_2 (e : Fin 1404) : (Rd W t_v68) (ix2 e 0) = srcA (ix1 e) := by
  rw [st_v68 W, srcBig_2 S]
  exact Cert.LibHR.bcastCol_apply _ srcA e 0

theorem dstBigCol_2 (e : Fin 1404) : (Rd W t_v75) (ix2 e 0) = dstA (ix1 e) := by
  rw [st_v75 W, dstBig_2 S]
  exact Cert.LibHR.bcastCol_apply _ dstA e 0

theorem srcSmallCol_2 (e : Fin 1404) : (Rd W t_v84) (ix2 e 0) = srcA (ix1 e) := by
  rw [st_v84 W, srcSmall_2 S]
  exact Cert.LibHR.bcastCol_apply _ srcA e 0

theorem dstCol_2 (e : Fin 1404) : (Rd W t_v89) (ix2 e 0) = dstA (ix1 e) := by
  rw [st_v89 W, a_v5 S]
  exact Cert.LibHR.bcastCol_apply _ dstA e 0

/-! ### The edge weights: the product of the normalising weights of an edge's two ends -/

theorem dinvSrc_2 (e : Fin 1404) : (Rd W t_v69) (ix1 e) = dinv (edges srcA dstA) (srcA (ix1 e)).toInt.toNat := by
  rw [st_v69 W, a_v15 S]
  exact dinvGather_apply _ dinvA (dinv (edges srcA dstA)) (fun n hn => S.dinv_eq ⟨n, hn⟩) _ srcA (srcBigCol_2 S) S.src_range e

theorem dinvDst_2 (e : Fin 1404) : (Rd W t_v76) (ix1 e) = dinv (edges srcA dstA) (dstA (ix1 e)).toInt.toNat := by
  rw [st_v76 W, a_v15 S]
  exact dinvGather_apply _ dinvA (dinv (edges srcA dstA)) (fun n hn => S.dinv_eq ⟨n, hn⟩) _ dstA (dstBigCol_2 S) S.dst_range e

theorem edgeWeightCol_2 (e : Fin 1404) : (Rd W t_v78) (ix2 e 0)
    = dinv (edges srcA dstA) (srcA (ix1 e)).toInt.toNat * dinv (edges srcA dstA) (dstA (ix1 e)).toInt.toNat := by
  rw [st_v78 W]
  refine (Cert.LibHR.bcastCol_apply _ _ e 0).trans ?_
  rw [st_v77 W]
  show ((Rd W t_v69) (ix1 e) : EReal) * ((Rd W t_v76) (ix1 e) : EReal) = _
  rw [dinvSrc_2 S, dinvDst_2 S]

theorem edgeWeight_2 (e : Fin 1404) (c : Fin 2048) : (Rd W t_v86) (ix2 e c)
    = dinv (edges srcA dstA) (srcA (ix1 e)).toInt.toNat * dinv (edges srcA dstA) (dstA (ix1 e)).toInt.toNat := by
  rw [st_v86 W]
  exact (Cert.RefLayout.bcast_cols_apply _ _ e c).trans (edgeWeightCol_2 S e)

/-! ### Zeros, the self-loop weight and the bias -/

theorem accZero_2 (j : S196x2048.Idx) : (Rd W t_v88) j = 0 := by
  rw [st_v88 W, st_cst_15 W]
  exact zeros_apply _ j

theorem reluZero_2 (j : S196x2048.Idx) : (Rd W t_call1_v0) j = 0 := by
  rw [st_call1_v0 W, st_call1_cst W]
  exact zeros_apply _ j

theorem selfWeight_2 (r : Fin 196) (c : Fin 2048) : (Rd W t_v95) (ix2 r c) = dinv (edges srcA dstA) r.val * dinv (edges srcA dstA) r.val := by
  rw [st_v95 W]
  refine (Cert.RefLayout.bcast_cols_apply _ _ r c).trans ?_
  rw [st_v94 W]
  refine (Cert.LibHR.bcastCol_apply _ _ r 0).trans ?_
  rw [st_v93 W, st_v91 W, st_v92 W, a_v15 S]
  show extractStridedSlice S196 ![0] dinvA slices_S25088_S196_0 (ix1 r) * extractStridedSlice S196 ![0] dinvA slices_S25088_S196_0 (ix1 r) = _
  rw [slice1_apply _ dinvA r (by have := r.isLt; omega), S.dinv_eq]

theorem biasRows_2 (r : Fin 196) (c : Fin 2048) : (Rd W t_v99) (ix2 r c) = b2 (ix1 c) := by
  rw [st_v99 W, st_v98 W, a_arg5 S]
  exact Cert.LibHR.bcastRow_apply _ _ b2 r c

/-! ### The linear map on the first layer's 196 rows -/

theorem lin2_apply (r : ℕ) (hr : r < 196) (j : Fin 2048) : (Rd W t_v62) (ix2 ⟨r, hr⟩ j)
    = lin (layer (edges srcA dstA) (rowsOf xf) (matOf W1) (vecOf b1)) (matOf W2) r j := by
  rw [st_v62 W, a_arg4 S]
  refine (Cert.LibHR.plainDot_apply (φ₁ := .f32) (φ₂ := .f32) 196 1024 2048 _ _ _ ⟨r, hr⟩ j).trans ?_
  unfold lin
  refine Finset.sum_congr rfl fun k _ => ?_
  rw [layer1_apply S ⟨r, hr⟩ k]
  rfl

/-! ### The layer -/

theorem layer2_apply (n : Fin 196) (c : Fin 2048) : (Rd W t_v101) (ix2 n c)
    = Cert.Gcn.out (edges srcA dstA) (rowsOf xf) (matOf W1) (vecOf b1) (matOf W2) (vecOf b2) n.val c := by
  rw [st_v101 W, st_v100 W, st_v97 W, st_v90 W, st_v87 W, st_v85 W, st_v96 W]
  show _ = max (conv (edges srcA dstA) (lin (layer (edges srcA dstA) (rowsOf xf) (matOf W1) (vecOf b1)) (matOf W2)) (vecOf b2) n.val c) 0
  exact agg_apply _ _ srcA dstA S.src_range (Rd W t_v62) (lin (layer (edges srcA dstA) (rowsOf xf) (matOf W1) (vecOf b1)) (matOf W2)) (lin2_apply S)
    (Rd W t_v84) (Rd W t_v89) (srcSmallCol_2 S) (dstCol_2 S)
    (Rd W t_v86) (edgeWeight_2 S) (Rd W t_v88) (accZero_2 S) (Rd W t_v95) (selfWeight_2 S)
    (Rd W t_v99) (vecOf b2) (biasRows_2 S) (Rd W t_call1_v0) (reluZero_2 S) n c

end

end Cert.KernelIdeal.Tail

end
-- ==== Proof.TailSpecFacts.lean ====
/-
  A node that no edge reaches is an isolated node with a self loop: its degree is one, the normalising weight is
  `rsqrt 1 = 1`, the neighbour sum is empty, and a graph-convolution layer at that node is the plain dense layer
  `relu (h W + b)` of that node's own row. When every edge endpoint lies among the first 196 nodes this is the case
  for every node from 196 on, so the two-layer network there is the two-layer dense network of the node's own row.
-/
import proofs.«149964_j22067541967300_2_alg».proof.Proof.Spec

noncomputable section

namespace Cert.Gcn

open Idealize.ShloMosaic

/-- The inverse square root of one is one. -/
theorem rsqrt_one : Ideal.rsqrt (1 : EReal) = 1 := by
  have h : (1 : EReal) = ((1 : ℝ) : EReal) := EReal.coe_one.symm
  rw [h, Ideal.rsqrt_coe]
  simp

variable (G : Edges)

/-- No edge arrives at a node past the range of the destinations. -/
theorem arriving_eq_empty (hG : ∀ e, 0 ≤ G.src e ∧ G.src e < 196 ∧ 0 ≤ G.dst e ∧ G.dst e < 196)
    (n : ℕ) (hn : 196 ≤ n) : arriving G n = ∅ := by
  unfold arriving
  rw [Finset.filter_eq_empty_iff]
  intro e _ h
  have := (hG e).2.2.2
  omega

theorem deg_eq_one (hG : ∀ e, 0 ≤ G.src e ∧ G.src e < 196 ∧ 0 ≤ G.dst e ∧ G.dst e < 196)
    (n : ℕ) (hn : 196 ≤ n) : deg G n = 1 := by
  unfold deg
  rw [arriving_eq_empty G hG n hn, Finset.sum_empty, add_zero]

theorem dinv_eq_one (hG : ∀ e, 0 ≤ G.src e ∧ G.src e < 196 ∧ 0 ≤ G.dst e ∧ G.dst e < 196)
    (n : ℕ) (hn : 196 ≤ n) : dinv G n = 1 := by
  unfold dinv
  rw [deg_eq_one G hG n hn, rsqrt_one]

/-- The aggregation at an isolated node is the node's own row plus the bias. -/
theorem conv_of_no_edge (hG : ∀ e, 0 ≤ G.src e ∧ G.src e < 196 ∧ 0 ≤ G.dst e ∧ G.dst e < 196)
    {C : ℕ} (y : ℕ → Fin C → EReal) (b : Fin C → EReal) (n : ℕ) (hn : 196 ≤ n) (j : Fin C) :
    conv G y b n j = y n j + b j := by
  unfold conv
  rw [arriving_eq_empty G hG n hn, Finset.sum_empty, dinv_eq_one G hG n hn, add_zero, zero_add, mul_one, mul_one]

/-- A layer at an isolated node is the dense layer of the node's own row. -/
theorem layer_of_no_edge (hG : ∀ e, 0 ≤ G.src e ∧ G.src e < 196 ∧ 0 ≤ G.dst e ∧ G.dst e < 196)
    {K C : ℕ} (h : ℕ → Fin K → EReal) (W : Fin K → Fin C → EReal) (b : Fin C → EReal)
    (n : ℕ) (hn : 196 ≤ n) (j : Fin C) :
    layer G h W b n j = max ((∑ k : Fin K, h n k * W k j) + b j) 0 := by
  unfold layer
  rw [conv_of_no_edge G hG _ _ n hn]
  rfl

/-- From node 196 on the two-layer graph network is the two-layer dense network. -/
theorem out_eq_plain_of_no_edge (G : Edges)
    (hG : ∀ e, 0 ≤ G.src e ∧ G.src e < 196 ∧ 0 ≤ G.dst e ∧ G.dst e < 196)
    (xf : ℕ → Fin 2048 → EReal) (W1 : Fin 2048 → Fin 1024 → EReal) (b1 : Fin 1024 → EReal)
    (W2 : Fin 1024 → Fin 2048 → EReal) (b2 : Fin 2048 → EReal) (n : ℕ) (hn : 196 ≤ n) (c : Fin 2048) :
    out G xf W1 b1 W2 b2 n c = plain xf W1 b1 W2 b2 n c := by
  unfold out plain
  rw [layer_of_no_edge G hG _ _ _ n hn]
  simp only [layer_of_no_edge G hG xf W1 b1 n hn]

end Cert.Gcn

end
-- ==== Proof.TailOut.lean ====
/-
  The result of the operations after the region, at a node and a feature.

  The last operation overwrites, from row 0 on, the first 196 rows of the region's result with the 196 rows of the exact
  two-layer graph network. Below row 196 the result is therefore the specification's network by the two layer modules.
  From row 196 on it is the region's result, the plain two-layer network of the node's own row, and the specification's
  network is that too: no edge reaches such a node.
-/
import proofs.«149964_j22067541967300_2_alg».proof.Proof.TailLayer2
import proofs.«149964_j22067541967300_2_alg».proof.Proof.TailSpecFacts

set_option maxRecDepth 4000

noncomputable section

namespace Cert.KernelIdeal.Tail

open Idealize.ShloMosaic Idealize.ShloMosaic.StableHlo Idealize.ShloMosaic.ValueIdx
open Cert.KernelIdeal Cert.KernelIdeal.Gen Cert.Line Cert.CubePad.Line

open Cert.Gcn Cert.TailOps Cert.TailAgg Cert.LibGS

section
variable {W : Valuation τ sig (Elt Ideal)}
  {xf : S25088x2048.Idx → EReal} {srcA dstA : S1404.Idx → BitVec 32} {dinvA : S25088.Idx → EReal}
  {P : S25088x2048.Idx → EReal} {W1 : S2048x1024.Idx → EReal} {b1 : S1024.Idx → EReal}
  {W2 : S1024x2048.Idx → EReal} {b2 : S2048.Idx → EReal}
  (S : Start W xf srcA dstA dinvA P W1 b1 W2 b2)
include S

/-- The overwrite starts at row 0. -/
theorem startRow_zero (i : S1.Idx) : ((Rd W t_v102) i).toInt = 0 := by
  rw [st_v102 W, st_c_16 W, Cert.LibHR.bcastScalar_apply]
  show (0#32 : BitVec 32).toInt = 0
  decide

/-- The line's result at node `n`, feature `c`. -/
theorem result_apply
    (hP : ∀ (n : Fin 25088) (c : Fin 2048), P (ix2 n c) = plain (rowsOf xf) (matOf W1) (vecOf b1) (matOf W2) (vecOf b2) n.val c)
    (n : Fin 25088) (c : Fin 2048) :
    (Rd W t_v103) (ix2 n c)
      = Cert.Gcn.out (edges srcA dstA) (rowsOf xf) (matOf W1) (vecOf b1) (matOf W2) (vecOf b2) n.val c := by
  rw [st_v103 W, a_v20 S]
  by_cases hn : n.val < 196
  · exact (blockScatter_lt (N := 25088) (M := 196) (C := 2048) (by decide) _ P _ (startRow_zero S) _ ⟨n.val, hn⟩ c).trans
      (layer2_apply S ⟨n.val, hn⟩ c)
  · refine (blockScatter_ge (N := 25088) (M := 196) (C := 2048) (by decide) _ P _ (startRow_zero S) _ n c (by omega)).trans ?_
    rw [hP n c]
    exact (out_eq_plain_of_no_edge (edges srcA dstA)
      (fun e => ⟨(S.src_range e).1, (S.src_range e).2, (S.dst_range e).1, (S.dst_range e).2⟩) _ _ _ _ _ n.val (by omega) c).symm

end

/-- THE OPERATIONS AFTER THE REGION: from contents holding the flattened input, the edge list's two rows (every endpoint
    among the first 196 nodes), the nodes' normalising weights, the region's result (the plain two-layer network of each
    row) and the parameters, the line leaves the specification's two-layer graph network in its result buffer. -/
theorem tail_out (W : Valuation τ sig (Elt Ideal))
    (xf : S25088x2048.Idx → EReal) (srcA dstA : S1404.Idx → BitVec 32) (dinvA : S25088.Idx → EReal)
    (P : S25088x2048.Idx → EReal) (W1 : S2048x1024.Idx → EReal) (b1 : S1024.Idx → EReal)
    (W2 : S1024x2048.Idx → EReal) (b2 : S2048.Idx → EReal)
    (h_xf : (W (Proc.devRef .tc main_call0_v1) : BufTy.Contents (Elt Ideal) (⟨S25088x2048, .f32⟩ : BufTy)) = xf)
    (h_src : (W (Proc.devRef .tc main_call0_v3) : BufTy.Contents (Elt Ideal) (⟨S1404, .i32⟩ : BufTy)) = srcA)
    (h_dst : (W (Proc.devRef .tc main_call0_v5) : BufTy.Contents (Elt Ideal) (⟨S1404, .i32⟩ : BufTy)) = dstA)
    (h_dinv : (W (Proc.devRef .tc main_call0_v15) : BufTy.Contents (Elt Ideal) (⟨S25088, .f32⟩ : BufTy)) = dinvA)
    (h_P : (W (Proc.devRef .tc main_call0_v20) : BufTy.Contents (Elt Ideal) (⟨S25088x2048, .f32⟩ : BufTy)) = P)
    (h_W1 : (W (Proc.devRef .tc main_arg2) : BufTy.Contents (Elt Ideal) (⟨S2048x1024, .f32⟩ : BufTy)) = W1)
    (h_b1 : (W (Proc.devRef .tc main_arg3) : BufTy.Contents (Elt Ideal) (⟨S1024, .f32⟩ : BufTy)) = b1)
    (h_W2 : (W (Proc.devRef .tc main_arg4) : BufTy.Contents (Elt Ideal) (⟨S1024x2048, .f32⟩ : BufTy)) = W2)
    (h_b2 : (W (Proc.devRef .tc main_arg5) : BufTy.Contents (Elt Ideal) (⟨S2048, .f32⟩ : BufTy)) = b2)
    (hsrc : ∀ e : Fin 1404, 0 ≤ (srcA (ix1 e)).toInt ∧ (srcA (ix1 e)).toInt < 196)
    (hdst : ∀ e : Fin 1404, 0 ≤ (dstA (ix1 e)).toInt ∧ (dstA (ix1 e)).toInt < 196)
    (hdinv : ∀ n : Fin 25088, dinvA (ix1 n)
      = dinv (Cert.Gcn.Edges.mk (fun e => (srcA (ix1 e)).toInt) (fun e => (dstA (ix1 e)).toInt)) n.val)
    (hP : ∀ (n : Fin 25088) (c : Fin 2048), P (ix2 n c) = plain (rowsOf xf) (matOf W1) (vecOf b1) (matOf W2) (vecOf b2) n.val c)
    (n : Fin 25088) (c : Fin 2048) :
    (StableHlo.after (hostOps1 (F := Ideal)) W (Proc.devRef .tc main_call0_v103)
        : BufTy.Contents (Elt Ideal) (⟨S25088x2048, .f32⟩ : BufTy)) (ix2 n c)
      = Cert.Gcn.out (Cert.Gcn.Edges.mk (fun e => (srcA (ix1 e)).toInt) (fun e => (dstA (ix1 e)).toInt))
          (rowsOf xf) (matOf W1) (vecOf b1) (matOf W2) (vecOf b2) n.val c := by
  have S : Start W xf srcA dstA dinvA P W1 b1 W2 b2 :=
    ⟨h_xf, h_src, h_dst, h_dinv, h_P, h_W1, h_b1, h_W2, h_b2, hsrc, hdst, hdinv⟩
  have h := result_apply S hP n c
  unfold Rd at h
  generalize after (hostOps1 (F := Ideal)) W (Proc.devRef .tc main_call0_v103) = x at h ⊢
  exact h

end Cert.KernelIdeal.Tail

end
-- ==== Proof.Bridge.lean ====
/-
  The kernel's result is the reference's result.

  The second host line starts from: the flattened input, the edge array's two rows, the nodes' weights — each as the first
  host line left them, which is what the specification calls them — and the region's result, the dense two-layer array.
  From there it leaves the specification's network in the array it overwrites, and the reference's last array before its
  final reshape is the specification's network of the same data. Both programs end with the same reshape.
-/
import proofs.«149964_j22067541967300_2_alg».proof.Proof.KITail
import proofs.«149964_j22067541967300_2_alg».proof.Proof.HeadRead
import proofs.«149964_j22067541967300_2_alg».proof.Proof.RefResult
import proofs.«149964_j22067541967300_2_alg».proof.Proof.TailOut

set_option maxRecDepth 16384

noncomputable section

namespace Cert.Gcn.Bridge

open Cert.KernelIdeal Cert.KernelIdeal.Gen Cert.KernelIdeal.Hand Cert.KernelIdeal.HandValue
open Idealize.ShloMosaic Idealize.ShloMosaic.TcCoe Idealize.ShloMosaic.ValueIdx Idealize.ShloMosaic.StableHlo
open Idealize.SL Idealize.SL.Sem
open Cert.Gcn

variable (m : (ℓ : Loc nD τ sig) → Buf (Elt Ideal) ℓ) (c : Dev nD)

/-- The flattened input, the two rows of the edge array and the nodes' weights, as the first host line left them. -/
abbrev xfA : S25088x2048.Idx → EReal := V m c main_call0_v1
abbrev srcA : S1404.Idx → BitVec 32 := V m c main_call0_v3
abbrev dstA : S1404.Idx → BitVec 32 := V m c main_call0_v5
abbrev dinvA : S25088.Idx → EReal := V m c main_call0_v15
/-- The parameters, as launched. -/
abbrev w1A : S2048x1024.Idx → EReal := m ((c.tc : Thread nD τ).loc main_arg2)
abbrev b1A : S1024.Idx → EReal := m ((c.tc : Thread nD τ).loc main_arg3)
abbrev w2A : S1024x2048.Idx → EReal := m ((c.tc : Thread nD τ).loc main_arg4)
abbrev b2A : S2048.Idx → EReal := m ((c.tc : Thread nD τ).loc main_arg5)
abbrev eA : S2x1404.Idx → BitVec 32 := m ((c.tc : Thread nD τ).loc main_arg1)

/-- The edges the second host line sees are the edge array's. -/
theorem edges_eq : Edges.mk (fun e => (srcA m c (ix1 e)).toInt) (fun e => (dstA m c (ix1 e)).toInt) = edgesOf (eA m c) := by
  unfold edgesOf
  congr 1
  · funext e; exact congrArg BitVec.toInt (Cert.Gcn.Head.v3_apply m c e)
  · funext e; exact congrArg BitVec.toInt (Cert.Gcn.Head.v5_apply m c e)

/-- The region's result is the plain two-layer network of each row, in the specification's words. -/
theorem dense_is_plain (n : Fin 25088) (q : Fin 2048) :
    denseArr (V m c main_call0_v1) (V m c main_call0_v16) (V m c main_call0_v18) (V m c main_call0_v17) (V m c main_call0_v19) (ix2 n q)
      = plain (rowsOf (xfA m c)) (matOf (w1A m c)) (vecOf (b1A m c)) (matOf (w2A m c)) (vecOf (b2A m c)) n.val q := by
  show dense (V m c main_call0_v1) (V m c main_call0_v16) (V m c main_call0_v18) (V m c main_call0_v17) (V m c main_call0_v19) n q = _
  unfold dense plain
  simp only [rowsOf_lt, matOf, vecOf, Cert.Gcn.Head.v16_eq m c, Cert.Gcn.Head.v17_eq m c, Cert.Gcn.Head.v18_apply m c, Cert.Gcn.Head.v19_apply m c]

/-- What the second host line leaves in the overwritten array is the specification's network. -/
theorem tail_is_spec (hE : InGrid (eA m c)) (n : Fin 25088) (q : Fin 2048) :
    (StableHlo.after (hostOps1 (F := Ideal)) (Wt m c) (Proc.devRef .tc main_call0_v103)
        : BufTy.Contents (Elt Ideal) (⟨S25088x2048, .f32⟩ : BufTy)) (ix2 n q)
      = out (edgesOf (eA m c)) (rowsOf (xfA m c)) (matOf (w1A m c)) (vecOf (b1A m c)) (matOf (w2A m c)) (vecOf (b2A m c)) n.val q := by
  have hsrc : ∀ e : Fin 1404, 0 ≤ (srcA m c (ix1 e)).toInt ∧ (srcA m c (ix1 e)).toInt < 196 := fun e => by
    rw [show srcA m c (ix1 e) = eA m c (ix2 (0 : Fin 2) e) from Cert.Gcn.Head.v3_apply m c e]; exact hE _
  have hdst : ∀ e : Fin 1404, 0 ≤ (dstA m c (ix1 e)).toInt ∧ (dstA m c (ix1 e)).toInt < 196 := fun e => by
    rw [show dstA m c (ix1 e) = eA m c (ix2 (1 : Fin 2) e) from Cert.Gcn.Head.v5_apply m c e]; exact hE _
  have hdinv : ∀ n : Fin 25088, dinvA m c (ix1 n)
      = dinv (Edges.mk (fun e => (srcA m c (ix1 e)).toInt) (fun e => (dstA m c (ix1 e)).toInt)) n.val := fun n => by
    rw [edges_eq]; exact Cert.Gcn.Head.v15_apply m c hE n
  have h := Cert.KernelIdeal.Tail.tail_out (Wt m c) (xfA m c) (srcA m c) (dstA m c) (dinvA m c)
    (denseArr (V m c main_call0_v1) (V m c main_call0_v16) (V m c main_call0_v18) (V m c main_call0_v17) (V m c main_call0_v19))
    (w1A m c) (b1A m c) (w2A m c) (b2A m c)
    (Wt_v1 m c) (Wt_v3 m c) (Wt_v5 m c) (Wt_v15 m c) (Wt_v20 m c) (Wt_arg2 m c) (Wt_arg3 m c) (Wt_arg4 m c) (Wt_arg5 m c)
    hsrc hdst hdinv (dense_is_plain m c) n q
  rw [edges_eq] at h
  exact h

/-- The flattened input is the reference's flattened input. -/
theorem xf_eq : xfA m c = Cert.ReferenceIdeal.ReadP.val_main_v1 (F := Ideal) (m ((c.tc : Thread nD τ).loc main_arg0)) := by
  show V m c main_call0_v1 = _
  rw [Cert.Gcn.Head.v1_eq m c]
  rfl

/-- THE RESULTS AGREE: what the kernel leaves in its result is the reference's result of the same arguments. -/
theorem result_is_ref (hE : InGrid (eA m c)) :
    Pipeline.afterTail₀ cfgs (dats m) 0 (V0 m) [hostOps1] c main_v0
      = Cert.ReferenceIdeal.ReadP.val_main_v92 (F := Ideal) (m ((c.tc : Thread nD τ).loc main_arg0)) (eA m c) (w1A m c) (b1A m c) (w2A m c) (b2A m c) := by
  rw [result_eq]
  unfold Cert.ReferenceIdeal.ReadP.val_main_v92
  have h2 : (StableHlo.after (hostOps1 (F := Ideal)) (Wt m c) (Proc.devRef .tc main_call0_v103)
        : BufTy.Contents (Elt Ideal) (⟨S25088x2048, .f32⟩ : BufTy))
      = Cert.ReferenceIdeal.ReadP.val_main_v91 (F := Ideal) (m ((c.tc : Thread nD τ).loc main_arg0)) (eA m c) (w1A m c) (b1A m c) (w2A m c) (b2A m c) := by
    funext j
    obtain ⟨n, q, rfl⟩ : ∃ (n : Fin 25088) (q : Fin 2048), j = ix2 n q := ⟨j 0, j 1, eq_ix2 j⟩
    rw [tail_is_spec m c hE n q, xf_eq]
    exact (Cert.Gcn.Ref.result_apply _ (eA m c) (w1A m c) (b1A m c) (w2A m c) (b2A m c) hE n q).symm
  rw [h2]

end Cert.Gcn.Bridge

end
-- ==== Proof.lean ====
/-
  The certificate of a two-layer graph convolution against its reference.

  Both programs compute, on 25088 nodes with 2048 features, two layers `relu (Â (h W) + b)` where `Â` adds to every node
  its neighbours along 1404 given edges, each weighted by the inverse square roots of the two endpoint degrees, and a
  self loop. The reference does so for every node. The kernel computes the two dense layers `relu (h W + b)` of every
  node in one region of 49 blocks of 512 rows, and then recomputes the two graph layers on the first 196 nodes only and
  overwrites those rows. The precondition says every edge endpoint is one of the first 196 nodes. Then a node from 196 on
  receives no edge: its degree is one, its weight `rsqrt 1 = 1`, its neighbour sum empty, and its graph layer is the dense
  layer of its own row — what the region computed; and for a node below 196 both programs evaluate the same sums over the
  same edges, reading only rows below 196. Only `0 + x = x`, `x · 1 = x` and the laws of finite sums are used, so no
  finiteness of the inputs enters.

  The frames: each kernel program is a line of host operations, the region, and a second line; the region's body reads
  five whole blocks and stores one, so the library's run of such a program applies, and neither line writes an argument.
  The reference is a straight line of host operations. The idealization rewrote nothing, so the fourth conjunct is trivial.
-/
import proofs.«149964_j22067541967300_2_alg».proof.Defs
import proofs.«149964_j22067541967300_2_alg».proof.Proof.Gen.Kernel
import proofs.«149964_j22067541967300_2_alg».proof.Proof.Gen.KernelIdeal
import proofs.«149964_j22067541967300_2_alg».proof.Proof.Gen.ReferenceIdeal
import proofs.«149964_j22067541967300_2_alg».proof.Proof.Gen.Pre_finite_inputs
import proofs.«149964_j22067541967300_2_alg».proof.Proof.Gen.ReferenceIdeal.Run
import proofs.«149964_j22067541967300_2_alg».proof.Proof.KFrame
import proofs.«149964_j22067541967300_2_alg».proof.Proof.KIFrame
import proofs.«149964_j22067541967300_2_alg».proof.Proof.DomPre
import proofs.«149964_j22067541967300_2_alg».proof.Proof.Bridge
import Idealize.ShloMosaic.Adequacy
import Idealize.ShloMosaic.Init

noncomputable section

namespace Cert.Proof

open Idealize.ShloMosaic Idealize.SL.Sem

/-- The word-level kernel runs to its end and leaves its arguments as they were. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs run to their ends, the arguments unchanged, and the kernel's
    result — what its second host line leaves — is the reference's result of the same arguments. -/
theorem algebraic : Cert.algebraic_KernelIdeal_ReferenceIdeal := by
  intro m ρ m' ρ' hpre hagree
  refine ⟨fun c => Pipeline.afterTail₀ Cert.KernelIdeal.cfgs (Cert.KernelIdeal.Hand.dats m) 0 (Cert.KernelIdeal.Hand.V0 m)
      [Cert.KernelIdeal.Gen.hostOps1] c Cert.KernelIdeal.main_v0, Cert.KernelIdeal.Hand.run_post (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.ReadP.val_main_v92_eq, (hagree c).1, (hagree c).2.1, (hagree c).2.2.1, (hagree c).2.2.2.1,
    (hagree c).2.2.2.2.1, (hagree c).2.2.2.2.2]
  exact (Cert.Gcn.Bridge.result_is_ref m c (Cert.Gcn.Dom.inGrid_KernelIdeal m hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
